-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x11 : Shape := ⟨2, ![50000, 11]⟩
abbrev S2x800000 : Shape := ⟨2, ![2, 800000]⟩
abbrev S11x128 : Shape := ⟨2, ![11, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x11 : S_.BroadcastsInDim S50000x11 (![] : Fin 0 → Fin S50000x11.rank)
  reducesTo_S50000x11_S_d0_1 : S50000x11.ReducesTo [0, 1] S_
  h_S_ : 0 < S_.numel
  bcast_S_S11x128 : S_.BroadcastsInDim S11x128 (![] : Fin 0 → Fin S11x128.rank)
  reducesTo_S11x128_S_d0_1 : S11x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg19 : FVec F S64x1 .f32) (main_arg20 : FVec F S1 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64x1 .f32 := Host.absf main_arg19
  let main_cst_34 : FVec F S_ .f32 := constant S_ .f32 0x7F800000#32
  let main_v90 : FVec F S64x1 .f32 := broadcastInDim S64x1 ![] bcast_S_S64x1 main_cst_34
  let main_v91 : IVec S64x1 1 := cmpf .olt main_v89 main_v90
  let main_c_35 : IVec S_ 1 := constantI S_ 1 1#1
  let main_v92 : IVec S_ 1 := (fun x v => Host.reduce IntOp.andi x v reducesTo_S64x1_S_d0_1 h_S_) main_v91 main_c_35
  let main_v93 : IVec S_ 1 := andi main_v88 main_v92
  let main_v94 : FVec F S1 .f32 := Host.absf main_arg20
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  main_v98

def fn_part4 {F : FTy → Type} [FloatOps F] (main_arg15 : FVec F S128 .f32) (main_arg16 : FVec F S128 .f32) (main_arg17 : FVec F S128x64 .f32) (main_arg18 : FVec F S64 .f32) (main_arg19 : FVec F S64x1 .f32) (main_arg20 : FVec F S1 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x64 .f32 := Host.absf main_arg17
  let main_cst_30 : FVec F S_ .f32 := constant S_ .f32 0x7F800000#32
  let main_v80 : FVec F S128x64 .f32 := broadcastInDim S128x64 ![] bcast_S_S128x64 main_cst_30
  let main_v81 : IVec S128x64 1 := cmpf .olt main_v79 main_v80
  let main_c_31 : IVec S_ 1 := constantI S_ 1 1#1
  let main_v82 : IVec S_ 1 := (fun x v => Host.reduce IntOp.andi x v reducesTo_S128x64_S_d0_1 h_S_) main_v81 main_c_31
  let main_v83 : IVec S_ 1 := andi main_v78 main_v82
  let main_v84 : FVec F S64 .f32 := Host.absf main_arg18
  let main_cst_32 : FVec F S_ .f32 := constant S_ .f32 0x7F800000#32
  fn_part5 (F := F) main_arg19 main_arg20 main_v83 main_v84 main_cst_32

def fn_part3 {F : FTy → Type} [FloatOps F] (main_arg12 : FVec F S128x128 .f32) (main_arg13 : FVec F S128 .f32) (main_arg14 : FVec F S128x128 .f32) (main_arg15 : FVec F S128 .f32) (main_arg16 : FVec F S128 .f32) (main_arg17 : FVec F S128x64 .f32) (main_arg18 : FVec F S64 .f32) (main_arg19 : FVec F S64x1 .f32) (main_arg20 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_arg16 main_arg17 main_arg18 main_arg19 main_arg20 main_v63 main_v67

def fn_part2 {F : FTy → Type} [FloatOps F] (main_arg8 : FVec F S128 .f32) (main_arg9 : FVec F S128x128 .f32) (main_arg10 : FVec F S128 .f32) (main_arg11 : FVec F S128 .f32) (main_arg12 : FVec F S128x128 .f32) (main_arg13 : FVec F S128 .f32) (main_arg14 : FVec F S128x128 .f32) (main_arg15 : FVec F S128 .f32) (main_arg16 : FVec F S128 .f32) (main_arg17 : FVec F S128x64 .f32) (main_arg18 : FVec F S64 .f32) (main_arg19 : FVec F S64x1 .f32) (main_arg20 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_arg20 main_v48 main_v49 main_v50

def fn_part1 {F : FTy → Type} [FloatOps F] (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128x128 .f32) (main_arg13 : FVec F S128 .f32) (main_arg14 : FVec F S128x128 .f32) (main_arg15 : FVec F S128 .f32) (main_arg16 : FVec F S128 .f32) (main_arg17 : FVec F S128x64 .f32) (main_arg18 : FVec F S64 .f32) (main_arg19 : FVec F S64x1 .f32) (main_arg20 : FVec F S1 .f32) (main_v13 : IVec S_ 1) (main_v16 : IVec S11x128 1) : IVec S_ 1 :=
  let main_c_5 : IVec S_ 1 := constantI S_ 1 1#1
  let main_v17 : IVec S_ 1 := (fun x v => Host.reduce IntOp.andi x v reducesTo_S11x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_v33

def fn {F : FTy → Type} [FloatOps F] (main_arg0 : FVec F S50000x11 .f32) (main_arg1 : IVec S2x800000 32) (main_arg2 : FVec F S11x128 .f32) (main_arg3 : FVec F S128 .f32) (main_arg4 : FVec F S11x128 .f32) (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128x128 .f32) (main_arg13 : FVec F S128 .f32) (main_arg14 : FVec F S128x128 .f32) (main_arg15 : FVec F S128 .f32) (main_arg16 : FVec F S128 .f32) (main_arg17 : FVec F S128x64 .f32) (main_arg18 : FVec F S64 .f32) (main_arg19 : FVec F S64x1 .f32) (main_arg20 : FVec F S1 .f32) : IVec S_ 1 :=
  let main_v0 : FVec F S50000x11 .f32 := Host.absf main_arg0
  let main_cst : FVec F S_ .f32 := constant S_ .f32 0x7F800000#32
  let main_v1 : FVec F S50000x11 .f32 := broadcastInDim S50000x11 ![] bcast_S_S50000x11 main_cst
  let main_v2 : IVec S50000x11 1 := cmpf .olt main_v0 main_v1
  let main_c : IVec S_ 1 := constantI S_ 1 1#1
  let main_v3 : IVec S_ 1 := (fun x v => Host.reduce IntOp.andi x v reducesTo_S50000x11_S_d0_1 h_S_) main_v2 main_c
  let main_v4 : FVec F S11x128 .f32 := Host.absf main_arg2
  let main_cst_0 : FVec F S_ .f32 := constant S_ .f32 0x7F800000#32
  let main_v5 : FVec F S11x128 .f32 := broadcastInDim S11x128 ![] bcast_S_S11x128 main_cst_0
  let main_v6 : IVec S11x128 1 := cmpf .olt main_v4 main_v5
  let main_c_1 : IVec S_ 1 := constantI S_ 1 1#1
  let main_v7 : IVec S_ 1 := (fun x v => Host.reduce IntOp.andi x v reducesTo_S11x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S11x128 .f32 := Host.absf main_arg4
  let main_cst_4 : FVec F S_ .f32 := constant S_ .f32 0x7F800000#32
  let main_v15 : FVec F S11x128 .f32 := broadcastInDim S11x128 ![] bcast_S_S11x128 main_cst_4
  let main_v16 : IVec S11x128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S50000x11 : Shape := ⟨2, ![50000, 11]⟩
abbrev S2x800000 : Shape := ⟨2, ![2, 800000]⟩
abbrev S11x128 : Shape := ⟨2, ![11, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x11 : Shape := ⟨2, ![800000, 11]⟩
abbrev S1x128 : Shape := ⟨2, ![1, 128]⟩
abbrev S50000x128 : Shape := ⟨2, ![50000, 128]⟩
abbrev S2000x11 : Shape := ⟨2, ![2000, 11]⟩
abbrev S2000x128 : Shape := ⟨2, ![2000, 128]⟩
abbrev S2000 : Shape := ⟨1, ![2000]⟩
abbrev S2000x1 : Shape := ⟨2, ![2000, 1]⟩
abbrev S800000x128 : Shape := ⟨2, ![800000, 128]⟩
abbrev S1x64 : Shape := ⟨2, ![1, 64]⟩
abbrev S1x1 : Shape := ⟨2, ![1, 1]⟩
abbrev S2000x64 : Shape := ⟨2, ![2000, 64]⟩
abbrev S50000 : Shape := ⟨1, ![50000]⟩

abbrev nBuf : Space → Nat
  | .hbm => 97
  | .vmem => 37
  | .smem => 0
  | _ => 0

abbrev bufTy : (tb : Table) → Fin (tcTables nBuf tb) → BufTy
  | .hbm, ⟨0, _⟩ => ⟨S50000x11, .f32⟩
  | .hbm, ⟨1, _⟩ => ⟨S2x800000, .i32⟩
  | .hbm, ⟨2, _⟩ => ⟨S11x128, .f32⟩
  | .hbm, ⟨3, _⟩ => ⟨S128, .f32⟩
  | .hbm, ⟨4, _⟩ => ⟨S11x128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128, .f32⟩
  | .hbm, ⟨17, _⟩ => ⟨S128x64, .f32⟩
  | .hbm, ⟨18, _⟩ => ⟨S64, .f32⟩
  | .hbm, ⟨19, _⟩ => ⟨S64x1, .f32⟩
  | .hbm, ⟨20, _⟩ => ⟨S1, .f32⟩
  | .hbm, ⟨21, _⟩ => ⟨S1x800000, .i32⟩
  | .hbm, ⟨22, _⟩ => ⟨S800000, .i32⟩
  | .hbm, ⟨23, _⟩ => ⟨S1x800000, .i32⟩
  | .hbm, ⟨24, _⟩ => ⟨S800000, .i32⟩
  | .hbm, ⟨25, _⟩ => ⟨S_, .f32⟩
  | .hbm, ⟨26, _⟩ => ⟨S800000x1, .f32⟩
  | .hbm, ⟨27, _⟩ => ⟨S_, .f32⟩
  | .hbm, ⟨28, _⟩ => ⟨S50000x1, .f32⟩
  | .hbm, ⟨29, _⟩ => ⟨S800000x1, .i32⟩
  | .hbm, ⟨30, _⟩ => ⟨S50000x1, .f32⟩
  | .hbm, ⟨31, _⟩ => ⟨S_, .f32⟩
  | .hbm, ⟨32, _⟩ => ⟨S50000x1, .f32⟩
  | .hbm, ⟨33, _⟩ => ⟨S50000x1, .f32⟩
  | .hbm, ⟨34, _⟩ => ⟨S_, .f32⟩
  | .hbm, ⟨35, _⟩ => ⟨S50000x1, .f32⟩
  | .hbm, ⟨36, _⟩ => ⟨S50000x1, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x11, .f32⟩
  | .hbm, ⟨46, _⟩ => ⟨S_, .f32⟩
  | .hbm, ⟨47, _⟩ => ⟨S50000x11, .f32⟩
  | .hbm, ⟨48, _⟩ => ⟨S800000x1, .i32⟩
  | .hbm, ⟨49, _⟩ => ⟨S50000x11, .f32⟩
  | .hbm, ⟨50, _⟩ => ⟨S50000x11, .f32⟩
  | .hbm, ⟨51, _⟩ => ⟨S50000x11, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S50000x128, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x128, .f32⟩
  | .hbm, ⟨65, _⟩ => ⟨S_, .f32⟩
  | .hbm, ⟨66, _⟩ => ⟨S50000x128, .f32⟩
  | .hbm, ⟨67, _⟩ => ⟨S800000x1, .i32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S50000x128, .f32⟩
  | .hbm, ⟨75, _⟩ => ⟨S_, .i32⟩
  | .hbm, ⟨76, _⟩ => ⟨S800000, .i32⟩
  | .hbm, ⟨77, _⟩ => ⟨S800000, .i1⟩
  | .hbm, ⟨78, _⟩ => ⟨S_, .i32⟩
  | .hbm, ⟨79, _⟩ => ⟨S800000, .i32⟩
  | .hbm, ⟨80, _⟩ => ⟨S800000, .i32⟩
  | .hbm, ⟨81, _⟩ => ⟨S800000, .i32⟩
  | .hbm, ⟨82, _⟩ => ⟨S800000x1, .i32⟩
  | .hbm, ⟨83, _⟩ => ⟨S800000x128, .f32⟩
  | .hbm, ⟨84, _⟩ => ⟨S_, .f32⟩
  | .hbm, ⟨85, _⟩ => ⟨S50000x128, .f32⟩
  | .hbm, ⟨86, _⟩ => ⟨S800000x1, .i32⟩
  | .hbm, ⟨87, _⟩ => ⟨S50000x128, .f32⟩
  | .hbm, ⟨88, _⟩ => ⟨S50000x128, .f32⟩
  | .hbm, ⟨89, _⟩ => ⟨S50000x128, .f32⟩
  | .hbm, ⟨90, _⟩ => ⟨S1x128, .f32⟩
  | .hbm, ⟨91, _⟩ => ⟨S1x128, .f32⟩
  | .hbm, ⟨92, _⟩ => ⟨S1x128, .f32⟩
  | .hbm, ⟨93, _⟩ => ⟨S1x64, .f32⟩
  | .hbm, ⟨94, _⟩ => ⟨S1x1, .f32⟩
  | .hbm, ⟨95, _⟩ => ⟨S50000x1, .f32⟩
  | .hbm, ⟨96, _⟩ => ⟨S50000, .f32⟩
  | .local _ .vmem, ⟨0, _⟩ => ⟨S2000x11, .f32⟩
  | .local _ .vmem, ⟨1, _⟩ => ⟨S2000x11, .f32⟩
  | .local _ .vmem, ⟨2, _⟩ => ⟨S2000x11, .f32⟩
  | .local _ .vmem, ⟨3, _⟩ => ⟨S2000x11, .f32⟩
  | .local _ .vmem, ⟨4, _⟩ => ⟨S11x128, .f32⟩
  | .local _ .vmem, ⟨5, _⟩ => ⟨S1x128, .f32⟩
  | .local _ .vmem, ⟨6, _⟩ => ⟨S11x128, .f32⟩
  | .local _ .vmem, ⟨7, _⟩ => ⟨S1x128, .f32⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S128x128, .f32⟩
  | .local _ .vmem, ⟨16, _⟩ => ⟨S1x128, .f32⟩
  | .local _ .vmem, ⟨17, _⟩ => ⟨S128x128, .f32⟩
  | .local _ .vmem, ⟨18, _⟩ => ⟨S1x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S128x128, .f32⟩
  | .local _ .vmem, ⟨27, _⟩ => ⟨S1x128, .f32⟩
  | .local _ .vmem, ⟨28, _⟩ => ⟨S128x128, .f32⟩
  | .local _ .vmem, ⟨29, _⟩ => ⟨S1x128, .f32⟩
  | .local _ .vmem, ⟨30, _⟩ => ⟨S1x128, .f32⟩
  | .local _ .vmem, ⟨31, _⟩ => ⟨S128x64, .f32⟩
  | .local _ .vmem, ⟨32, _⟩ => ⟨S1x64, .f32⟩
  | .local _ .vmem, ⟨33, _⟩ => ⟨S64x1, .f32⟩
  | .local _ .vmem, ⟨34, _⟩ => ⟨S1x1, .f32⟩
  | .local _ .vmem, ⟨35, _⟩ => ⟨S2000x1, .f32⟩
  | .local _ .vmem, ⟨36, _⟩ => ⟨S2000x1, .f32⟩
  | _, _ => ⟨S50000x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_cst_0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst_1 : Ref sig .tc := ⟨.hbm, 31, rfl⟩
abbrev main_v8 : Ref sig .tc := ⟨.hbm, 32, rfl⟩
abbrev main_v9 : Ref sig .tc := ⟨.hbm, 33, rfl⟩
abbrev main_cst_2 : Ref sig .tc := ⟨.hbm, 34, rfl⟩
abbrev main_v10 : Ref sig .tc := ⟨.hbm, 35, rfl⟩
abbrev main_v11 : Ref sig .tc := ⟨.hbm, 36, rfl⟩
abbrev main_c : Ref sig .tc := ⟨.hbm, 37, rfl⟩
abbrev main_v12 : Ref sig .tc := ⟨.hbm, 38, rfl⟩
abbrev main_v13 : Ref sig .tc := ⟨.hbm, 39, rfl⟩
abbrev main_c_3 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_4 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_c_5 : Ref sig .tc := ⟨.hbm, 56, rfl⟩
abbrev main_v28 : Ref sig .tc := ⟨.hbm, 57, rfl⟩
abbrev main_v29 : Ref sig .tc := ⟨.hbm, 58, rfl⟩
abbrev main_c_6 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_7 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_c_8 : Ref sig .tc := ⟨.hbm, 75, rfl⟩
abbrev main_v44 : Ref sig .tc := ⟨.hbm, 76, rfl⟩
abbrev main_v45 : Ref sig .tc := ⟨.hbm, 77, rfl⟩
abbrev main_c_9 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_10 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg8_0 : Ref sig .tc := ⟨.vmem, 32, rfl⟩
abbrev cc2_stg9_0 : Ref sig .tc := ⟨.vmem, 33, rfl⟩
abbrev cc2_stg10_0 : Ref sig .tc := ⟨.vmem, 34, rfl⟩
abbrev cc2_stg11_0 : Ref sig .tc := ⟨.vmem, 35, rfl⟩
abbrev cc2_stg11_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem8_0 : DmaSem sig := 32
abbrev cc2_sem9_0 : DmaSem sig := 33
abbrev cc2_sem10_0 : DmaSem sig := 34
abbrev cc2_sem11_0 : DmaSem sig := 35
abbrev cc2_sem11_1 : DmaSem sig := 36

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x11 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S11x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S11x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S2000x1 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000x1 : S_.BroadcastsInDim S800000x1 (![] : Fin 0 → Fin S800000x1.rank)
  bcast_S_S50000x1 : S_.BroadcastsInDim S50000x1 (![] : Fin 0 → Fin S50000x1.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S50000x11 : S_.BroadcastsInDim S50000x11 (![] : Fin 0 → Fin S50000x11.rank)
  bcast_S50000x1_S50000x11_0_1 : S50000x1.BroadcastsInDim S50000x11 (![0, 1] : Fin 2 → Fin S50000x11.rank)
  shapeCasts_S128_S1x128 : S128.ShapeCasts S1x128
  inb_S2000x11_S2000x11_0_0 : ∀ a, (![0, 0] : Fin 2 → Nat) a + S2000x11.size a ≤ S2000x11.size a
  h_S2000x11 : 0 < S2000x11.numel
  shapeCasts_S2000x11_S2000x11 : S2000x11.ShapeCasts S2000x11
  bitsLt_bf16_f32 : FTy.bits .bf16 < FTy.bits .f32
  inb_S11x128_S11x128_0_0 : ∀ a, (![0, 0] : Fin 2 → Nat) a + S11x128.size a ≤ S11x128.size a
  h_S11x128 : 0 < S11x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S64_S1x64 : S64.ShapeCasts S1x64
  shapeCasts_S1_S1x1 : S1.ShapeCasts S1x1
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S50000x1_S50000 : S50000x1.ShapeCasts S50000
  scatter_S50000x1_S800000x1_S800000x1_1_0_0_1_wf : ScatterDims.WF S50000x1 S800000x1 S800000x1 [1] [0] [0] 1
  gather_S50000x11_S800000x1_S800000x11_1_0_n_n_0_1_111_wf : GatherDims.WF S50000x11 S800000x1 S800000x11 [1] [0] [] [0] [] 1 ![1, 11]
  scatter_S50000x11_S800000x1_S800000x11_1_0_0_1_wf : ScatterDims.WF S50000x11 S800000x1 S800000x11 [1] [0] [0] 1
  dot_S2000x11_S11x128_S2000x128_1_0_0_1_n_n_wf : DotDims.WF S2000x11 S11x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  dot_S2000x64_S64x1_S2000x1_1_0_0_1_n_n_wf : DotDims.WF S2000x64 S64x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x11.size a ≤ S50000x11.size a
  hwx0_0 : ∀ i : grid0.Coords, EltTy.bits .f32 = 32 ∨ (Rect.block (s := S50000x11) S2000x11.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x11.size a ≤ S50000x11.size a
  hwx0_1 : ∀ i : grid0.Coords, EltTy.bits .f32 = 32 ∨ (Rect.block (s := S50000x11) S2000x11.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S11x128.size a ≤ S11x128.size a
  hwx0_2 : ∀ i : grid0.Coords, EltTy.bits .f32 = 32 ∨ (Rect.block (s := S11x128) S11x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S11x128.size a ≤ S11x128.size a
  hwx0_4 : ∀ i : grid0.Coords, EltTy.bits .f32 = 32 ∨ (Rect.block (s := S11x128) S11x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .f32 = 32 ∨ (Rect.block (s := S50000x128) S2000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x64.size a ≤ S128x64.size a
  hwx2_7 : ∀ i : grid2.Coords, EltTy.bits .f32 = 32 ∨ (Rect.block (s := S128x64) S128x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64x1.size a ≤ S64x1.size a
  hwx2_9 : ∀ i : grid2.Coords, EltTy.bits .f32 = 32 ∨ (Rect.block (s := S64x1) S64x1.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x1.size a ≤ S1x1.size a
  hwx2_10 : ∀ i : grid2.Coords, EltTy.bits .f32 = 32 ∨ (Rect.block (s := S1x1) S1x1.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S2000x1.size a ≤ S50000x1.size a
  hwx2_11 : ∀ i : grid2.Coords, EltTy.bits .f32 = 32 ∨ (Rect.block (s := S50000x1) S2000x1.size (cc2_transform_11 i) (hinb2_11 i)).WholeWords (EltTy.packing .f32)

variable [Facts₀]

def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S50000x11_S800000x1_S800000x11_1_0_n_n_0_1_111 : GatherDims S50000x11 S800000x1 S800000x11 where
  offsetDims := [1]
  collapsedSliceDims := [0]
  operandBatchingDims := []
  startIndicesBatchingDims := []
  startIndexMap := [0]
  indexVectorDim := 1
  sliceSizes := ![1, 11]
  wf := gather_S50000x11_S800000x1_S800000x11_1_0_n_n_0_1_111_wf
def scatter_S50000x11_S800000x1_S800000x11_1_0_0_1 : ScatterDims S50000x11 S800000x1 S800000x11 where
  updateWindowDims := [1]
  insertedWindowDims := [0]
  scatterDimsToOperandDims := [0]
  indexVectorDim := 1
  wf := scatter_S50000x11_S800000x1_S800000x11_1_0_0_1_wf
def dot_S2000x11_S11x128_S2000x128_1_0_0_1_n_n : DotDims S2000x11 S11x128 S2000x128 where
  lhsContracting := [1]
  rhsContracting := [0]
  lhsNonContracting := [0]
  rhsNonContracting := [1]
  lhsBatch := []
  rhsBatch := []
  wf := dot_S2000x11_S11x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf

abbrev win0_0 : Pipeline.Window sig grid0 :=
  Pipeline.Window.ofSpec (Memref.whole main_v23) S2000x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x11.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S11x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S11x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v39) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v42) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v43) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v55) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v58) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg17) S128x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v59) S1x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg19) S64x1.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v60) S1x1.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v61) S2000x1.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S50000x11 : Shape := ⟨2, ![50000, 11]⟩
abbrev S2x800000 : Shape := ⟨2, ![2, 800000]⟩
abbrev S11x128 : Shape := ⟨2, ![11, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x11 : Shape := ⟨2, ![800000, 11]⟩
abbrev S50000x1 : Shape := ⟨2, ![50000, 1]⟩
abbrev S50000x128 : Shape := ⟨2, ![50000, 128]⟩
abbrev S1x128 : Shape := ⟨2, ![1, 128]⟩
abbrev S50000 : Shape := ⟨1, ![50000]⟩
abbrev S800000x128 : Shape := ⟨2, ![800000, 128]⟩
abbrev S50000x64 : Shape := ⟨2, ![50000, 64]⟩
abbrev S1x64 : Shape := ⟨2, ![1, 64]⟩
abbrev S1x1 : Shape := ⟨2, ![1, 1]⟩

abbrev nBuf : Space → Nat
  | .hbm => 225
  | .vmem => 0
  | .smem => 0
  | _ => 0

abbrev hbmTy0_0 (i : Nat) : BufTy := match i % 128 with
  | 0 => ⟨S50000x11, .f32⟩
  | 1 => ⟨S2x800000, .i32⟩
  | 2 => ⟨S11x128, .f32⟩
  | 3 => ⟨S128, .f32⟩
  | 4 => ⟨S11x128, .f32⟩
  | 5 => ⟨S128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128, .f32⟩
  | 17 => ⟨S128x64, .f32⟩
  | 18 => ⟨S64, .f32⟩
  | 19 => ⟨S64x1, .f32⟩
  | 20 => ⟨S1, .f32⟩
  | 21 => ⟨S1x800000, .i32⟩
  | 22 => ⟨S800000, .i32⟩
  | 23 => ⟨S1x800000, .i32⟩
  | 24 => ⟨S800000, .i32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x11, .f32⟩
  | 34 => ⟨S_, .f32⟩
  | 35 => ⟨S50000x11, .f32⟩
  | 36 => ⟨S800000x1, .i32⟩
  | 37 => ⟨S50000x11, .f32⟩
  | 38 => ⟨S_, .f32⟩
  | 39 => ⟨S800000x1, .f32⟩
  | 40 => ⟨S_, .f32⟩
  | 41 => ⟨S50000x1, .f32⟩
  | 42 => ⟨S800000x1, .i32⟩
  | 43 => ⟨S50000x1, .f32⟩
  | 44 => ⟨S_, .f32⟩
  | 45 => ⟨S50000x1, .f32⟩
  | 46 => ⟨S50000x1, .f32⟩
  | 47 => ⟨S50000x11, .f32⟩
  | 48 => ⟨S50000x11, .f32⟩
  | 49 => ⟨S50000x128, .f32⟩
  | 50 => ⟨S1x128, .f32⟩
  | 51 => ⟨S50000x128, .f32⟩
  | 52 => ⟨S50000x128, .f32⟩
  | 53 => ⟨S50000x128, .f32⟩
  | 54 => ⟨S50000x128, .f32⟩
  | 55 => ⟨S_, .f32⟩
  | 56 => ⟨S50000, .f32⟩
  | 57 => ⟨S50000x1, .f32⟩
  | 58 => ⟨S_, .f32⟩
  | 59 => ⟨S50000x1, .f32⟩
  | 60 => ⟨S50000x1, .f32⟩
  | 61 => ⟨S50000x128, .f32⟩
  | 62 => ⟨S50000x128, .f32⟩
  | 63 => ⟨S50000x128, .f32⟩
  | 64 => ⟨S_, .f32⟩
  | 65 => ⟨S50000, .f32⟩
  | 66 => ⟨S50000x1, .f32⟩
  | 67 => ⟨S_, .f32⟩
  | 68 => ⟨S50000x1, .f32⟩
  | 69 => ⟨S50000x1, .f32⟩
  | 70 => ⟨S50000x128, .f32⟩
  | 71 => ⟨S50000x128, .f32⟩
  | 72 => ⟨S_, .f32⟩
  | 73 => ⟨S50000x1, .f32⟩
  | 74 => ⟨S50000x1, .f32⟩
  | 75 => ⟨S50000x1, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S1x128, .f32⟩
  | 82 => ⟨S50000x128, .f32⟩
  | 83 => ⟨S50000x128, .f32⟩
  | 84 => ⟨S_, .f32⟩
  | 85 => ⟨S50000x128, .f32⟩
  | 86 => ⟨S50000x128, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x128, .f32⟩
  | 96 => ⟨S_, .f32⟩
  | 97 => ⟨S50000x128, .f32⟩
  | 98 => ⟨S800000x1, .i32⟩
  | 99 => ⟨S50000x128, .f32⟩
  | 100 => ⟨S_, .f32⟩
  | 101 => ⟨S800000x1, .f32⟩
  | 102 => ⟨S_, .f32⟩
  | 103 => ⟨S50000x1, .f32⟩
  | 104 => ⟨S800000x1, .i32⟩
  | 105 => ⟨S50000x1, .f32⟩
  | 106 => ⟨S_, .f32⟩
  | 107 => ⟨S50000x1, .f32⟩
  | 108 => ⟨S50000x1, .f32⟩
  | 109 => ⟨S50000x128, .f32⟩
  | 110 => ⟨S50000x128, .f32⟩
  | 111 => ⟨S50000x128, .f32⟩
  | 112 => ⟨S1x128, .f32⟩
  | 113 => ⟨S50000x128, .f32⟩
  | 114 => ⟨S50000x128, .f32⟩
  | 115 => ⟨S50000x128, .f32⟩
  | 116 => ⟨S50000x128, .f32⟩
  | 117 => ⟨S_, .f32⟩
  | 118 => ⟨S50000, .f32⟩
  | 119 => ⟨S50000x1, .f32⟩
  | 120 => ⟨S_, .f32⟩
  | 121 => ⟨S50000x1, .f32⟩
  | 122 => ⟨S50000x1, .f32⟩
  | 123 => ⟨S50000x128, .f32⟩
  | 124 => ⟨S50000x128, .f32⟩
  | 125 => ⟨S50000x128, .f32⟩
  | 126 => ⟨S_, .f32⟩
  | 127 => ⟨S50000, .f32⟩
  | _ => ⟨S50000x11, .f32⟩

abbrev hbmTy0_1 (i : Nat) : BufTy := match i % 128 with
  | 0 => ⟨S50000x1, .f32⟩
  | 1 => ⟨S_, .f32⟩
  | 2 => ⟨S50000x1, .f32⟩
  | 3 => ⟨S50000x1, .f32⟩
  | 4 => ⟨S50000x128, .f32⟩
  | 5 => ⟨S50000x128, .f32⟩
  | 6 => ⟨S_, .f32⟩
  | 7 => ⟨S50000x1, .f32⟩
  | 8 => ⟨S50000x1, .f32⟩
  | 9 => ⟨S50000x1, .f32⟩
  | 10 => ⟨S50000x128, .f32⟩
  | 11 => ⟨S50000x128, .f32⟩
  | 12 => ⟨S1x128, .f32⟩
  | 13 => ⟨S50000x128, .f32⟩
  | 14 => ⟨S50000x128, .f32⟩
  | 15 => ⟨S1x128, .f32⟩
  | 16 => ⟨S50000x128, .f32⟩
  | 17 => ⟨S50000x128, .f32⟩
  | 18 => ⟨S_, .f32⟩
  | 19 => ⟨S50000x128, .f32⟩
  | 20 => ⟨S50000x128, .f32⟩
  | 21 => ⟨S50000x128, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x128, .f32⟩
  | 31 => ⟨S_, .f32⟩
  | 32 => ⟨S50000x128, .f32⟩
  | 33 => ⟨S800000x1, .i32⟩
  | 34 => ⟨S50000x128, .f32⟩
  | 35 => ⟨S_, .f32⟩
  | 36 => ⟨S800000x1, .f32⟩
  | 37 => ⟨S_, .f32⟩
  | 38 => ⟨S50000x1, .f32⟩
  | 39 => ⟨S800000x1, .i32⟩
  | 40 => ⟨S50000x1, .f32⟩
  | 41 => ⟨S_, .f32⟩
  | 42 => ⟨S50000x1, .f32⟩
  | 43 => ⟨S50000x1, .f32⟩
  | 44 => ⟨S50000x128, .f32⟩
  | 45 => ⟨S50000x128, .f32⟩
  | 46 => ⟨S50000x128, .f32⟩
  | 47 => ⟨S1x128, .f32⟩
  | 48 => ⟨S50000x128, .f32⟩
  | 49 => ⟨S50000x128, .f32⟩
  | 50 => ⟨S50000x128, .f32⟩
  | 51 => ⟨S50000x128, .f32⟩
  | 52 => ⟨S_, .f32⟩
  | 53 => ⟨S50000, .f32⟩
  | 54 => ⟨S50000x1, .f32⟩
  | 55 => ⟨S_, .f32⟩
  | 56 => ⟨S50000x1, .f32⟩
  | 57 => ⟨S50000x1, .f32⟩
  | 58 => ⟨S50000x128, .f32⟩
  | 59 => ⟨S50000x128, .f32⟩
  | 60 => ⟨S50000x128, .f32⟩
  | 61 => ⟨S_, .f32⟩
  | 62 => ⟨S50000, .f32⟩
  | 63 => ⟨S50000x1, .f32⟩
  | 64 => ⟨S_, .f32⟩
  | 65 => ⟨S50000x1, .f32⟩
  | 66 => ⟨S50000x1, .f32⟩
  | 67 => ⟨S50000x128, .f32⟩
  | 68 => ⟨S50000x128, .f32⟩
  | 69 => ⟨S_, .f32⟩
  | 70 => ⟨S50000x1, .f32⟩
  | 71 => ⟨S50000x1, .f32⟩
  | 72 => ⟨S50000x1, .f32⟩
  | 73 => ⟨S50000x128, .f32⟩
  | 74 => ⟨S50000x128, .f32⟩
  | 75 => ⟨S1x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S50000x128, .f32⟩
  | 85 => ⟨S50000x64, .f32⟩
  | 86 => ⟨S1x64, .f32⟩
  | 87 => ⟨S50000x64, .f32⟩
  | 88 => ⟨S50000x64, .f32⟩
  | 89 => ⟨S_, .f32⟩
  | 90 => ⟨S50000x64, .f32⟩
  | 91 => ⟨S50000x64, .f32⟩
  | 92 => ⟨S50000x1, .f32⟩
  | 93 => ⟨S1x1, .f32⟩
  | 94 => ⟨S50000x1, .f32⟩
  | 95 => ⟨S50000x1, .f32⟩
  | 96 => ⟨S50000, .f32⟩
  | _ => ⟨S50000x11, .f32⟩

abbrev hbmTy (i : Nat) : BufTy := match i / 128 with
  | 0 => hbmTy0_0 i
  | 1 => hbmTy0_1 i
  | _ => ⟨S50000x11, .f32⟩

abbrev bufTy : (tb : Table) → Fin (tcTables nBuf tb) → BufTy
  | .hbm, ⟨i, _⟩ => hbmTy i
  | _, _ => ⟨S50000x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_1 : Ref sig .tc := ⟨.hbm, 38, rfl⟩
abbrev main_v14 : Ref sig .tc := ⟨.hbm, 39, rfl⟩
abbrev main_cst_2 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_3 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_4 : Ref sig .tc := ⟨.hbm, 55, rfl⟩
abbrev main_v28 : Ref sig .tc := ⟨.hbm, 56, rfl⟩
abbrev main_v29 : Ref sig .tc := ⟨.hbm, 57, rfl⟩
abbrev main_cst_5 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_6 : Ref sig .tc := ⟨.hbm, 64, rfl⟩
abbrev main_v35 : Ref sig .tc := ⟨.hbm, 65, rfl⟩
abbrev main_v36 : Ref sig .tc := ⟨.hbm, 66, rfl⟩
abbrev main_cst_7 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_8 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_call0_cst : Ref sig .tc := ⟨.hbm, 84, rfl⟩
abbrev main_call0_v0 : Ref sig .tc := ⟨.hbm, 85, rfl⟩
abbrev main_v52 : Ref sig .tc := ⟨.hbm, 86, rfl⟩
abbrev main_c_9 : Ref sig .tc := ⟨.hbm, 87, rfl⟩
abbrev main_v53 : Ref sig .tc := ⟨.hbm, 88, rfl⟩
abbrev main_v54 : Ref sig .tc := ⟨.hbm, 89, rfl⟩
abbrev main_c_10 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_11 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_12 : Ref sig .tc := ⟨.hbm, 100, rfl⟩
abbrev main_v63 : Ref sig .tc := ⟨.hbm, 101, rfl⟩
abbrev main_cst_13 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_14 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_15 : Ref sig .tc := ⟨.hbm, 117, rfl⟩
abbrev main_v77 : Ref sig .tc := ⟨.hbm, 118, rfl⟩
abbrev main_v78 : Ref sig .tc := ⟨.hbm, 119, rfl⟩
abbrev main_cst_16 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_17 : Ref sig .tc := ⟨.hbm, 126, rfl⟩
abbrev main_v84 : Ref sig .tc := ⟨.hbm, 127, rfl⟩
abbrev main_v85 : Ref sig .tc := ⟨.hbm, 128, rfl⟩
abbrev main_cst_18 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_cst_19 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_call1_cst : Ref sig .tc := ⟨.hbm, 146, rfl⟩
abbrev main_call1_v0 : Ref sig .tc := ⟨.hbm, 147, rfl⟩
abbrev main_v101 : Ref sig .tc := ⟨.hbm, 148, rfl⟩
abbrev main_v102 : Ref sig .tc := ⟨.hbm, 149, rfl⟩
abbrev main_c_20 : Ref sig .tc := ⟨.hbm, 150, rfl⟩
abbrev main_v103 : Ref sig .tc := ⟨.hbm, 151, rfl⟩
abbrev main_v104 : Ref sig .tc := ⟨.hbm, 152, rfl⟩
abbrev main_c_21 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_cst_22 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_cst_23 : Ref sig .tc := ⟨.hbm, 163, rfl⟩
abbrev main_v113 : Ref sig .tc := ⟨.hbm, 164, rfl⟩
abbrev main_cst_24 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_cst_25 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_cst_26 : Ref sig .tc := ⟨.hbm, 180, rfl⟩
abbrev main_v127 : Ref sig .tc := ⟨.hbm, 181, rfl⟩
abbrev main_v128 : Ref sig .tc := ⟨.hbm, 182, rfl⟩
abbrev main_cst_27 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_cst_28 : Ref sig .tc := ⟨.hbm, 189, rfl⟩
abbrev main_v134 : Ref sig .tc := ⟨.hbm, 190, rfl⟩
abbrev main_v135 : Ref sig .tc := ⟨.hbm, 191, rfl⟩
abbrev main_cst_29 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_cst_30 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_call2_cst : Ref sig .tc := ⟨.hbm, 209, rfl⟩
abbrev main_call2_v0 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_call3_cst : Ref sig .tc := ⟨.hbm, 217, rfl⟩
abbrev main_call3_v0 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x11 : S_.BroadcastsInDim S50000x11 (![] : Fin 0 → Fin S50000x11.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x11_0_1 : S50000x1.BroadcastsInDim S50000x11 (![0, 1] : Fin 2 → Fin S50000x11.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  gather_S50000x11_S800000x1_S800000x11_1_0_n_n_0_1_111_wf : GatherDims.WF S50000x11 S800000x1 S800000x11 [1] [0] [] [0] [] 1 ![1, 11]
  scatter_S50000x11_S800000x1_S800000x11_1_0_0_1_wf : ScatterDims.WF S50000x11 S800000x1 S800000x11 [1] [0] [0] 1
  scatter_S50000x1_S800000x1_S800000x1_1_0_0_1_wf : ScatterDims.WF S50000x1 S800000x1 S800000x1 [1] [0] [0] 1
  dot_S50000x11_S11x128_S50000x128_1_0_0_1_n_n_wf : DotDims.WF S50000x11 S11x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  dot_S50000x64_S64x1_S50000x1_1_0_0_1_n_n_wf : DotDims.WF S50000x64 S64x1 S50000x1 [1] [0] [0] [1] [] []

variable [Facts₀]

def gather_S50000x11_S800000x1_S800000x11_1_0_n_n_0_1_111 : GatherDims S50000x11 S800000x1 S800000x11 where
  offsetDims := [1]
  collapsedSliceDims := [0]
  operandBatchingDims := []
  startIndicesBatchingDims := []
  startIndexMap := [0]
  indexVectorDim := 1
  sliceSizes := ![1, 11]
  wf := gather_S50000x11_S800000x1_S800000x11_1_0_n_n_0_1_111_wf
def scatter_S50000x11_S800000x1_S800000x11_1_0_0_1 : ScatterDims S50000x11 S800000x1 S800000x11 where
  updateWindowDims := [1]
  insertedWindowDims := [0]
  scatterDimsToOperandDims := [0]
  indexVectorDim := 1
  wf := scatter_S50000x11_S800000x1_S800000x11_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x11_S11x128_S50000x128_1_0_0_1_n_n : DotDims S50000x11 S11x128 S50000x128 where
  lhsContracting := [1]
  rhsContracting := [0]
  lhsNonContracting := [0]
  rhsNonContracting := [1]
  lhsBatch := []
  rhsBatch := []
  wf := dot_S50000x11_S11x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.Spec.lean ====
/-
  The network both programs compute, written once over plain index functions, with no program imported.

  A node's features are a row. One layer maps the row of neighbour means `agg i` and the node's own row `x i` to
    h(i, j)   = (Σ_k agg(i,k)·wl(k,j) + bl(j)) + Σ_k x(i,k)·wr(k,j)
    mu(i)     = (Σ_j h(i,j)) / 128,      var(i) = (Σ_j (h(i,j) − mu(i))²) / 128
    out(i, j) = max (((h(i,j) − mu(i)) · rsqrt(var(i) + ε)) · lnw(j) + lnb(j)) 0        (+ x(i,j) with the residual)
  and the classifier head maps a row to Σ_q max(Σ_j h(i,j)·cw0(j,q) + cb0(q)) 0 · cw1(q) + cb1.  Every layer is
  ROW-LOCAL: row `i` of the result depends on row `i` of `agg` and of `x` only — which is why a tiling of the
  nodes into blocks of rows computes the same array.

  The neighbour mean divides a segment sum `s` by `c = max cnt 1`.  One program multiplies by `1 / c`, the other
  divides by `c`; on the extended reals `x / y` is `x · y⁻¹` whenever `y ≠ 0`, and `c ≥ 1`, so the two agree at
  every `s`, the infinities included.
-/
import Idealize.ShloMosaic.PureOps.Ideal
import Idealize.ShloMosaic.PureOps.Ideal.Laws
import Idealize.ShloMosaic.PureOps.IdealRules

noncomputable section

open scoped BigOperators

namespace Cert.Sage

open Idealize.ShloMosaic

/-- The lane count `128.0`, the variance offset and `1.0`, as the words both programs print. -/
def c128 : EReal := Ideal.ofBits .f32 0x43000000#32
def ceps : EReal := Ideal.ofBits .f32 0x3727C5AC#32
def cone : EReal := Ideal.ofBits .f32 0x3F800000#32

theorem cone_eq : cone = 1 := IdealRules.sign_bit.ideal_onePat .f32

/-- The two linear maps and the bias, at row `i`, lane `j`. -/
def lin {N K : Nat} (agg x : Fin N → Fin K → EReal) (wl wr : Fin K → Fin 128 → EReal) (bl : Fin 128 → EReal)
    (i : Fin N) (j : Fin 128) : EReal :=
  (∑ k : Fin K, agg i k * wl k j + bl j) + ∑ k : Fin K, x i k * wr k j

/-- The mean of a row of 128 lanes. -/
def mean (h : Fin 128 → EReal) : EReal := Ideal.div (∑ j : Fin 128, h j) c128

/-- LayerNorm of a row, scaled and shifted, then the positive part. -/
def lnrelu (h lnw lnb : Fin 128 → EReal) (j : Fin 128) : EReal :=
  max ((h j - mean h) * Ideal.rsqrt (mean (fun l => (h l - mean h) * (h l - mean h)) + ceps) * lnw j + lnb j) 0

/-- A layer without the residual. -/
def layer0 {N K : Nat} (agg x : Fin N → Fin K → EReal) (wl wr : Fin K → Fin 128 → EReal) (bl lnw lnb : Fin 128 → EReal) :
    Fin N → Fin 128 → EReal :=
  fun i j => lnrelu (lin agg x wl wr bl i) lnw lnb j

/-- A layer with the residual `+ x`. -/
def layerR {N : Nat} (agg x : Fin N → Fin 128 → EReal) (wl wr : Fin 128 → Fin 128 → EReal) (bl lnw lnb : Fin 128 → EReal) :
    Fin N → Fin 128 → EReal :=
  fun i j => lnrelu (lin agg x wl wr bl i) lnw lnb j + x i j

/-- The two-layer classifier head of a row. -/
def head {N : Nat} (h : Fin N → Fin 128 → EReal) (cw0 : Fin 128 → Fin 64 → EReal) (cb0 : Fin 64 → EReal)
    (cw1 : Fin 64 → EReal) (cb1 : EReal) : Fin N → EReal :=
  fun i => (∑ q : Fin 64, max (∑ j : Fin 128, h i j * cw0 j q + cb0 q) 0 * cw1 q) + cb1

/-! ## Row-locality -/

theorem layer0_row {N N' K : Nat} (agg x : Fin N → Fin K → EReal) (agg' x' : Fin N' → Fin K → EReal)
    (wl wr : Fin K → Fin 128 → EReal) (bl lnw lnb : Fin 128 → EReal) (i : Fin N) (i' : Fin N')
    (ha : agg i = agg' i') (hx : x i = x' i') (j : Fin 128) :
    layer0 agg x wl wr bl lnw lnb i j = layer0 agg' x' wl wr bl lnw lnb i' j := by
  have hl : lin agg x wl wr bl i = lin agg' x' wl wr bl i' := by
    funext l; unfold lin; rw [ha, hx]
  unfold layer0; rw [hl]

theorem layerR_row {N N' : Nat} (agg x : Fin N → Fin 128 → EReal) (agg' x' : Fin N' → Fin 128 → EReal)
    (wl wr : Fin 128 → Fin 128 → EReal) (bl lnw lnb : Fin 128 → EReal) (i : Fin N) (i' : Fin N')
    (ha : agg i = agg' i') (hx : x i = x' i') (j : Fin 128) :
    layerR agg x wl wr bl lnw lnb i j = layerR agg' x' wl wr bl lnw lnb i' j := by
  have hl : lin agg x wl wr bl i = lin agg' x' wl wr bl i' := by
    funext l; unfold lin; rw [ha, hx]
  unfold layerR; rw [hl, hx]

theorem head_row {N N' : Nat} (h : Fin N → Fin 128 → EReal) (h' : Fin N' → Fin 128 → EReal) (cw0 : Fin 128 → Fin 64 → EReal)
    (cb0 : Fin 64 → EReal) (cw1 : Fin 64 → EReal) (cb1 : EReal) (i : Fin N) (i' : Fin N') (hh : h i = h' i') :
    head h cw0 cb0 cw1 cb1 i = head h' cw0 cb0 cw1 cb1 i' := by
  unfold head; rw [hh]

/-! ## The neighbour mean, in its two spellings -/

/-- The divisor: the in-degree, or one for a node with no incoming edge. -/
def cmax (cnt : EReal) : EReal := max cnt cone

theorem cmax_ne_zero (cnt : EReal) : cmax cnt ≠ 0 := by
  have h : (0 : EReal) < cmax cnt := by
    unfold cmax; rw [cone_eq]; exact lt_max_of_lt_right zero_lt_one
  exact h.ne'

/-- The segment sum times the reciprocal of the divisor. -/
def aggMul {N K : Nat} (s : Fin N → Fin K → EReal) (cnt : Fin N → EReal) : Fin N → Fin K → EReal :=
  fun i k => s i k * Ideal.div cone (cmax (cnt i))

/-- The segment sum over the divisor. -/
def aggDiv {N K : Nat} (s : Fin N → Fin K → EReal) (cnt : Fin N → EReal) : Fin N → Fin K → EReal :=
  fun i k => Ideal.div (s i k) (cmax (cnt i))

/-- Off zero a quotient is the product with the inverse, so multiplying by `1 / c` is dividing by `c`. -/
theorem aggMul_eq_aggDiv {N K : Nat} (s : Fin N → Fin K → EReal) (cnt : Fin N → EReal) : aggMul s cnt = aggDiv s cnt := by
  funext i k
  unfold aggMul aggDiv Ideal.div
  rw [if_neg (cmax_ne_zero _), if_neg (cmax_ne_zero _), cone_eq, one_mul]

/-! ## The whole network -/

/-- Three layers and the head, over the two neighbour-mean maps `A11` (11 features) and `A128` (128 features). -/
def net (A11 : (Fin 50000 → Fin 11 → EReal) → Fin 50000 → Fin 11 → EReal)
    (A128 : (Fin 50000 → Fin 128 → EReal) → Fin 50000 → Fin 128 → EReal)
    (x : Fin 50000 → Fin 11 → EReal) (wl0 wr0 : Fin 11 → Fin 128 → EReal) (bl0 lnw0 lnb0 : Fin 128 → EReal)
    (wl1 wr1 : Fin 128 → Fin 128 → EReal) (bl1 lnw1 lnb1 : Fin 128 → EReal)
    (wl2 wr2 : Fin 128 → Fin 128 → EReal) (bl2 lnw2 lnb2 : Fin 128 → EReal)
    (cw0 : Fin 128 → Fin 64 → EReal) (cb0 : Fin 64 → EReal) (cw1 : Fin 64 → EReal) (cb1 : EReal) : Fin 50000 → EReal :=
  head
    (layerR (A128 (layerR (A128 (layer0 (A11 x) x wl0 wr0 bl0 lnw0 lnb0)) (layer0 (A11 x) x wl0 wr0 bl0 lnw0 lnb0) wl1 wr1 bl1 lnw1 lnb1))
      (layerR (A128 (layer0 (A11 x) x wl0 wr0 bl0 lnw0 lnb0)) (layer0 (A11 x) x wl0 wr0 bl0 lnw0 lnb0) wl1 wr1 bl1 lnw1 lnb1)
      wl2 wr2 bl2 lnw2 lnb2)
    cw0 cb0 cw1 cb1

end Cert.Sage

end
-- ==== Proof.Region0.lean ====
/-
  Region 0, the first layer (11 input features, no residual), from blocks to the whole array — over ANY contents `V` the
  region is entered with.

  The nodes are tiled into 25 blocks of 2000 rows.  Point `t` of the grid stages rows 2000·t … 2000·t + 1999 of the
  neighbour means and of the features, and the weights, bias and LayerNorm vectors whole (their index maps are
  constant), and writes back block `t` of the result.  The body is row-local, so row `p` of what point `t` writes
  is the layer's row 2000·t + p of the whole arrays; the 25 blocks cover every row, so after the region the result
  array is the layer of the arrays as the region found them.
  What the body computes at an index (`Pay0`) is taken as a hypothesis here and supplied where the pieces are joined.
-/
import proofs.«113527_j11390253269041_2_alg».proof.Proof.Gen.KernelIdeal.Frame
import proofs.«113527_j11390253269041_2_alg».proof.Proof.Spec
import Idealize.ShloMosaic.Lib.Pipeline.Value
import Idealize.ShloMosaic.Lib.ValueIdx

set_option maxRecDepth 16384

noncomputable section

namespace Cert.KernelIdeal.Region0

open Cert.KernelIdeal Cert.KernelIdeal.Gen Cert.Sage Idealize.ShloMosaic Idealize.ShloMosaic.TcCoe Idealize.ShloMosaic.ValueIdx Idealize.SL.Sem
open Idealize.ShloMosaic.Pipeline (Dat Cfg Window)

/-- What the body leaves in the output block, at an index, as the specified function of the staged blocks. -/
def Pay0 : Prop :=
  ∀ (x0 x1 : Vec Ideal S2000x11 .f32) (x2 : Vec Ideal S11x128 .f32) (x3 : Vec Ideal S1x128 .f32) (x4 : Vec Ideal S11x128 .f32) (x5 x6 : Vec Ideal S1x128 .f32) (p : Fin 2000) (q : Fin 128),
    out0_7 (F := Ideal) x0 x1 x2 x3 x4 x5 x6 (ix2 p q)
      = layer0 (fun (a : Fin 2000) (k : Fin 11) => x0 (ix2 a k)) (fun (a : Fin 2000) (k : Fin 11) => x1 (ix2 a k))
          (fun (k : Fin 11) (j : Fin 128) => x2 (ix2 k j)) (fun (k : Fin 11) (j : Fin 128) => x4 (ix2 k j))
          (fun (j : Fin 128) => x3 (ix2 0 j)) (fun (j : Fin 128) => x5 (ix2 0 j)) (fun (j : Fin 128) => x6 (ix2 0 j)) p q

variable (V : (c : Dev nD) → (b : Ref sig .tc) → Buf (Elt Ideal) ((c : Thread nD τ).loc b))

/-- The result array the region leaves: the layer of the arrays it was entered with, row by row. -/
def G0 (c : Dev nD) : S50000x128.Idx → EReal := fun idx =>
  layer0 (fun (i : Fin 50000) (k : Fin 11) => V c main_v23 (ix2 i k)) (fun (i : Fin 50000) (k : Fin 11) => V c main_arg0 (ix2 i k))
      (fun (k : Fin 11) (j : Fin 128) => V c main_arg2 (ix2 k j)) (fun (k : Fin 11) (j : Fin 128) => V c main_arg4 (ix2 k j))
      (fun (j : Fin 128) => V c main_v24 (ix2 0 j)) (fun (j : Fin 128) => V c main_v25 (ix2 0 j)) (fun (j : Fin 128) => V c main_v26 (ix2 0 j))
      (idx 0) (idx 1)

/-- The printed index maps, decided over the grid: the row windows and the output move with the point, the rest
    stay at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- What point `t` writes back is block `t` of `G0`. -/
theorem flushed_eq (hpay : Pay0) (c : Dev nD) (t : Fin cfg0.N) :
    (dat0 (F := Ideal) V c).flushed 7 t = ((cfg0.win 7).blk t).view.read (Elt Ideal) (G0 V c) := by
  show (cfg0.win 7).cut (grid0.coords t) ((dat0 (F := Ideal) V c).after 7 t) = _
  rw [after0_7]
  funext j
  obtain ⟨p, q, rfl⟩ : ∃ (p : Fin 2000) (q : Fin 128), j = ix2 p q := ⟨j 0, j 1, eq_ix2 j⟩
  show out0_7 (iblk0 V c 0 t) (iblk0 V c 1 t) (iblk0 V c 2 t) (iblk0 V c 3 t) (iblk0 V c 4 t) (iblk0 V c 5 t) (iblk0 V c 6 t) (ix2 p q)
    = G0 V c (((cfg0.win 7).blk t).view.emb (ix2 p q))
  refine (hpay (iblk0 V c 0 t) (iblk0 V c 1 t) (iblk0 V c 2 t) (iblk0 V c 3 t) (iblk0 V c 4 t) (iblk0 V c 5 t) (iblk0 V c 6 t) p q).trans ?_
  obtain ⟨e0_0, e0_1, e1_0, e1_1, e2_0, e2_1, e3_0, e3_1, e4_0, e4_1, e5_0, e5_1, e6_0, e6_1, e7_0, e7_1⟩ := idx_facts t
  have ht : t.val < 25 := lt_of_lt_of_eq t.isLt N_0
  have hp : p.val < 2000 := p.isLt
  have hw2 : (fun (k : Fin 11) (j : Fin 128) => iblk0 V c 2 t (ix2 k j)) = fun k j => V c main_arg2 (ix2 k j) := by
    funext k j
    show V c main_arg2 (((cfg0.win 2).blk t).view.emb (ix2 k j)) = V c main_arg2 (ix2 k j)
    refine congrArg (V c main_arg2) (funext fun d => Fin.ext ?_)
    match d with
    | ⟨0, _⟩ => show win0_2.index t (0 : Fin 2) * 11 + 1 * k.val = k.val; omega
    | ⟨1, _⟩ => show win0_2.index t (1 : Fin 2) * 128 + 1 * j.val = j.val; omega
  have hw4 : (fun (k : Fin 11) (j : Fin 128) => iblk0 V c 4 t (ix2 k j)) = fun k j => V c main_arg4 (ix2 k j) := by
    funext k j
    show V c main_arg4 (((cfg0.win 4).blk t).view.emb (ix2 k j)) = V c main_arg4 (ix2 k j)
    refine congrArg (V c main_arg4) (funext fun d => Fin.ext ?_)
    match d with
    | ⟨0, _⟩ => show win0_4.index t (0 : Fin 2) * 11 + 1 * k.val = k.val; omega
    | ⟨1, _⟩ => show win0_4.index t (1 : Fin 2) * 128 + 1 * j.val = j.val; omega
  have hw3 : (fun (j : Fin 128) => iblk0 V c 3 t (ix2 0 j)) = fun j => V c main_v24 (ix2 0 j) := by
    funext j
    show V c main_v24 (((cfg0.win 3).blk t).view.emb (ix2 0 j)) = V c main_v24 (ix2 0 j)
    refine congrArg (V c main_v24) (funext fun d => Fin.ext ?_)
    match d with
    | ⟨0, _⟩ => show win0_3.index t (0 : Fin 2) * 1 + 1 * 0 = 0; omega
    | ⟨1, _⟩ => show win0_3.index t (1 : Fin 2) * 128 + 1 * j.val = j.val; omega
  have hw5 : (fun (j : Fin 128) => iblk0 V c 5 t (ix2 0 j)) = fun j => V c main_v25 (ix2 0 j) := by
    funext j
    show V c main_v25 (((cfg0.win 5).blk t).view.emb (ix2 0 j)) = V c main_v25 (ix2 0 j)
    refine congrArg (V c main_v25) (funext fun d => Fin.ext ?_)
    match d with
    | ⟨0, _⟩ => show win0_5.index t (0 : Fin 2) * 1 + 1 * 0 = 0; omega
    | ⟨1, _⟩ => show win0_5.index t (1 : Fin 2) * 128 + 1 * j.val = j.val; omega
  have hw6 : (fun (j : Fin 128) => iblk0 V c 6 t (ix2 0 j)) = fun j => V c main_v26 (ix2 0 j) := by
    funext j
    show V c main_v26 (((cfg0.win 6).blk t).view.emb (ix2 0 j)) = V c main_v26 (ix2 0 j)
    refine congrArg (V c main_v26) (funext fun d => Fin.ext ?_)
    match d with
    | ⟨0, _⟩ => show win0_6.index t (0 : Fin 2) * 1 + 1 * 0 = 0; omega
    | ⟨1, _⟩ => show win0_6.index t (1 : Fin 2) * 128 + 1 * j.val = j.val; omega
  rw [hw2, hw4, hw3, hw5, hw6]
  let i' : Fin 50000 := ⟨t.val * 2000 + p.val, by omega⟩
  have ha : (fun (a : Fin 2000) (k : Fin 11) => iblk0 V c 0 t (ix2 a k)) p = (fun (i : Fin 50000) (k : Fin 11) => V c main_v23 (ix2 i k)) i' := by
    funext k
    show V c main_v23 (((cfg0.win 0).blk t).view.emb (ix2 p k)) = V c main_v23 (ix2 i' k)
    refine congrArg (V c main_v23) (funext fun d => Fin.ext ?_)
    match d with
    | ⟨0, _⟩ => show win0_0.index t (0 : Fin 2) * 2000 + 1 * p.val = t.val * 2000 + p.val; omega
    | ⟨1, _⟩ => show win0_0.index t (1 : Fin 2) * 11 + 1 * k.val = k.val; omega
  have hx : (fun (a : Fin 2000) (k : Fin 11) => iblk0 V c 1 t (ix2 a k)) p = (fun (i : Fin 50000) (k : Fin 11) => V c main_arg0 (ix2 i k)) i' := by
    funext k
    show V c main_arg0 (((cfg0.win 1).blk t).view.emb (ix2 p k)) = V c main_arg0 (ix2 i' k)
    refine congrArg (V c main_arg0) (funext fun d => Fin.ext ?_)
    match d with
    | ⟨0, _⟩ => show win0_1.index t (0 : Fin 2) * 2000 + 1 * p.val = t.val * 2000 + p.val; omega
    | ⟨1, _⟩ => show win0_1.index t (1 : Fin 2) * 11 + 1 * k.val = k.val; omega
  have hi0 : (((cfg0.win 7).blk t).view.emb (ix2 p q)) 0 = i' := Fin.ext (by
    show win0_7.index t (0 : Fin 2) * 2000 + 1 * p.val = t.val * 2000 + p.val; omega)
  have hi1 : (((cfg0.win 7).blk t).view.emb (ix2 p q)) 1 = q := Fin.ext (by
    show win0_7.index t (1 : Fin 2) * 128 + 1 * q.val = q.val; omega)
  unfold G0
  rw [hi0, hi1]
  exact layer0_row _ _ _ _ _ _ _ _ _ p i' ha hx q

/-- An index of the result array is in point `t`'s block iff each coordinate is in the block's range. -/
theorem mem_blk (t : Fin cfg0.N) (i : S50000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v27).slice (win0_7.rect t)).set ↔ _
  rw [View.set_slice_whole, Rect.mem_set_unit]
  exact Iff.rfl

/-- Every row is in the block of the point `row / 2000`. -/
theorem cover (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  let t : Fin cfg0.N := ⟨(i 0).val / 2000, lt_of_lt_of_eq (by omega : (i 0).val / 2000 < 25) N_0.symm⟩
  obtain ⟨e0_0, e0_1, e1_0, e1_1, e2_0, e2_1, e3_0, e3_1, e4_0, e4_1, e5_0, e5_1, e6_0, e6_1, e7_0, e7_1⟩ := idx_facts t
  have htv : t.val = (i 0).val / 2000 := rfl
  refine ⟨t, flush0_7 t, ?_⟩
  rw [mem_blk]
  intro a
  match a with
  | ⟨0, _⟩ => show win0_7.index t (0 : Fin 2) * 2000 ≤ (i 0).val ∧ (i 0).val < win0_7.index t (0 : Fin 2) * 2000 + 2000; omega
  | ⟨1, _⟩ => show win0_7.index t (1 : Fin 2) * 128 ≤ (i 1).val ∧ (i 1).val < win0_7.index t (1 : Fin 2) * 128 + 128; omega

/-- After the region the result array is `G0` of the contents it was entered with. -/
theorem final (hpay : Pay0) (c : Dev nD) : (dat0 (F := Ideal) V c).arrAt 7 cfg0.N = G0 V c :=
  (dat0 (F := Ideal) V c).arrAt_eq_of_cover 7 (G0 V c) (fun t _ => flushed_eq V hpay c t) cover

end Cert.KernelIdeal.Region0

end
-- ==== Proof.Region1.lean ====
/-
  Region 1, the middle layer (128 features, with the residual), from blocks to the whole array — over ANY contents `V` the
  region is entered with.

  The nodes are tiled into 25 blocks of 2000 rows.  Point `t` of the grid stages rows 2000·t … 2000·t + 1999 of the
  neighbour means and of the features, and the weights, bias and LayerNorm vectors whole (their index maps are
  constant), and writes back block `t` of the result.  The body is row-local, so row `p` of what point `t` writes
  is the layer's row 2000·t + p of the whole arrays; the 25 blocks cover every row, so after the region the result
  array is the layer of the arrays as the region found them.
  What the body computes at an index (`Pay1`) is taken as a hypothesis here and supplied where the pieces are joined.
-/
import proofs.«113527_j11390253269041_2_alg».proof.Proof.Gen.KernelIdeal.Frame
import proofs.«113527_j11390253269041_2_alg».proof.Proof.Spec
import Idealize.ShloMosaic.Lib.Pipeline.Value
import Idealize.ShloMosaic.Lib.ValueIdx

set_option maxRecDepth 16384

noncomputable section

namespace Cert.KernelIdeal.Region1

open Cert.KernelIdeal Cert.KernelIdeal.Gen Cert.Sage Idealize.ShloMosaic Idealize.ShloMosaic.TcCoe Idealize.ShloMosaic.ValueIdx Idealize.SL.Sem
open Idealize.ShloMosaic.Pipeline (Dat Cfg Window)

/-- What the body leaves in the output block, at an index, as the specified function of the staged blocks. -/
def Pay1 : Prop :=
  ∀ (x0 x1 : Vec Ideal S2000x128 .f32) (x2 : Vec Ideal S128x128 .f32) (x3 : Vec Ideal S1x128 .f32) (x4 : Vec Ideal S128x128 .f32) (x5 x6 : Vec Ideal S1x128 .f32) (p : Fin 2000) (q : Fin 128),
    out1_7 (F := Ideal) x0 x1 x2 x3 x4 x5 x6 (ix2 p q)
      = layerR (fun (a : Fin 2000) (k : Fin 128) => x0 (ix2 a k)) (fun (a : Fin 2000) (k : Fin 128) => x1 (ix2 a k))
          (fun (k : Fin 128) (j : Fin 128) => x2 (ix2 k j)) (fun (k : Fin 128) (j : Fin 128) => x4 (ix2 k j))
          (fun (j : Fin 128) => x3 (ix2 0 j)) (fun (j : Fin 128) => x5 (ix2 0 j)) (fun (j : Fin 128) => x6 (ix2 0 j)) p q

variable (V : (c : Dev nD) → (b : Ref sig .tc) → Buf (Elt Ideal) ((c : Thread nD τ).loc b))

/-- The result array the region leaves: the layer of the arrays it was entered with, row by row. -/
def G1 (c : Dev nD) : S50000x128.Idx → EReal := fun idx =>
  layerR (fun (i : Fin 50000) (k : Fin 128) => V c main_v39 (ix2 i k)) (fun (i : Fin 50000) (k : Fin 128) => V c main_v27 (ix2 i k))
      (fun (k : Fin 128) (j : Fin 128) => V c main_arg7 (ix2 k j)) (fun (k : Fin 128) (j : Fin 128) => V c main_arg9 (ix2 k j))
      (fun (j : Fin 128) => V c main_v40 (ix2 0 j)) (fun (j : Fin 128) => V c main_v41 (ix2 0 j)) (fun (j : Fin 128) => V c main_v42 (ix2 0 j))
      (idx 0) (idx 1)

/-- The printed index maps, decided over the grid: the row windows and the output move with the point, the rest
    stay at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- What point `t` writes back is block `t` of `G1`. -/
theorem flushed_eq (hpay : Pay1) (c : Dev nD) (t : Fin cfg1.N) :
    (dat1 (F := Ideal) V c).flushed 7 t = ((cfg1.win 7).blk t).view.read (Elt Ideal) (G1 V c) := by
  show (cfg1.win 7).cut (grid1.coords t) ((dat1 (F := Ideal) V c).after 7 t) = _
  rw [after1_7]
  funext j
  obtain ⟨p, q, rfl⟩ : ∃ (p : Fin 2000) (q : Fin 128), j = ix2 p q := ⟨j 0, j 1, eq_ix2 j⟩
  show out1_7 (iblk1 V c 0 t) (iblk1 V c 1 t) (iblk1 V c 2 t) (iblk1 V c 3 t) (iblk1 V c 4 t) (iblk1 V c 5 t) (iblk1 V c 6 t) (ix2 p q)
    = G1 V c (((cfg1.win 7).blk t).view.emb (ix2 p q))
  refine (hpay (iblk1 V c 0 t) (iblk1 V c 1 t) (iblk1 V c 2 t) (iblk1 V c 3 t) (iblk1 V c 4 t) (iblk1 V c 5 t) (iblk1 V c 6 t) p q).trans ?_
  obtain ⟨e0_0, e0_1, e1_0, e1_1, e2_0, e2_1, e3_0, e3_1, e4_0, e4_1, e5_0, e5_1, e6_0, e6_1, e7_0, e7_1⟩ := idx_facts t
  have ht : t.val < 25 := lt_of_lt_of_eq t.isLt N_1
  have hp : p.val < 2000 := p.isLt
  have hw2 : (fun (k : Fin 128) (j : Fin 128) => iblk1 V c 2 t (ix2 k j)) = fun k j => V c main_arg7 (ix2 k j) := by
    funext k j
    show V c main_arg7 (((cfg1.win 2).blk t).view.emb (ix2 k j)) = V c main_arg7 (ix2 k j)
    refine congrArg (V c main_arg7) (funext fun d => Fin.ext ?_)
    match d with
    | ⟨0, _⟩ => show win1_2.index t (0 : Fin 2) * 128 + 1 * k.val = k.val; omega
    | ⟨1, _⟩ => show win1_2.index t (1 : Fin 2) * 128 + 1 * j.val = j.val; omega
  have hw4 : (fun (k : Fin 128) (j : Fin 128) => iblk1 V c 4 t (ix2 k j)) = fun k j => V c main_arg9 (ix2 k j) := by
    funext k j
    show V c main_arg9 (((cfg1.win 4).blk t).view.emb (ix2 k j)) = V c main_arg9 (ix2 k j)
    refine congrArg (V c main_arg9) (funext fun d => Fin.ext ?_)
    match d with
    | ⟨0, _⟩ => show win1_4.index t (0 : Fin 2) * 128 + 1 * k.val = k.val; omega
    | ⟨1, _⟩ => show win1_4.index t (1 : Fin 2) * 128 + 1 * j.val = j.val; omega
  have hw3 : (fun (j : Fin 128) => iblk1 V c 3 t (ix2 0 j)) = fun j => V c main_v40 (ix2 0 j) := by
    funext j
    show V c main_v40 (((cfg1.win 3).blk t).view.emb (ix2 0 j)) = V c main_v40 (ix2 0 j)
    refine congrArg (V c main_v40) (funext fun d => Fin.ext ?_)
    match d with
    | ⟨0, _⟩ => show win1_3.index t (0 : Fin 2) * 1 + 1 * 0 = 0; omega
    | ⟨1, _⟩ => show win1_3.index t (1 : Fin 2) * 128 + 1 * j.val = j.val; omega
  have hw5 : (fun (j : Fin 128) => iblk1 V c 5 t (ix2 0 j)) = fun j => V c main_v41 (ix2 0 j) := by
    funext j
    show V c main_v41 (((cfg1.win 5).blk t).view.emb (ix2 0 j)) = V c main_v41 (ix2 0 j)
    refine congrArg (V c main_v41) (funext fun d => Fin.ext ?_)
    match d with
    | ⟨0, _⟩ => show win1_5.index t (0 : Fin 2) * 1 + 1 * 0 = 0; omega
    | ⟨1, _⟩ => show win1_5.index t (1 : Fin 2) * 128 + 1 * j.val = j.val; omega
  have hw6 : (fun (j : Fin 128) => iblk1 V c 6 t (ix2 0 j)) = fun j => V c main_v42 (ix2 0 j) := by
    funext j
    show V c main_v42 (((cfg1.win 6).blk t).view.emb (ix2 0 j)) = V c main_v42 (ix2 0 j)
    refine congrArg (V c main_v42) (funext fun d => Fin.ext ?_)
    match d with
    | ⟨0, _⟩ => show win1_6.index t (0 : Fin 2) * 1 + 1 * 0 = 0; omega
    | ⟨1, _⟩ => show win1_6.index t (1 : Fin 2) * 128 + 1 * j.val = j.val; omega
  rw [hw2, hw4, hw3, hw5, hw6]
  let i' : Fin 50000 := ⟨t.val * 2000 + p.val, by omega⟩
  have ha : (fun (a : Fin 2000) (k : Fin 128) => iblk1 V c 0 t (ix2 a k)) p = (fun (i : Fin 50000) (k : Fin 128) => V c main_v39 (ix2 i k)) i' := by
    funext k
    show V c main_v39 (((cfg1.win 0).blk t).view.emb (ix2 p k)) = V c main_v39 (ix2 i' k)
    refine congrArg (V c main_v39) (funext fun d => Fin.ext ?_)
    match d with
    | ⟨0, _⟩ => show win1_0.index t (0 : Fin 2) * 2000 + 1 * p.val = t.val * 2000 + p.val; omega
    | ⟨1, _⟩ => show win1_0.index t (1 : Fin 2) * 128 + 1 * k.val = k.val; omega
  have hx : (fun (a : Fin 2000) (k : Fin 128) => iblk1 V c 1 t (ix2 a k)) p = (fun (i : Fin 50000) (k : Fin 128) => V c main_v27 (ix2 i k)) i' := by
    funext k
    show V c main_v27 (((cfg1.win 1).blk t).view.emb (ix2 p k)) = V c main_v27 (ix2 i' k)
    refine congrArg (V c main_v27) (funext fun d => Fin.ext ?_)
    match d with
    | ⟨0, _⟩ => show win1_1.index t (0 : Fin 2) * 2000 + 1 * p.val = t.val * 2000 + p.val; omega
    | ⟨1, _⟩ => show win1_1.index t (1 : Fin 2) * 128 + 1 * k.val = k.val; omega
  have hi0 : (((cfg1.win 7).blk t).view.emb (ix2 p q)) 0 = i' := Fin.ext (by
    show win1_7.index t (0 : Fin 2) * 2000 + 1 * p.val = t.val * 2000 + p.val; omega)
  have hi1 : (((cfg1.win 7).blk t).view.emb (ix2 p q)) 1 = q := Fin.ext (by
    show win1_7.index t (1 : Fin 2) * 128 + 1 * q.val = q.val; omega)
  unfold G1
  rw [hi0, hi1]
  exact layerR_row _ _ _ _ _ _ _ _ _ p i' ha hx q

/-- An index of the result array is in point `t`'s block iff each coordinate is in the block's range. -/
theorem mem_blk (t : Fin cfg1.N) (i : S50000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v43).slice (win1_7.rect t)).set ↔ _
  rw [View.set_slice_whole, Rect.mem_set_unit]
  exact Iff.rfl

/-- Every row is in the block of the point `row / 2000`. -/
theorem cover (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  let t : Fin cfg1.N := ⟨(i 0).val / 2000, lt_of_lt_of_eq (by omega : (i 0).val / 2000 < 25) N_1.symm⟩
  obtain ⟨e0_0, e0_1, e1_0, e1_1, e2_0, e2_1, e3_0, e3_1, e4_0, e4_1, e5_0, e5_1, e6_0, e6_1, e7_0, e7_1⟩ := idx_facts t
  have htv : t.val = (i 0).val / 2000 := rfl
  refine ⟨t, flush1_7 t, ?_⟩
  rw [mem_blk]
  intro a
  match a with
  | ⟨0, _⟩ => show win1_7.index t (0 : Fin 2) * 2000 ≤ (i 0).val ∧ (i 0).val < win1_7.index t (0 : Fin 2) * 2000 + 2000; omega
  | ⟨1, _⟩ => show win1_7.index t (1 : Fin 2) * 128 ≤ (i 1).val ∧ (i 1).val < win1_7.index t (1 : Fin 2) * 128 + 128; omega

/-- After the region the result array is `G1` of the contents it was entered with. -/
theorem final (hpay : Pay1) (c : Dev nD) : (dat1 (F := Ideal) V c).arrAt 7 cfg1.N = G1 V c :=
  (dat1 (F := Ideal) V c).arrAt_eq_of_cover 7 (G1 V c) (fun t _ => flushed_eq V hpay c t) cover

end Cert.KernelIdeal.Region1

end
-- ==== Proof.Region2.lean ====
/-
  Region 2, the last layer with the classifier head on top: one number per node, from blocks to the whole array — over ANY contents `V` the
  region is entered with.

  The nodes are tiled into 25 blocks of 2000 rows.  Point `t` of the grid stages rows 2000·t … 2000·t + 1999 of the
  neighbour means and of the features, and the weights, bias and LayerNorm vectors whole (their index maps are
  constant), and writes back block `t` of the result.  The body is row-local, so row `p` of what point `t` writes
  is the layer's row 2000·t + p of the whole arrays; the 25 blocks cover every row, so after the region the result
  array is the layer of the arrays as the region found them.
  What the body computes at an index (`Pay2`) is taken as a hypothesis here and supplied where the pieces are joined.
-/
import proofs.«113527_j11390253269041_2_alg».proof.Proof.Gen.KernelIdeal.Frame
import proofs.«113527_j11390253269041_2_alg».proof.Proof.Spec
import Idealize.ShloMosaic.Lib.Pipeline.Value
import Idealize.ShloMosaic.Lib.ValueIdx

set_option maxRecDepth 16384

noncomputable section

namespace Cert.KernelIdeal.Region2

open Cert.KernelIdeal Cert.KernelIdeal.Gen Cert.Sage Idealize.ShloMosaic Idealize.ShloMosaic.TcCoe Idealize.ShloMosaic.ValueIdx Idealize.SL.Sem
open Idealize.ShloMosaic.Pipeline (Dat Cfg Window)

/-- What the body leaves in the output block, at an index, as the specified function of the staged blocks. -/
def Pay2 : Prop :=
  ∀ (x0 x1 : Vec Ideal S2000x128 .f32) (x2 : Vec Ideal S128x128 .f32) (x3 : Vec Ideal S1x128 .f32) (x4 : Vec Ideal S128x128 .f32) (x5 x6 : Vec Ideal S1x128 .f32) (x7 : Vec Ideal S128x64 .f32) (x8 : Vec Ideal S1x64 .f32) (x9 : Vec Ideal S64x1 .f32) (x10 : Vec Ideal S1x1 .f32) (p : Fin 2000),
    out2_11 (F := Ideal) x0 x1 x2 x3 x4 x5 x6 x7 x8 x9 x10 (ix2 p 0)
      = head (layerR (fun (a : Fin 2000) (k : Fin 128) => x0 (ix2 a k)) (fun (a : Fin 2000) (k : Fin 128) => x1 (ix2 a k))
          (fun (k : Fin 128) (j : Fin 128) => x2 (ix2 k j)) (fun (k : Fin 128) (j : Fin 128) => x4 (ix2 k j))
          (fun (j : Fin 128) => x3 (ix2 0 j)) (fun (j : Fin 128) => x5 (ix2 0 j)) (fun (j : Fin 128) => x6 (ix2 0 j)))
          (fun (j : Fin 128) (q : Fin 64) => x7 (ix2 j q)) (fun (q : Fin 64) => x8 (ix2 0 q)) (fun (q : Fin 64) => x9 (ix2 q 0)) (x10 (ix2 0 0)) p

variable (V : (c : Dev nD) → (b : Ref sig .tc) → Buf (Elt Ideal) ((c : Thread nD τ).loc b))

/-- The result array the region leaves: the layer of the arrays it was entered with, row by row. -/
def G2 (c : Dev nD) : S50000x1.Idx → EReal := fun idx =>
  head (layerR (fun (i : Fin 50000) (k : Fin 128) => V c main_v55 (ix2 i k)) (fun (i : Fin 50000) (k : Fin 128) => V c main_v43 (ix2 i k))
      (fun (k : Fin 128) (j : Fin 128) => V c main_arg12 (ix2 k j)) (fun (k : Fin 128) (j : Fin 128) => V c main_arg14 (ix2 k j))
      (fun (j : Fin 128) => V c main_v56 (ix2 0 j)) (fun (j : Fin 128) => V c main_v57 (ix2 0 j)) (fun (j : Fin 128) => V c main_v58 (ix2 0 j)))
      (fun (j : Fin 128) (q : Fin 64) => V c main_arg17 (ix2 j q)) (fun (q : Fin 64) => V c main_v59 (ix2 0 q)) (fun (q : Fin 64) => V c main_arg19 (ix2 q 0)) (V c main_v60 (ix2 0 0)) (idx 0)

/-- The printed index maps, decided over the grid: the row windows and the output move with the point, the rest
    stay at block (0, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0
    ∧ win2_11.index t (0 : Fin 2) = t.val ∧ win2_11.index t (1 : Fin 2) = 0 :=
  (by decide +kernel : ∀ t : Fin grid2.N, _)

set_option maxHeartbeats 1600000 in
/-- What point `t` writes back is block `t` of `G2`. -/
theorem flushed_eq (hpay : Pay2) (c : Dev nD) (t : Fin cfg2.N) :
    (dat2 (F := Ideal) V c).flushed 11 t = ((cfg2.win 11).blk t).view.read (Elt Ideal) (G2 V c) := by
  show (cfg2.win 11).cut (grid2.coords t) ((dat2 (F := Ideal) V c).after 11 t) = _
  rw [after2_11]
  funext j
  obtain ⟨p, rfl⟩ : ∃ (p : Fin 2000), j = ix2 p 0 := ⟨j 0, (eq_ix2 j).trans (congrArg (ix2 (j 0)) (Fin.ext (by have h : (j 1).val < 1 := (j 1).isLt; show (j 1).val = 0; omega)))⟩
  show out2_11 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (ix2 p 0)
    = G2 V c (((cfg2.win 11).blk t).view.emb (ix2 p 0))
  refine (hpay (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) p).trans ?_
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  have ht : t.val < 25 := lt_of_lt_of_eq t.isLt N_2
  have hp : p.val < 2000 := p.isLt
  have hw2 : (fun (k : Fin 128) (j : Fin 128) => iblk2 V c 2 t (ix2 k j)) = fun k j => V c main_arg12 (ix2 k j) := by
    funext k j
    show V c main_arg12 (((cfg2.win 2).blk t).view.emb (ix2 k j)) = V c main_arg12 (ix2 k j)
    refine congrArg (V c main_arg12) (funext fun d => Fin.ext ?_)
    match d with
    | ⟨0, _⟩ => show win2_2.index t (0 : Fin 2) * 128 + 1 * k.val = k.val; omega
    | ⟨1, _⟩ => show win2_2.index t (1 : Fin 2) * 128 + 1 * j.val = j.val; omega
  have hw4 : (fun (k : Fin 128) (j : Fin 128) => iblk2 V c 4 t (ix2 k j)) = fun k j => V c main_arg14 (ix2 k j) := by
    funext k j
    show V c main_arg14 (((cfg2.win 4).blk t).view.emb (ix2 k j)) = V c main_arg14 (ix2 k j)
    refine congrArg (V c main_arg14) (funext fun d => Fin.ext ?_)
    match d with
    | ⟨0, _⟩ => show win2_4.index t (0 : Fin 2) * 128 + 1 * k.val = k.val; omega
    | ⟨1, _⟩ => show win2_4.index t (1 : Fin 2) * 128 + 1 * j.val = j.val; omega
  have hw3 : (fun (j : Fin 128) => iblk2 V c 3 t (ix2 0 j)) = fun j => V c main_v56 (ix2 0 j) := by
    funext j
    show V c main_v56 (((cfg2.win 3).blk t).view.emb (ix2 0 j)) = V c main_v56 (ix2 0 j)
    refine congrArg (V c main_v56) (funext fun d => Fin.ext ?_)
    match d with
    | ⟨0, _⟩ => show win2_3.index t (0 : Fin 2) * 1 + 1 * 0 = 0; omega
    | ⟨1, _⟩ => show win2_3.index t (1 : Fin 2) * 128 + 1 * j.val = j.val; omega
  have hw5 : (fun (j : Fin 128) => iblk2 V c 5 t (ix2 0 j)) = fun j => V c main_v57 (ix2 0 j) := by
    funext j
    show V c main_v57 (((cfg2.win 5).blk t).view.emb (ix2 0 j)) = V c main_v57 (ix2 0 j)
    refine congrArg (V c main_v57) (funext fun d => Fin.ext ?_)
    match d with
    | ⟨0, _⟩ => show win2_5.index t (0 : Fin 2) * 1 + 1 * 0 = 0; omega
    | ⟨1, _⟩ => show win2_5.index t (1 : Fin 2) * 128 + 1 * j.val = j.val; omega
  have hw6 : (fun (j : Fin 128) => iblk2 V c 6 t (ix2 0 j)) = fun j => V c main_v58 (ix2 0 j) := by
    funext j
    show V c main_v58 (((cfg2.win 6).blk t).view.emb (ix2 0 j)) = V c main_v58 (ix2 0 j)
    refine congrArg (V c main_v58) (funext fun d => Fin.ext ?_)
    match d with
    | ⟨0, _⟩ => show win2_6.index t (0 : Fin 2) * 1 + 1 * 0 = 0; omega
    | ⟨1, _⟩ => show win2_6.index t (1 : Fin 2) * 128 + 1 * j.val = j.val; omega
  have hw7 : (fun (j : Fin 128) (q : Fin 64) => iblk2 V c 7 t (ix2 j q)) = fun j q => V c main_arg17 (ix2 j q) := by
    funext j q
    show V c main_arg17 (((cfg2.win 7).blk t).view.emb (ix2 j q)) = V c main_arg17 (ix2 j q)
    refine congrArg (V c main_arg17) (funext fun d => Fin.ext ?_)
    match d with
    | ⟨0, _⟩ => show win2_7.index t (0 : Fin 2) * 128 + 1 * j.val = j.val; omega
    | ⟨1, _⟩ => show win2_7.index t (1 : Fin 2) * 64 + 1 * q.val = q.val; omega
  have hw8 : (fun (q : Fin 64) => iblk2 V c 8 t (ix2 0 q)) = fun q => V c main_v59 (ix2 0 q) := by
    funext q
    show V c main_v59 (((cfg2.win 8).blk t).view.emb (ix2 0 q)) = V c main_v59 (ix2 0 q)
    refine congrArg (V c main_v59) (funext fun d => Fin.ext ?_)
    match d with
    | ⟨0, _⟩ => show win2_8.index t (0 : Fin 2) * 1 + 1 * 0 = 0; omega
    | ⟨1, _⟩ => show win2_8.index t (1 : Fin 2) * 64 + 1 * q.val = q.val; omega
  have hw9 : (fun (q : Fin 64) => iblk2 V c 9 t (ix2 q 0)) = fun q => V c main_arg19 (ix2 q 0) := by
    funext q
    show V c main_arg19 (((cfg2.win 9).blk t).view.emb (ix2 q 0)) = V c main_arg19 (ix2 q 0)
    refine congrArg (V c main_arg19) (funext fun d => Fin.ext ?_)
    match d with
    | ⟨0, _⟩ => show win2_9.index t (0 : Fin 2) * 64 + 1 * q.val = q.val; omega
    | ⟨1, _⟩ => show win2_9.index t (1 : Fin 2) * 1 + 1 * 0 = 0; omega
  have hw10 : iblk2 V c 10 t (ix2 0 0) = V c main_v60 (ix2 0 0) := by
    show V c main_v60 (((cfg2.win 10).blk t).view.emb (ix2 0 0)) = V c main_v60 (ix2 0 0)
    refine congrArg (V c main_v60) (funext fun d => Fin.ext ?_)
    match d with
    | ⟨0, _⟩ => show win2_10.index t (0 : Fin 2) * 1 + 1 * 0 = 0; omega
    | ⟨1, _⟩ => show win2_10.index t (1 : Fin 2) * 1 + 1 * 0 = 0; omega
  rw [hw2, hw4, hw3, hw5, hw6, hw7, hw8, hw9, hw10]
  let i' : Fin 50000 := ⟨t.val * 2000 + p.val, by omega⟩
  have ha : (fun (a : Fin 2000) (k : Fin 128) => iblk2 V c 0 t (ix2 a k)) p = (fun (i : Fin 50000) (k : Fin 128) => V c main_v55 (ix2 i k)) i' := by
    funext k
    show V c main_v55 (((cfg2.win 0).blk t).view.emb (ix2 p k)) = V c main_v55 (ix2 i' k)
    refine congrArg (V c main_v55) (funext fun d => Fin.ext ?_)
    match d with
    | ⟨0, _⟩ => show win2_0.index t (0 : Fin 2) * 2000 + 1 * p.val = t.val * 2000 + p.val; omega
    | ⟨1, _⟩ => show win2_0.index t (1 : Fin 2) * 128 + 1 * k.val = k.val; omega
  have hx : (fun (a : Fin 2000) (k : Fin 128) => iblk2 V c 1 t (ix2 a k)) p = (fun (i : Fin 50000) (k : Fin 128) => V c main_v43 (ix2 i k)) i' := by
    funext k
    show V c main_v43 (((cfg2.win 1).blk t).view.emb (ix2 p k)) = V c main_v43 (ix2 i' k)
    refine congrArg (V c main_v43) (funext fun d => Fin.ext ?_)
    match d with
    | ⟨0, _⟩ => show win2_1.index t (0 : Fin 2) * 2000 + 1 * p.val = t.val * 2000 + p.val; omega
    | ⟨1, _⟩ => show win2_1.index t (1 : Fin 2) * 128 + 1 * k.val = k.val; omega
  have hi0 : (((cfg2.win 11).blk t).view.emb (ix2 p 0)) 0 = i' := Fin.ext (by
    show win2_11.index t (0 : Fin 2) * 2000 + 1 * p.val = t.val * 2000 + p.val; omega)
  unfold G2
  rw [hi0]
  exact head_row _ _ _ _ _ _ p i' (funext fun j => layerR_row _ _ _ _ _ _ _ _ _ p i' ha hx j)

/-- An index of the result array is in point `t`'s block iff each coordinate is in the block's range. -/
theorem mem_blk (t : Fin cfg2.N) (i : S50000x1.Idx) :
    i ∈ ((cfg2.win 11).blk t).view.set ↔ ∀ a : Fin 2, win2_11.index t a * S2000x1.size a ≤ (i a).val ∧ (i a).val < win2_11.index t a * S2000x1.size a + S2000x1.size a := by
  show i ∈ ((View.whole main_v61).slice (win2_11.rect t)).set ↔ _
  rw [View.set_slice_whole, Rect.mem_set_unit]
  exact Iff.rfl

/-- Every row is in the block of the point `row / 2000`. -/
theorem cover (i : S50000x1.Idx) :
    ∃ t : Fin cfg2.N, (cfg2.win 11).flush t = true ∧ i ∈ ((cfg2.win 11).blk t).view.set := by
  have hi0 : (i 0).val < 50000 := (i 0).isLt
  have hi1 : (i 1).val < 1 := (i 1).isLt
  let t : Fin cfg2.N := ⟨(i 0).val / 2000, lt_of_lt_of_eq (by omega : (i 0).val / 2000 < 25) N_2.symm⟩
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  have htv : t.val = (i 0).val / 2000 := rfl
  refine ⟨t, flush2_11 t, ?_⟩
  rw [mem_blk]
  intro a
  match a with
  | ⟨0, _⟩ => show win2_11.index t (0 : Fin 2) * 2000 ≤ (i 0).val ∧ (i 0).val < win2_11.index t (0 : Fin 2) * 2000 + 2000; omega
  | ⟨1, _⟩ => show win2_11.index t (1 : Fin 2) * 1 ≤ (i 1).val ∧ (i 1).val < win2_11.index t (1 : Fin 2) * 1 + 1; omega

/-- After the region the result array is `G2` of the contents it was entered with. -/
theorem final (hpay : Pay2) (c : Dev nD) : (dat2 (F := Ideal) V c).arrAt 11 cfg2.N = G2 V c :=
  (dat2 (F := Ideal) V c).arrAt_eq_of_cover 11 (G2 V c) (fun t _ => flushed_eq V hpay c t) cover

end Cert.KernelIdeal.Region2

end
-- ==== Proof.SegK.lean ====
/-
  The neighbour aggregation of `KernelIdeal`, carried whole: the source column `src` (a negative index wrapped by
  +50000), the destination column `dst`, the segment sum of the rows gathered at `src` scattered-and-added at `dst`
  (for 11 and for 128 features), and the in-degree (ones scattered-and-added at `dst`).  Both programs apply these
  very operations to their operands; nothing here opens a gather or a scatter: the certificate only needs that the
  two programs' chains are the same functions.
-/
import proofs.«113527_j11390253269041_2_alg».proof.Proof.Gen.KernelIdeal
import proofs.«113527_j11390253269041_2_alg».proof.Proof.Spec
import Idealize.ShloMosaic.Lib.ValueIdx

noncomputable section

namespace Cert.KernelIdeal.Seg

open Cert.KernelIdeal Cert.KernelIdeal.Facts₀ Idealize.ShloMosaic Idealize.ShloMosaic.ValueIdx

/-- Row 0 of the edge list, as a column, a negative entry wrapped round by the node count. -/
def srcCol (ei : IVec S2x800000 32) : IVec S800000x1 32 :=
  broadcastInDim S800000x1 ![0] bcast_S800000_S800000x1_0
    (select (cmpi .slt (shapeCast S800000 (extractStridedSlice S1x800000 ![0, 0] ei slices_S2x800000_S1x800000_0_0) shapeCasts_S1x800000_S800000)
        (broadcastInDim S800000 ![] bcast_S_S800000 (constantI S_ 32 0#32)))
      (addi (shapeCast S800000 (extractStridedSlice S1x800000 ![0, 0] ei slices_S2x800000_S1x800000_0_0) shapeCasts_S1x800000_S800000)
        (broadcastInDim S800000 ![] bcast_S_S800000 (constantI S_ 32 50000#32)))
      (shapeCast S800000 (extractStridedSlice S1x800000 ![0, 0] ei slices_S2x800000_S1x800000_0_0) shapeCasts_S1x800000_S800000))

/-- Row 1 of the edge list, as a column. -/
def dstCol (ei : IVec S2x800000 32) : IVec S800000x1 32 :=
  broadcastInDim S800000x1 ![0] bcast_S800000_S800000x1_0
    (shapeCast S800000 (extractStridedSlice S1x800000 ![1, 0] ei slices_S2x800000_S1x800000_1_0) shapeCasts_S1x800000_S800000)

/-- The segment sum of 11-feature rows: gather at `src`, scatter-add at `dst` into zeros. -/
def seg11 (ei : IVec S2x800000 32) (f : FVec Ideal S50000x11 .f32) : FVec Ideal S50000x11 .f32 :=
  Host.scatterAdd scatter_S50000x11_S800000x1_S800000x11_1_0_0_1
    (broadcastInDim S50000x11 ![] bcast_S_S50000x11 (constant (F := Ideal) S_ .f32 0x00000000#32)) (dstCol ei)
    (Host.gather gather_S50000x11_S800000x1_S800000x11_1_0_n_n_0_1_111 f (srcCol ei))

/-- The segment sum of 128-feature rows. -/
def seg128 (ei : IVec S2x800000 32) (f : FVec Ideal S50000x128 .f32) : FVec Ideal S50000x128 .f32 :=
  Host.scatterAdd scatter_S50000x128_S800000x1_S800000x128_1_0_0_1
    (broadcastInDim S50000x128 ![] bcast_S_S50000x128 (constant (F := Ideal) S_ .f32 0x00000000#32)) (dstCol ei)
    (Host.gather gather_S50000x128_S800000x1_S800000x128_1_0_n_n_0_1_1128 f (srcCol ei))

/-- The in-degree: ones scatter-added at `dst` into zeros. -/
def deg (ei : IVec S2x800000 32) : FVec Ideal S50000x1 .f32 :=
  Host.scatterAdd scatter_S50000x1_S800000x1_S800000x1_1_0_0_1
    (broadcastInDim S50000x1 ![] bcast_S_S50000x1 (constant (F := Ideal) S_ .f32 0x00000000#32)) (dstCol ei)
    (broadcastInDim S800000x1 ![] bcast_S_S800000x1 (constant (F := Ideal) S_ .f32 0x3F800000#32))

/-- A two-index function as an array, and back. -/
def arr2 {n0 n1 : Nat} (f : Fin n0 → Fin n1 → EReal) : (⟨2, ![n0, n1]⟩ : Shape).Idx → EReal := fun idx => f (idx 0) (idx 1)

theorem arr2_ix2 {n0 n1 : Nat} (a : (⟨2, ![n0, n1]⟩ : Shape).Idx → EReal) : arr2 (fun i k => a (ix2 i k)) = a :=
  funext fun idx => congrArg a (eq_ix2 idx).symm

/-- The segment sums and the in-degree over plain index functions, as the specification takes them. -/
def S11 (ei : IVec S2x800000 32) (f : Fin 50000 → Fin 11 → EReal) : Fin 50000 → Fin 11 → EReal :=
  fun i k => seg11 ei (arr2 f) (ix2 i k)
def S128 (ei : IVec S2x800000 32) (f : Fin 50000 → Fin 128 → EReal) : Fin 50000 → Fin 128 → EReal :=
  fun i k => seg128 ei (arr2 f) (ix2 i k)
def cnt (ei : IVec S2x800000 32) : Fin 50000 → EReal := fun i => deg ei (ix2 i 0)

end Cert.KernelIdeal.Seg

end
-- ==== Proof.Host.lean ====
/-
  The host operations between the regions, read over ANY contents `W` of the buffers.

  Before each region the program wraps the source column, gathers the node rows at it, scatter-adds them at the
  destination column into zeros, and multiplies by the reciprocal in-degree broadcast along the features; it also
  views each bias and LayerNorm vector as a one-row matrix.  Stated over an arbitrary `W`, each result is ONE small term
  of `W` at the stretch's input buffers, so nothing is written out twice when the three layers are chained.
-/
import proofs.«113527_j11390253269041_2_alg».proof.Proof.Gen.KernelIdeal.Launch
import proofs.«113527_j11390253269041_2_alg».proof.Proof.SegK
import Idealize.ShloMosaic.Lib.StableHlo.Run

set_option maxRecDepth 16384

noncomputable section

namespace Cert.KernelIdeal.HostSide

open Cert.KernelIdeal Cert.KernelIdeal.Facts₀ Cert.KernelIdeal.Seg
open Idealize.ShloMosaic Idealize.ShloMosaic.TcCoe Idealize.SL.Sem Idealize.ShloMosaic.StableHlo

/-- The source column from row 0 of the edge list (a negative entry wrapped round), the destination column from row 1. -/
def srcOf (v1 : IVec S800000 32) : IVec S800000x1 32 :=
  broadcastInDim S800000x1 ![0] bcast_S800000_S800000x1_0
    (select (cmpi .slt v1 (broadcastInDim S800000 ![] bcast_S_S800000 (constantI S_ 32 0#32)))
      (addi v1 (broadcastInDim S800000 ![] bcast_S_S800000 (constantI S_ 32 50000#32))) v1)
def dstOf (v3 : IVec S800000 32) : IVec S800000x1 32 := broadcastInDim S800000x1 ![0] bcast_S800000_S800000x1_0 v3

/-- The segment sums over the two columns. -/
def seg11Of (v1 v3 : IVec S800000 32) (f : FVec Ideal S50000x11 .f32) : FVec Ideal S50000x11 .f32 :=
  Host.scatterAdd scatter_S50000x11_S800000x1_S800000x11_1_0_0_1
    (broadcastInDim S50000x11 ![] bcast_S_S50000x11 (constant (F := Ideal) S_ .f32 0x00000000#32)) (dstOf v3)
    (Host.gather gather_S50000x11_S800000x1_S800000x11_1_0_n_n_0_1_111 f (srcOf v1))
def seg128Of (v1 v3 : IVec S800000 32) (f : FVec Ideal S50000x128 .f32) : FVec Ideal S50000x128 .f32 :=
  Host.scatterAdd scatter_S50000x128_S800000x1_S800000x128_1_0_0_1
    (broadcastInDim S50000x128 ![] bcast_S_S50000x128 (constant (F := Ideal) S_ .f32 0x00000000#32)) (dstOf v3)
    (Host.gather gather_S50000x128_S800000x1_S800000x128_1_0_n_n_0_1_1128 f (srcOf v1))

/-- The two rows of the edge list. -/
def row0 (ei : IVec S2x800000 32) : IVec S800000 32 :=
  shapeCast S800000 (extractStridedSlice S1x800000 ![0, 0] ei slices_S2x800000_S1x800000_0_0) shapeCasts_S1x800000_S800000
def row1 (ei : IVec S2x800000 32) : IVec S800000 32 :=
  shapeCast S800000 (extractStridedSlice S1x800000 ![1, 0] ei slices_S2x800000_S1x800000_1_0) shapeCasts_S1x800000_S800000

/-- The reciprocal of the in-degree, or of one where no edge arrives. -/
def recipOf (v3 : IVec S800000 32) : FVec Ideal S50000x1 .f32 :=
  Host.divf (broadcastInDim S50000x1 ![] bcast_S_S50000x1 (constant (F := Ideal) S_ .f32 0x3F800000#32))
    (maximumf
      (Host.scatterAdd scatter_S50000x1_S800000x1_S800000x1_1_0_0_1
        (broadcastInDim S50000x1 ![] bcast_S_S50000x1 (constant (F := Ideal) S_ .f32 0x00000000#32)) (dstOf v3)
        (broadcastInDim S800000x1 ![] bcast_S_S800000x1 (constant (F := Ideal) S_ .f32 0x3F800000#32)))
      (broadcastInDim S50000x1 ![] bcast_S_S50000x1 (constant (F := Ideal) S_ .f32 0x3F800000#32)))

/-- Over the two rows of one edge list these are the aggregation's own functions. -/
theorem seg11Of_rows (ei : IVec S2x800000 32) (f : FVec Ideal S50000x11 .f32) : seg11Of (row0 ei) (row1 ei) f = Seg.seg11 ei f := rfl
theorem seg128Of_rows (ei : IVec S2x800000 32) (f : FVec Ideal S50000x128 .f32) : seg128Of (row0 ei) (row1 ei) f = Seg.seg128 ei f := rfl

variable (W : Valuation τ sig (Elt Ideal))

/-! ## The stretch before region 0 -/

/-- The buffers the stretch writes. -/
abbrev written0 : List (Ref sig .tc) := [main_v0, main_v1, main_v2, main_v3, main_cst, main_v4, main_cst_0, main_v5, main_v6, main_v7, main_cst_1, main_v8, main_v9, main_cst_2, main_v10, main_v11, main_c, main_v12, main_v13, main_c_3, main_v14, main_v15, main_v16, main_v17, main_v18, main_cst_4, main_v19, main_v20, main_v21, main_v22, main_v23, main_v24, main_v25, main_v26]

theorem writes0 : (Gen.hostOps0 : List (HloOp τ sig (Elt Ideal))).Forall fun op =>
    op.writes ⊆ (written0.map (Proc.devRef (τ := τ) .tc)).toFinset := by
  simp only [Gen.hostOps0, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)

/-- A buffer the stretch does not write keeps its contents through it. -/
theorem keep0 (r : Ref sig .tc) (h : r ∉ written0) :
    after (Gen.hostOps0 (F := Ideal)) W (Proc.devRef .tc r) = W (Proc.devRef .tc r) :=
  after_of_writes_sub Gen.hostOps0 W writes0 h

theorem h0_v1 : after (Gen.hostOps0 (F := Ideal)) W (Proc.devRef .tc main_v1)
    = row0 (W (Proc.devRef .tc main_arg1)) := by
  dsimp only [Gen.hostOps0]
  after_results_simp
  rfl

theorem h0_v3 : after (Gen.hostOps0 (F := Ideal)) W (Proc.devRef .tc main_v3)
    = row1 (W (Proc.devRef .tc main_arg1)) := by
  dsimp only [Gen.hostOps0]
  after_results_simp
  rfl

theorem h0_v11 : after (Gen.hostOps0 (F := Ideal)) W (Proc.devRef .tc main_v11)
    = recipOf (row1 (W (Proc.devRef .tc main_arg1))) := by
  dsimp only [Gen.hostOps0]
  after_results_simp
  rfl

theorem h0_v23 : after (Gen.hostOps0 (F := Ideal)) W (Proc.devRef .tc main_v23)
    = mulf (seg11Of (row0 (W (Proc.devRef .tc main_arg1))) (row1 (W (Proc.devRef .tc main_arg1))) (W (Proc.devRef .tc main_arg0)))
        (broadcastInDim S50000x11 ![0, 1] bcast_S50000x1_S50000x11_0_1 (recipOf (row1 (W (Proc.devRef .tc main_arg1))))) := by
  dsimp only [Gen.hostOps0]
  after_results_simp
  rfl

theorem h0_v24 : after (Gen.hostOps0 (F := Ideal)) W (Proc.devRef .tc main_v24)
    = shapeCast S1x128 (W (Proc.devRef .tc main_arg3)) shapeCasts_S128_S1x128 := by
  dsimp only [Gen.hostOps0]
  after_results_simp
  rfl

theorem h0_v25 : after (Gen.hostOps0 (F := Ideal)) W (Proc.devRef .tc main_v25)
    = shapeCast S1x128 (W (Proc.devRef .tc main_arg5)) shapeCasts_S128_S1x128 := by
  dsimp only [Gen.hostOps0]
  after_results_simp
  rfl

theorem h0_v26 : after (Gen.hostOps0 (F := Ideal)) W (Proc.devRef .tc main_v26)
    = shapeCast S1x128 (W (Proc.devRef .tc main_arg6)) shapeCasts_S128_S1x128 := by
  dsimp only [Gen.hostOps0]
  after_results_simp
  rfl

/-! ## The stretch before region 1 -/

/-- The buffers the stretch writes. -/
abbrev written1 : List (Ref sig .tc) := [main_c_5, main_v28, main_v29, main_c_6, main_v30, main_v31, main_v32, main_v33, main_v34, main_cst_7, main_v35, main_v36, main_v37, main_v38, main_v39, main_v40, main_v41, main_v42]

theorem writes1 : (Gen.hostOps1 : List (HloOp τ sig (Elt Ideal))).Forall fun op =>
    op.writes ⊆ (written1.map (Proc.devRef (τ := τ) .tc)).toFinset := by
  simp only [Gen.hostOps1, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)

/-- A buffer the stretch does not write keeps its contents through it. -/
theorem keep1 (r : Ref sig .tc) (h : r ∉ written1) :
    after (Gen.hostOps1 (F := Ideal)) W (Proc.devRef .tc r) = W (Proc.devRef .tc r) :=
  after_of_writes_sub Gen.hostOps1 W writes1 h

theorem h1_v39 : after (Gen.hostOps1 (F := Ideal)) W (Proc.devRef .tc main_v39)
    = mulf (seg128Of (W (Proc.devRef .tc main_v1)) (W (Proc.devRef .tc main_v3)) (W (Proc.devRef .tc main_v27)))
        (broadcastInDim S50000x128 ![0, 1] bcast_S50000x1_S50000x128_0_1 (W (Proc.devRef .tc main_v11))) := by
  dsimp only [Gen.hostOps1]
  after_results_simp
  rfl

theorem h1_v40 : after (Gen.hostOps1 (F := Ideal)) W (Proc.devRef .tc main_v40)
    = shapeCast S1x128 (W (Proc.devRef .tc main_arg8)) shapeCasts_S128_S1x128 := by
  dsimp only [Gen.hostOps1]
  after_results_simp
  rfl

theorem h1_v41 : after (Gen.hostOps1 (F := Ideal)) W (Proc.devRef .tc main_v41)
    = shapeCast S1x128 (W (Proc.devRef .tc main_arg10)) shapeCasts_S128_S1x128 := by
  dsimp only [Gen.hostOps1]
  after_results_simp
  rfl

theorem h1_v42 : after (Gen.hostOps1 (F := Ideal)) W (Proc.devRef .tc main_v42)
    = shapeCast S1x128 (W (Proc.devRef .tc main_arg11)) shapeCasts_S128_S1x128 := by
  dsimp only [Gen.hostOps1]
  after_results_simp
  rfl

/-! ## The stretch before region 2 -/

/-- The buffers the stretch writes. -/
abbrev written2 : List (Ref sig .tc) := [main_c_8, main_v44, main_v45, main_c_9, main_v46, main_v47, main_v48, main_v49, main_v50, main_cst_10, main_v51, main_v52, main_v53, main_v54, main_v55, main_v56, main_v57, main_v58, main_v59, main_v60]

theorem writes2 : (Gen.hostOps2 : List (HloOp τ sig (Elt Ideal))).Forall fun op =>
    op.writes ⊆ (written2.map (Proc.devRef (τ := τ) .tc)).toFinset := by
  simp only [Gen.hostOps2, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)

/-- A buffer the stretch does not write keeps its contents through it. -/
theorem keep2 (r : Ref sig .tc) (h : r ∉ written2) :
    after (Gen.hostOps2 (F := Ideal)) W (Proc.devRef .tc r) = W (Proc.devRef .tc r) :=
  after_of_writes_sub Gen.hostOps2 W writes2 h

theorem h2_v55 : after (Gen.hostOps2 (F := Ideal)) W (Proc.devRef .tc main_v55)
    = mulf (seg128Of (W (Proc.devRef .tc main_v1)) (W (Proc.devRef .tc main_v3)) (W (Proc.devRef .tc main_v43)))
        (broadcastInDim S50000x128 ![0, 1] bcast_S50000x1_S50000x128_0_1 (W (Proc.devRef .tc main_v11))) := by
  dsimp only [Gen.hostOps2]
  after_results_simp
  rfl

theorem h2_v56 : after (Gen.hostOps2 (F := Ideal)) W (Proc.devRef .tc main_v56)
    = shapeCast S1x128 (W (Proc.devRef .tc main_arg13)) shapeCasts_S128_S1x128 := by
  dsimp only [Gen.hostOps2]
  after_results_simp
  rfl

theorem h2_v57 : after (Gen.hostOps2 (F := Ideal)) W (Proc.devRef .tc main_v57)
    = shapeCast S1x128 (W (Proc.devRef .tc main_arg15)) shapeCasts_S128_S1x128 := by
  dsimp only [Gen.hostOps2]
  after_results_simp
  rfl

theorem h2_v58 : after (Gen.hostOps2 (F := Ideal)) W (Proc.devRef .tc main_v58)
    = shapeCast S1x128 (W (Proc.devRef .tc main_arg16)) shapeCasts_S128_S1x128 := by
  dsimp only [Gen.hostOps2]
  after_results_simp
  rfl

theorem h2_v59 : after (Gen.hostOps2 (F := Ideal)) W (Proc.devRef .tc main_v59)
    = shapeCast S1x64 (W (Proc.devRef .tc main_arg18)) shapeCasts_S64_S1x64 := by
  dsimp only [Gen.hostOps2]
  after_results_simp
  rfl

theorem h2_v60 : after (Gen.hostOps2 (F := Ideal)) W (Proc.devRef .tc main_v60)
    = shapeCast S1x1 (W (Proc.devRef .tc main_arg20)) shapeCasts_S1_S1x1 := by
  dsimp only [Gen.hostOps2]
  after_results_simp
  rfl

/-! ## The reshape after region 2 -/

/-- The buffers the stretch writes. -/
abbrev written3 : List (Ref sig .tc) := [main_v62]

theorem writes3 : (Gen.hostOps3 : List (HloOp τ sig (Elt Ideal))).Forall fun op =>
    op.writes ⊆ (written3.map (Proc.devRef (τ := τ) .tc)).toFinset := by
  simp only [Gen.hostOps3, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)

/-- A buffer the stretch does not write keeps its contents through it. -/
theorem keep3 (r : Ref sig .tc) (h : r ∉ written3) :
    after (Gen.hostOps3 (F := Ideal)) W (Proc.devRef .tc r) = W (Proc.devRef .tc r) :=
  after_of_writes_sub Gen.hostOps3 W writes3 h

theorem h3_v62 : after (Gen.hostOps3 (F := Ideal)) W (Proc.devRef .tc main_v62)
    = shapeCast S50000 (W (Proc.devRef .tc main_v61)) shapeCasts_S50000x1_S50000 := by
  dsimp only [Gen.hostOps3]
  after_results_simp
  rfl

end Cert.KernelIdeal.HostSide

end
-- ==== Proof.PayLib.lean ====
/-
  Layout and reduction lemmas shared by the three kernel bodies, and the tail the three bodies have in common.

  A keepdims column `[a] → [a, 1] → [a, b]` read at an index; a lane sum over axis 1 as the sum of a row; a matrix
  product into the zero accumulator as the sum over the contracted coordinate. Then, over a `[2000, 128]` block `v`:
  the row mean as a column, LayerNorm's `(v − mean) · rsqrt (var + ε) · w`, the bias row followed by the
  positive part, and the residual `128 → 128` layer's linear part and whole block, each read at `(p, q)` in the terms of
  the specification (`Cert.Sage.mean`, `ceps`, `lin`, `layerR`).
-/
import proofs.«113527_j11390253269041_2_alg».proof.Proof.Spec
import proofs.«113527_j11390253269041_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Cert.Sage Idealize.ShloMosaic Idealize.ShloMosaic.ValueIdx

/-! ## Layout lemmas: the keepdims column forms -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A lane sum over axis 1 of an `[a, b]` array, read at row `p`, is the sum of the row's entries. -/
theorem sum_axis1_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction (F := Ideal) .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext c
  match c with
  | ⟨0, _⟩ => rfl
  | ⟨1, _⟩ => rfl

/-- A product of an `m × k` by a `k × n` matrix accumulated into the zero splat, read at `(a, b)`, is the sum over the
    contracted coordinate of the products of the entries. -/
theorem matmul_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims _ _ _) prec A B (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## The shared tail of the three kernel bodies, over a `[2000, 128]` block -/

/-- The row mean kept as a column: the lane sum over axis 1, cast to `[2000, 1]`, over the splat of `128.0`. -/
def meanCol (v : FVec Ideal S2000x128 .f32) : FVec Ideal S2000x1 .f32 :=
  divf (shapeCast S2000x1 (multiReduction (F := Ideal) .add [1] S2000 v 0x00000000#32 reduces_S2000x128_S2000 (.inl rfl) rfl)
      shapeCasts_S2000_S2000x1)
    (broadcast S2000x1 (Scalar.ofBits (F := Ideal) .f32 0x43000000#32))

/-- At row `p` the column holds the mean of row `p`. -/
theorem meanCol_apply (v : FVec Ideal S2000x128 .f32) (p : Fin 2000) (u : Fin 1) :
    meanCol v (ix2 p u) = mean (fun l : Fin 128 => v (ix2 p l)) := by
  show Ideal.div (shapeCast S2000x1 (multiReduction (F := Ideal) .add [1] S2000 v 0x00000000#32 reduces_S2000x128_S2000 (.inl rfl) rfl)
      shapeCasts_S2000_S2000x1 (ix2 p u)) (Ideal.ofBits .f32 0x43000000#32) = Ideal.div (∑ j : Fin 128, v (ix2 p j)) c128
  rw [shapeCast_a_a1_apply]
  exact congrArg (fun x => Ideal.div x c128) (sum_axis1_apply v _ _ _ _ p)

/-- LayerNorm's normalisation and scale over the lanes of each row: `(v − mean) · rsqrt (var + ε) · w`. -/
def lnV (v : FVec Ideal S2000x128 .f32) (w : Vec Ideal S1x128 .f32) : FVec Ideal S2000x128 .f32 :=
  mulf
    (mulf (subf v (broadcastTo S2000x128 (meanCol v) broadcasts_S2000x1_S2000x128))
      (broadcastTo S2000x128
        (rsqrt (addf
          (meanCol (mulf (subf v (broadcastTo S2000x128 (meanCol v) broadcasts_S2000x1_S2000x128))
            (subf v (broadcastTo S2000x128 (meanCol v) broadcasts_S2000x1_S2000x128))))
          (broadcast S2000x1 (Scalar.ofBits (F := Ideal) .f32 0x3727C5AC#32))))
        broadcasts_S2000x1_S2000x128))
    (broadcastTo S2000x128 (shapeCast S1x128 w shapeCasts_S1x128_S1x128) broadcasts_S1x128_S2000x128)

/-- The centred block at `(p, q)`. -/
theorem centred_apply (v : FVec Ideal S2000x128 .f32) (p : Fin 2000) (q : Fin 128) :
    subf v (broadcastTo S2000x128 (meanCol v) broadcasts_S2000x1_S2000x128) (ix2 p q)
      = v (ix2 p q) - mean (fun l : Fin 128 => v (ix2 p l)) := by
  rw [subf_apply, broadcastTo_a1_ab_apply, meanCol_apply]

/-- `lnV` at `(p, q)`, in the row function `h = v (p, ·)`. -/
theorem lnV_apply (v : FVec Ideal S2000x128 .f32) (w : Vec Ideal S1x128 .f32) (p : Fin 2000) (q : Fin 128) :
    lnV v w (ix2 p q)
      = (v (ix2 p q) - mean (fun l : Fin 128 => v (ix2 p l)))
          * Ideal.rsqrt (mean (fun l : Fin 128 => (v (ix2 p l) - mean (fun l' : Fin 128 => v (ix2 p l')))
              * (v (ix2 p l) - mean (fun l' : Fin 128 => v (ix2 p l')))) + ceps)
          * w (ix2 0 q) := by
  unfold lnV
  rw [mulf_apply, mulf_apply, centred_apply, broadcastTo_a1_ab_apply, broadcastTo_1b_ab_apply, shapeCast_self]
  show _ * Ideal.rsqrt (meanCol _ (ix2 p 0) + Ideal.ofBits .f32 0x3727C5AC#32) * _ = _
  rw [meanCol_apply]
  simp only [mulf_apply, centred_apply]
  rfl

/-- The bias row added, then the positive part. -/
def reluV (v : FVec Ideal S2000x128 .f32) (b : Vec Ideal S1x128 .f32) : FVec Ideal S2000x128 .f32 :=
  maximumf (addf v (broadcastTo S2000x128 (shapeCast S1x128 b shapeCasts_S1x128_S1x128) broadcasts_S1x128_S2000x128))
    (broadcast S2000x128 (Scalar.ofBits (F := Ideal) .f32 0x00000000#32))

theorem reluV_apply (v : FVec Ideal S2000x128 .f32) (b : Vec Ideal S1x128 .f32) (p : Fin 2000) (q : Fin 128) :
    reluV v b (ix2 p q) = max (v (ix2 p q) + b (ix2 0 q)) 0 := by
  unfold reluV
  rw [maximumf_apply, addf_apply, broadcastTo_1b_ab_apply, shapeCast_self]
  show max _ (Ideal.ofBits .f32 0x00000000#32) = _
  rw [Ideal.ofBits_zero_f32]

/-! ## The linear part of the two residual layers, and the residual layer's block -/

/-- The two linear maps and the bias of a `128 → 128` layer, as the bodies of regions 1 and 2 compute them. -/
def linRV (v0 v3 : FVec Ideal S2000x128 .f32) (v6 v8 : Vec Ideal S128x128 .f32) (v11 : Vec Ideal S1x128 .f32) :
    FVec Ideal S2000x128 .f32 :=
  addf
    (addf
      (matmul dot_S2000x128_S128x128_S2000x128_1_0_0_1_n_n none
        (truncf .bf16 (shapeCast S2000x128 v0 shapeCasts_S2000x128_S2000x128) bitsLt_bf16_f32) (truncf .bf16 v6 bitsLt_bf16_f32)
        (constant S2000x128 .f32 0x00000000#32))
      (broadcastTo S2000x128 (shapeCast S1x128 v11 shapeCasts_S1x128_S1x128) broadcasts_S1x128_S2000x128))
    (matmul dot_S2000x128_S128x128_S2000x128_1_0_0_1_n_n none (truncf .bf16 v3 bitsLt_bf16_f32) (truncf .bf16 v8 bitsLt_bf16_f32)
      (constant S2000x128 .f32 0x00000000#32))

theorem linRV_apply (v0 v3 : FVec Ideal S2000x128 .f32) (v6 v8 : Vec Ideal S128x128 .f32) (v11 : Vec Ideal S1x128 .f32)
    (p : Fin 2000) (q : Fin 128) :
    linRV v0 v3 v6 v8 v11 (ix2 p q)
      = lin (fun (a : Fin 2000) (k : Fin 128) => v0 (ix2 a k)) (fun (a : Fin 2000) (k : Fin 128) => v3 (ix2 a k))
          (fun (k j : Fin 128) => v6 (ix2 k j)) (fun (k j : Fin 128) => v8 (ix2 k j))
          (fun (j : Fin 128) => v11 (ix2 0 j)) p q := by
  unfold linRV lin
  simp only [shapeCast_self]
  rw [addf_apply, addf_apply, broadcastTo_1b_ab_apply]
  refine congrArg₂ (· + ·) (congrArg (· + v11 (ix2 0 q)) ?_) ?_
  · exact matmul_zero_apply _ none _ _ p q
  · exact matmul_zero_apply _ none _ _ p q

/-- The residual layer's block: LayerNorm of the linear part, bias, positive part, plus the node's own block. -/
def layerRV (v0 v3 : FVec Ideal S2000x128 .f32) (v6 v8 : Vec Ideal S128x128 .f32) (v11 v35 v39 : Vec Ideal S1x128 .f32) :
    FVec Ideal S2000x128 .f32 :=
  addf (reluV (lnV (linRV v0 v3 v6 v8 v11) v35) v39) v3

theorem layerRV_apply (v0 v3 : FVec Ideal S2000x128 .f32) (v6 v8 : Vec Ideal S128x128 .f32) (v11 v35 v39 : Vec Ideal S1x128 .f32)
    (p : Fin 2000) (q : Fin 128) :
    layerRV v0 v3 v6 v8 v11 v35 v39 (ix2 p q)
      = layerR (fun (a : Fin 2000) (k : Fin 128) => v0 (ix2 a k)) (fun (a : Fin 2000) (k : Fin 128) => v3 (ix2 a k))
          (fun (k j : Fin 128) => v6 (ix2 k j)) (fun (k j : Fin 128) => v8 (ix2 k j))
          (fun (j : Fin 128) => v11 (ix2 0 j)) (fun (j : Fin 128) => v35 (ix2 0 j)) (fun (j : Fin 128) => v39 (ix2 0 j)) p q := by
  unfold layerRV
  rw [addf_apply, reluV_apply, lnV_apply]
  simp only [linRV_apply]
  rfl

end Cert.KernelIdeal.Pay

end
-- ==== Proof.Pay0.lean ====
/-
  Region 0's body read at an index: what the body leaves in its output block at `(p, q)` is the specification's
  `layer0` of the input blocks' rows — the two matrix products into zero accumulators and the bias row are `lin`, the
  shared tail is `lnrelu`.
-/
import proofs.«113527_j11390253269041_2_alg».proof.Proof.Spec
import proofs.«113527_j11390253269041_2_alg».proof.Proof.Gen.KernelIdeal.Frame
import proofs.«113527_j11390253269041_2_alg».proof.Proof.PayLib
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Cert.Sage Idealize.ShloMosaic Idealize.ShloMosaic.ValueIdx

/-! ## Region 0: the layer without the residual -/

/-- The two linear maps and the bias of layer 0, as the body computes them. -/
def lin0V (v0 v3 : Vec Ideal S2000x11 .f32) (v5 v7 : Vec Ideal S11x128 .f32) (v10 : Vec Ideal S1x128 .f32) :
    FVec Ideal S2000x128 .f32 :=
  addf
    (addf
      (matmul dot_S2000x11_S11x128_S2000x128_1_0_0_1_n_n none
        (truncf .bf16 (shapeCast S2000x11 v0 shapeCasts_S2000x11_S2000x11) bitsLt_bf16_f32) (truncf .bf16 v5 bitsLt_bf16_f32)
        (constant S2000x128 .f32 0x00000000#32))
      (broadcastTo S2000x128 (shapeCast S1x128 v10 shapeCasts_S1x128_S1x128) broadcasts_S1x128_S2000x128))
    (matmul dot_S2000x11_S11x128_S2000x128_1_0_0_1_n_n none (truncf .bf16 v3 bitsLt_bf16_f32) (truncf .bf16 v7 bitsLt_bf16_f32)
      (constant S2000x128 .f32 0x00000000#32))

theorem k0_pay2_eq (v0 v3 : Vec Ideal S2000x11 .f32) (v5 v7 : Vec Ideal S11x128 .f32) (v10 v34 : Vec Ideal S1x128 .f32) :
    k0_pay2 (F := Ideal) v0 v3 v5 v7 v10 v34 = lnV (lin0V v0 v3 v5 v7 v10) v34 := rfl

theorem k0_pay1_eq (v37 : FVec Ideal S2000x128 .f32) (v38 : Vec Ideal S1x128 .f32) :
    k0_pay1 (F := Ideal) v37 v38 = reluV v37 v38 := rfl

theorem lin0V_apply (v0 v3 : Vec Ideal S2000x11 .f32) (v5 v7 : Vec Ideal S11x128 .f32) (v10 : Vec Ideal S1x128 .f32)
    (p : Fin 2000) (q : Fin 128) :
    lin0V v0 v3 v5 v7 v10 (ix2 p q)
      = lin (fun (a : Fin 2000) (k : Fin 11) => v0 (ix2 a k)) (fun (a : Fin 2000) (k : Fin 11) => v3 (ix2 a k))
          (fun (k : Fin 11) (j : Fin 128) => v5 (ix2 k j)) (fun (k : Fin 11) (j : Fin 128) => v7 (ix2 k j))
          (fun (j : Fin 128) => v10 (ix2 0 j)) p q := by
  unfold lin0V lin
  simp only [shapeCast_self]
  rw [addf_apply, addf_apply, broadcastTo_1b_ab_apply]
  refine congrArg₂ (· + ·) (congrArg (· + v10 (ix2 0 q)) ?_) ?_
  · exact matmul_zero_apply _ none _ _ p q
  · exact matmul_zero_apply _ none _ _ p q

theorem out0_7_apply (x0 x1 : Vec Ideal S2000x11 .f32) (x2 : Vec Ideal S11x128 .f32) (x3 : Vec Ideal S1x128 .f32)
    (x4 : Vec Ideal S11x128 .f32) (x5 x6 : Vec Ideal S1x128 .f32) (p : Fin 2000) (q : Fin 128) :
    out0_7 (F := Ideal) x0 x1 x2 x3 x4 x5 x6 (ix2 p q)
      = layer0 (fun (a : Fin 2000) (k : Fin 11) => x0 (ix2 a k)) (fun (a : Fin 2000) (k : Fin 11) => x1 (ix2 a k))
          (fun (k : Fin 11) (j : Fin 128) => x2 (ix2 k j)) (fun (k : Fin 11) (j : Fin 128) => x4 (ix2 k j))
          (fun (j : Fin 128) => x3 (ix2 0 j)) (fun (j : Fin 128) => x5 (ix2 0 j)) (fun (j : Fin 128) => x6 (ix2 0 j)) p q := by
  have hz : (![0, 0] : Fin 2 → Nat) = fun _ => 0 := by funext a; fin_cases a <;> rfl
  unfold out0_7
  rw [View.canon_unit_zero hz]
  simp only [View.ld_unit_zero (S := S2000x11) hz, View.ld_unit_zero (S := S11x128) hz, View.ld_unit_zero (S := S1x128) hz]
  rw [k0_pay1_eq, k0_pay2_eq, reluV_apply, lnV_apply]
  simp only [lin0V_apply]
  rfl

end Cert.KernelIdeal.Pay

end
-- ==== Proof.Pay1.lean ====
/-
  Region 1's body read at an index: what the body leaves in its output block at `(p, q)` is the specification's
  `layerR` of the input blocks' rows — the layer of region 0 at `K = 128` plus the node's own block.
-/
import proofs.«113527_j11390253269041_2_alg».proof.Proof.Spec
import proofs.«113527_j11390253269041_2_alg».proof.Proof.Gen.KernelIdeal.Frame
import proofs.«113527_j11390253269041_2_alg».proof.Proof.PayLib
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Cert.Sage Idealize.ShloMosaic Idealize.ShloMosaic.ValueIdx

/-! ## Region 1: the layer with the residual -/

theorem k1_pay2_eq (v3 : Vec Ideal S2000x128 .f32) : k1_pay2 (F := Ideal) v3 = v3 := shapeCast_self _ _

theorem k1_pay3_eq (v0 v3 : Vec Ideal S2000x128 .f32) (v6 v8 : Vec Ideal S128x128 .f32) (v11 v35 : Vec Ideal S1x128 .f32) :
    k1_pay3 (F := Ideal) v0 v3 v6 v8 v11 v35 = lnV (linRV v0 (k1_pay2 (F := Ideal) v3) v6 v8 v11) v35 := rfl

theorem k1_pay1_eq (v4 v38 : FVec Ideal S2000x128 .f32) (v39 : Vec Ideal S1x128 .f32) :
    k1_pay1 (F := Ideal) v4 v38 v39 = addf (reluV v38 v39) v4 := rfl

theorem out1_7_apply (x0 x1 : Vec Ideal S2000x128 .f32) (x2 : Vec Ideal S128x128 .f32) (x3 : Vec Ideal S1x128 .f32)
    (x4 : Vec Ideal S128x128 .f32) (x5 x6 : Vec Ideal S1x128 .f32) (p : Fin 2000) (q : Fin 128) :
    out1_7 (F := Ideal) x0 x1 x2 x3 x4 x5 x6 (ix2 p q)
      = layerR (fun (a : Fin 2000) (k : Fin 128) => x0 (ix2 a k)) (fun (a : Fin 2000) (k : Fin 128) => x1 (ix2 a k))
          (fun (k j : Fin 128) => x2 (ix2 k j)) (fun (k j : Fin 128) => x4 (ix2 k j))
          (fun (j : Fin 128) => x3 (ix2 0 j)) (fun (j : Fin 128) => x5 (ix2 0 j)) (fun (j : Fin 128) => x6 (ix2 0 j)) p q := by
  have hz : (![0, 0] : Fin 2 → Nat) = fun _ => 0 := by funext a; fin_cases a <;> rfl
  unfold out1_7
  rw [View.canon_unit_zero hz]
  simp only [View.ld_unit_zero (S := S2000x128) hz, View.ld_unit_zero (S := S128x128) hz, View.ld_unit_zero (S := S1x128) hz]
  rw [k1_pay1_eq, k1_pay3_eq, k1_pay2_eq]
  exact layerRV_apply x0 x1 x2 x4 x3 x5 x6 p q

end Cert.KernelIdeal.Pay

end
-- ==== Proof.Pay2.lean ====
/-
  Region 2's body read at an index: the residual layer of region 1 with the two-layer classifier head on top. What
  the body leaves in its output column at row `p` is the specification's `head` of `layerR` of the input blocks' rows:
  the head's two matrix products into zero accumulators are sums over the contracted coordinate, its bias rows are
  broadcasts of one row, and its positive part is `max _ 0`.
-/
import proofs.«113527_j11390253269041_2_alg».proof.Proof.Spec
import proofs.«113527_j11390253269041_2_alg».proof.Proof.Gen.KernelIdeal.Frame
import proofs.«113527_j11390253269041_2_alg».proof.Proof.PayLib
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Cert.Sage Idealize.ShloMosaic Idealize.ShloMosaic.ValueIdx

/-! ## Region 2: the residual layer with the classifier head on top -/

/-- The two-layer head over a `[2000, 128]` block, as the body computes it. -/
def headV (h : FVec Ideal S2000x128 .f32) (v47 : Vec Ideal S128x64 .f32) (v50 : Vec Ideal S1x64 .f32)
    (v56 : Vec Ideal S64x1 .f32) (v60 : Vec Ideal S1x1 .f32) : FVec Ideal S2000x1 .f32 :=
  addf
    (matmul dot_S2000x64_S64x1_S2000x1_1_0_0_1_n_n none
      (truncf .bf16
        (maximumf
          (addf
            (matmul dot_S2000x128_S128x64_S2000x64_1_0_0_1_n_n none (truncf .bf16 h bitsLt_bf16_f32)
              (truncf .bf16 v47 bitsLt_bf16_f32) (constant S2000x64 .f32 0x00000000#32))
            (broadcastTo S2000x64 (shapeCast S1x64 v50 shapeCasts_S1x64_S1x64) broadcasts_S1x64_S2000x64))
          (broadcast S2000x64 (Scalar.ofBits (F := Ideal) .f32 0x00000000#32)))
        bitsLt_bf16_f32)
      (truncf .bf16 v56 bitsLt_bf16_f32) (constant S2000x1 .f32 0x00000000#32))
    (broadcastTo S2000x1 (shapeCast S1x1 v60 shapeCasts_S1x1_S1x1) broadcasts_S1x1_S2000x1)

theorem headV_apply (h : FVec Ideal S2000x128 .f32) (v47 : Vec Ideal S128x64 .f32) (v50 : Vec Ideal S1x64 .f32)
    (v56 : Vec Ideal S64x1 .f32) (v60 : Vec Ideal S1x1 .f32) (p : Fin 2000) :
    headV h v47 v50 v56 v60 (ix2 p 0)
      = (∑ q : Fin 64, max (∑ j : Fin 128, h (ix2 p j) * v47 (ix2 j q) + v50 (ix2 0 q)) 0 * v56 (ix2 q 0)) + v60 (ix2 0 0) := by
  unfold headV
  simp only [shapeCast_self]
  rw [addf_apply, broadcastTo_1b_ab_apply]
  refine congrArg (· + v60 (ix2 0 0)) ?_
  refine (matmul_zero_apply _ none _ _ p 0).trans ?_
  refine Finset.sum_congr rfl fun c _ => ?_
  rw [truncf_apply, truncf_apply, maximumf_apply, addf_apply, broadcastTo_1b_ab_apply]
  show max (_ + _) (Ideal.ofBits .f32 0x00000000#32) * _ = _
  rw [Ideal.ofBits_zero_f32]
  refine congrArg (fun t => max (t + v50 (ix2 0 c)) 0 * v56 (ix2 c 0)) ?_
  exact matmul_zero_apply _ none _ _ p c

theorem k2_pay2_eq (v3 : Vec Ideal S2000x128 .f32) : k2_pay2 (F := Ideal) v3 = v3 := shapeCast_self _ _

theorem k2_pay3_eq (v0 v3 : Vec Ideal S2000x128 .f32) (v6 v8 : Vec Ideal S128x128 .f32) (v11 v35 : Vec Ideal S1x128 .f32) :
    k2_pay3 (F := Ideal) v0 v3 v6 v8 v11 v35 = lnV (linRV v0 (k2_pay2 (F := Ideal) v3) v6 v8 v11) v35 := rfl

theorem k2_pay1_eq (v4 v38 : FVec Ideal S2000x128 .f32) (v39 : Vec Ideal S1x128 .f32) (v47 : Vec Ideal S128x64 .f32)
    (v50 : Vec Ideal S1x64 .f32) (v56 : Vec Ideal S64x1 .f32) (v60 : Vec Ideal S1x1 .f32) :
    k2_pay1 (F := Ideal) v4 v38 v39 v47 v50 v56 v60 = headV (addf (reluV v38 v39) v4) v47 v50 v56 v60 := rfl

theorem out2_11_apply (x0 x1 : Vec Ideal S2000x128 .f32) (x2 : Vec Ideal S128x128 .f32) (x3 : Vec Ideal S1x128 .f32)
    (x4 : Vec Ideal S128x128 .f32) (x5 x6 : Vec Ideal S1x128 .f32) (x7 : Vec Ideal S128x64 .f32) (x8 : Vec Ideal S1x64 .f32)
    (x9 : Vec Ideal S64x1 .f32) (x10 : Vec Ideal S1x1 .f32) (p : Fin 2000) :
    out2_11 (F := Ideal) x0 x1 x2 x3 x4 x5 x6 x7 x8 x9 x10 (ix2 p 0)
      = head (layerR (fun (a : Fin 2000) (k : Fin 128) => x0 (ix2 a k)) (fun (a : Fin 2000) (k : Fin 128) => x1 (ix2 a k))
                (fun (k j : Fin 128) => x2 (ix2 k j)) (fun (k j : Fin 128) => x4 (ix2 k j))
                (fun (j : Fin 128) => x3 (ix2 0 j)) (fun (j : Fin 128) => x5 (ix2 0 j)) (fun (j : Fin 128) => x6 (ix2 0 j)))
          (fun (j : Fin 128) (q : Fin 64) => x7 (ix2 j q)) (fun (q : Fin 64) => x8 (ix2 0 q)) (fun (q : Fin 64) => x9 (ix2 q 0))
          (x10 (ix2 0 0)) p := by
  have hz : (![0, 0] : Fin 2 → Nat) = fun _ => 0 := by funext a; fin_cases a <;> rfl
  unfold out2_11
  rw [View.canon_unit_zero hz]
  simp only [View.ld_unit_zero (S := S2000x128) hz, View.ld_unit_zero (S := S128x128) hz, View.ld_unit_zero (S := S1x128) hz,
    View.ld_unit_zero (S := S128x64) hz, View.ld_unit_zero (S := S1x64) hz, View.ld_unit_zero (S := S64x1) hz,
    View.ld_unit_zero (S := S1x1) hz]
  rw [k2_pay1_eq, k2_pay3_eq, k2_pay2_eq]
  show headV (layerRV x0 x1 x2 x4 x3 x5 x6) x7 x8 x9 x10 (ix2 p 0) = _
  rw [headV_apply]
  simp only [layerRV_apply]
  rfl

end Cert.KernelIdeal.Pay

end
-- ==== Proof.AggK.lean ====
/-
  The neighbour mean on the kernel's side, read at an index: a segment sum times the reciprocal of the in-degree (or of
  one, for a node with no incoming edge), the reciprocal a `[50000, 1]` column broadcast along the features. The
  segment sums and the in-degree stay opaque arrays; only the product, the broadcast and the quotient are read. Then
  four reshapes read at an index: a vector as one row, and a column as a vector.
-/
import proofs.«113527_j11390253269041_2_alg».proof.Proof.SegK
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.AggK

open Cert.KernelIdeal Cert.KernelIdeal.Facts₀ Cert.KernelIdeal.Seg Cert.Sage Idealize.ShloMosaic Idealize.ShloMosaic.ValueIdx

/-- The reciprocal of the divisor `max deg 1`, as a `[50000, 1]` column: the splat of `1.0` over it. -/
def recipDeg (ei : IVec S2x800000 32) : FVec Ideal S50000x1 .f32 :=
  Host.divf (broadcastInDim S50000x1 ![] bcast_S_S50000x1 (constant (F := Ideal) S_ .f32 0x3F800000#32))
    (maximumf (Seg.deg ei) (broadcastInDim S50000x1 ![] bcast_S_S50000x1 (constant (F := Ideal) S_ .f32 0x3F800000#32)))

/-- The host's quotient at an index is the quotient of the elements. -/
theorem hostDivf_apply {s : Shape} {φ : FTy} (x y : FVec Ideal s φ) (j : s.Idx) : Host.divf x y j = Ideal.div (x j) (y j) := rfl

/-- A rank-0 constant broadcast to any shape reads, everywhere, the extended real its word encodes. -/
theorem splat_apply {t : Shape} {φ : FTy} (h : S_.BroadcastsInDim t (![] : Fin 0 → Fin t.rank)) (w : BitVec φ.bits) (j : t.Idx) :
    broadcastInDim t ![] h (constant (F := Ideal) S_ φ w) j = Ideal.ofBits φ w := rfl

/-- At row `i` the column holds `1 / max (cnt i) 1`. -/
theorem recipDeg_apply (ei : IVec S2x800000 32) (i : Fin 50000) :
    recipDeg ei (ix2 i 0) = Ideal.div cone (cmax (Seg.cnt ei i)) := by
  unfold recipDeg
  rw [hostDivf_apply, maximumf_apply, splat_apply]
  unfold cmax Seg.cnt cone
  rfl

/-- A `[a, 1]` column broadcast along `b` features reads, at `(i, k)`, the column at row `i`. -/
theorem bcastCol_apply {a b : ℕ} {α : Type} (v : (⟨2, ![a, 1]⟩ : Shape).Idx → α)
    (h : (⟨2, ![a, 1]⟩ : Shape).BroadcastsInDim ⟨2, ![a, b]⟩ (![0, 1] : Fin 2 → Fin 2)) (i : Fin a) (k : Fin b) :
    broadcastInDim ⟨2, ![a, b]⟩ (![0, 1] : Fin 2 → Fin 2) h v (ix2 i k) = v (ix2 i (0 : Fin 1)) := by
  refine broadcastInDim_apply (![0, 1] : Fin 2 → Fin 2) h v (ix2 i k) (ix2 i (0 : Fin 1)) fun ax => ?_
  match ax with
  | ⟨0, _⟩ =>
    show i.val = if a = 1 then 0 else i.val
    split
    · have := i.isLt; omega
    · rfl
  | ⟨1, _⟩ => rfl

theorem agg11_rows (ei : IVec S2x800000 32) (f : FVec Ideal S50000x11 .f32) :
    (fun (i : Fin 50000) (k : Fin 11) => mulf (Seg.seg11 ei f) (broadcastInDim S50000x11 ![0, 1] bcast_S50000x1_S50000x11_0_1 (recipDeg ei)) (ix2 i k))
      = aggMul (Seg.S11 ei (fun i k => f (ix2 i k))) (Seg.cnt ei) := by
  funext i k
  rw [mulf_apply, bcastCol_apply, recipDeg_apply]
  unfold aggMul Seg.S11
  rw [Seg.arr2_ix2]

theorem agg128_rows (ei : IVec S2x800000 32) (f : FVec Ideal S50000x128 .f32) :
    (fun (i : Fin 50000) (k : Fin 128) => mulf (Seg.seg128 ei f) (broadcastInDim S50000x128 ![0, 1] bcast_S50000x1_S50000x128_0_1 (recipDeg ei)) (ix2 i k))
      = aggMul (Seg.S128 ei (fun i k => f (ix2 i k))) (Seg.cnt ei) := by
  funext i k
  rw [mulf_apply, bcastCol_apply, recipDeg_apply]
  unfold aggMul Seg.S128
  rw [Seg.arr2_ix2]

/-! ## Reshapes read at an index -/

/-- A 128-vector as one row. -/
theorem row128 (v : FVec Ideal S128 .f32) (j : Fin 128) : shapeCast S1x128 v shapeCasts_S128_S1x128 (ix2 0 j) = v (ix1 j) :=
  shapeCast_a_1a_apply v _ 0 j

/-- A 64-vector as one row. -/
theorem row64 (v : FVec Ideal S64 .f32) (q : Fin 64) : shapeCast S1x64 v shapeCasts_S64_S1x64 (ix2 0 q) = v (ix1 q) :=
  shapeCast_a_1a_apply v _ 0 q

/-- A 1-vector as a `[1, 1]` array. -/
theorem row1 (v : FVec Ideal S1 .f32) : shapeCast S1x1 v shapeCasts_S1_S1x1 (ix2 0 0) = v (ix1 0) :=
  shapeCast_a_1a_apply v _ 0 0

/-- A `[50000, 1]` column as a vector. -/
theorem col50000 (a : FVec Ideal S50000x1 .f32) (idx : S50000.Idx) :
    shapeCast S50000 a shapeCasts_S50000x1_S50000 idx = a (ix2 (idx 0) 0) :=
  shapeCast_apply a _ idx (ix2 (idx 0) 0) (by
    rw [Shape.rowMajor_val_two, Shape.rowMajor_val_one]
    show (idx 0).val * 1 + 0 = (idx 0).val
    rw [Nat.mul_one, Nat.add_zero])

end Cert.KernelIdeal.AggK

end
-- ==== Proof.KernelValue.lean ====
/-
  The idealized kernel's result, read back through its run: three regions among four stretches of host operations.

  Write `L0`, `L1`, `L2` for the three layers' outputs as functions of the argument arrays (each the layer of the
  previous one and of its neighbour mean), and follow the buffers boundary by boundary: the first stretch leaves the
  two edge columns, the reciprocal in-degree, the neighbour mean of `x` and the bias rows; region 0 leaves `L0`; the
  next stretch leaves the neighbour mean of `L0` — and so on, every other buffer carried unchanged, until the last
  reshape drops the unit column of the head's output.
-/
import proofs.«113527_j11390253269041_2_alg».proof.Proof.FrameVal
import proofs.«113527_j11390253269041_2_alg».proof.Proof.Region0
import proofs.«113527_j11390253269041_2_alg».proof.Proof.Region1
import proofs.«113527_j11390253269041_2_alg».proof.Proof.Region2
import proofs.«113527_j11390253269041_2_alg».proof.Proof.Host
import proofs.«113527_j11390253269041_2_alg».proof.Proof.Pay0
import proofs.«113527_j11390253269041_2_alg».proof.Proof.Pay1
import proofs.«113527_j11390253269041_2_alg».proof.Proof.Pay2
import proofs.«113527_j11390253269041_2_alg».proof.Proof.AggK

set_option maxRecDepth 16384

noncomputable section

namespace Cert.KernelIdeal.KVal

open Cert.KernelIdeal Cert.KernelIdeal.Gen Cert.KernelIdeal.Seg Cert.KernelIdeal.HostSide Cert.KernelIdeal.AggK Cert.Sage
open Idealize.ShloMosaic Idealize.ShloMosaic.TcCoe Idealize.ShloMosaic.ValueIdx Idealize.SL.Sem Idealize.ShloMosaic.StableHlo

/-- The kernel's neighbour means: the segment sum times the reciprocal divisor. -/
def A11k (ei : IVec S2x800000 32) (f : Fin 50000 → Fin 11 → EReal) : Fin 50000 → Fin 11 → EReal := aggMul (Seg.S11 ei f) (Seg.cnt ei)
def A128k (ei : IVec S2x800000 32) (f : Fin 50000 → Fin 128 → EReal) : Fin 50000 → Fin 128 → EReal := aggMul (Seg.S128 ei f) (Seg.cnt ei)

/-- An index function packed as an array and read back at its coordinates is itself. -/
theorem arr2_rows {n0 n1 : Nat} (f : Fin n0 → Fin n1 → EReal) : (fun (i : Fin n0) (k : Fin n1) => arr2 f (ix2 i k)) = f := rfl

/-- A bias or LayerNorm vector viewed as one row, read along the row. -/
theorem rowvec (v : FVec Ideal S128 .f32) :
    (fun (j : Fin 128) => shapeCast S1x128 v Facts₀.shapeCasts_S128_S1x128 (ix2 0 j)) = fun j => v (ix1 j) := funext fun j => row128 v j

variable (m : (ℓ : Loc nD τ sig) → Buf (Elt Ideal) ℓ) (ρ : Dev nD → PrngReg) (c : Dev nD)

/-- The three layers' outputs and the head's, as functions of the argument arrays. -/
def L0 : Fin 50000 → Fin 128 → EReal :=
  layer0 (A11k (m ((c : Thread nD τ).loc main_arg1)) (fun (i : Fin 50000) (k : Fin 11) => m ((c : Thread nD τ).loc main_arg0) (ix2 i k))) (fun (i : Fin 50000) (k : Fin 11) => m ((c : Thread nD τ).loc main_arg0) (ix2 i k))
    (fun (k : Fin 11) (j : Fin 128) => m ((c : Thread nD τ).loc main_arg2) (ix2 k j)) (fun (k : Fin 11) (j : Fin 128) => m ((c : Thread nD τ).loc main_arg4) (ix2 k j)) (fun (j : Fin 128) => m ((c : Thread nD τ).loc main_arg3) (ix1 j)) (fun (j : Fin 128) => m ((c : Thread nD τ).loc main_arg5) (ix1 j)) (fun (j : Fin 128) => m ((c : Thread nD τ).loc main_arg6) (ix1 j))
def L1 : Fin 50000 → Fin 128 → EReal :=
  layerR (A128k (m ((c : Thread nD τ).loc main_arg1)) (L0 m c)) (L0 m c)
    (fun (k : Fin 128) (j : Fin 128) => m ((c : Thread nD τ).loc main_arg7) (ix2 k j)) (fun (k : Fin 128) (j : Fin 128) => m ((c : Thread nD τ).loc main_arg9) (ix2 k j)) (fun (j : Fin 128) => m ((c : Thread nD τ).loc main_arg8) (ix1 j)) (fun (j : Fin 128) => m ((c : Thread nD τ).loc main_arg10) (ix1 j)) (fun (j : Fin 128) => m ((c : Thread nD τ).loc main_arg11) (ix1 j))
def L2 : Fin 50000 → Fin 128 → EReal :=
  layerR (A128k (m ((c : Thread nD τ).loc main_arg1)) (L1 m c)) (L1 m c)
    (fun (k : Fin 128) (j : Fin 128) => m ((c : Thread nD τ).loc main_arg12) (ix2 k j)) (fun (k : Fin 128) (j : Fin 128) => m ((c : Thread nD τ).loc main_arg14) (ix2 k j)) (fun (j : Fin 128) => m ((c : Thread nD τ).loc main_arg13) (ix1 j)) (fun (j : Fin 128) => m ((c : Thread nD τ).loc main_arg15) (ix1 j)) (fun (j : Fin 128) => m ((c : Thread nD τ).loc main_arg16) (ix1 j))
def OUT : Fin 50000 → EReal :=
  head (L2 m c) (fun (j : Fin 128) (q : Fin 64) => m ((c : Thread nD τ).loc main_arg17) (ix2 j q)) (fun (q : Fin 64) => m ((c : Thread nD τ).loc main_arg18) (ix1 q))
    (fun (q : Fin 64) => m ((c : Thread nD τ).loc main_arg19) (ix2 q 0)) (m ((c : Thread nD τ).loc main_arg20) (ix1 0))

/-! ## After the first stretch -/

theorem v1_arg (r : Ref sig .tc) (h : r ∉ written0) : V1 m ρ c r = m ((c : Thread nD τ).loc r) := keep0 (W0 m ρ c) r h
theorem v1_v1 : V1 m ρ c main_v1 = HostSide.row0 (m ((c : Thread nD τ).loc main_arg1)) := h0_v1 (W0 m ρ c)
theorem v1_v3 : V1 m ρ c main_v3 = HostSide.row1 (m ((c : Thread nD τ).loc main_arg1)) := h0_v3 (W0 m ρ c)
theorem v1_v11 : V1 m ρ c main_v11 = recipDeg (m ((c : Thread nD τ).loc main_arg1)) := h0_v11 (W0 m ρ c)
theorem v1_v23 : V1 m ρ c main_v23 = mulf (seg11 (m ((c : Thread nD τ).loc main_arg1)) (m ((c : Thread nD τ).loc main_arg0)))
    (broadcastInDim S50000x11 ![0, 1] Facts₀.bcast_S50000x1_S50000x11_0_1 (recipDeg (m ((c : Thread nD τ).loc main_arg1)))) := h0_v23 (W0 m ρ c)
theorem v1_v24 : V1 m ρ c main_v24 = shapeCast S1x128 (m ((c : Thread nD τ).loc main_arg3)) Facts₀.shapeCasts_S128_S1x128 := h0_v24 (W0 m ρ c)
theorem v1_v25 : V1 m ρ c main_v25 = shapeCast S1x128 (m ((c : Thread nD τ).loc main_arg5)) Facts₀.shapeCasts_S128_S1x128 := h0_v25 (W0 m ρ c)
theorem v1_v26 : V1 m ρ c main_v26 = shapeCast S1x128 (m ((c : Thread nD τ).loc main_arg6)) Facts₀.shapeCasts_S128_S1x128 := h0_v26 (W0 m ρ c)

/-! ## Region 0 leaves the first layer -/

theorem g0_eq : Region0.G0 (V1 m ρ) c = arr2 (L0 m c) := by
  have e23 : (fun (i : Fin 50000) (k : Fin 11) => V1 m ρ c main_v23 (ix2 i k))
      = A11k (m ((c : Thread nD τ).loc main_arg1)) (fun (i : Fin 50000) (k : Fin 11) => m ((c : Thread nD τ).loc main_arg0) (ix2 i k)) := by
    rw [v1_v23]; exact agg11_rows _ _
  have hL : layer0 (fun (i : Fin 50000) (k : Fin 11) => V1 m ρ c main_v23 (ix2 i k)) (fun (i : Fin 50000) (k : Fin 11) => V1 m ρ c main_arg0 (ix2 i k))
      (fun (k : Fin 11) (j : Fin 128) => V1 m ρ c main_arg2 (ix2 k j)) (fun (k : Fin 11) (j : Fin 128) => V1 m ρ c main_arg4 (ix2 k j))
      (fun (j : Fin 128) => V1 m ρ c main_v24 (ix2 0 j)) (fun (j : Fin 128) => V1 m ρ c main_v25 (ix2 0 j)) (fun (j : Fin 128) => V1 m ρ c main_v26 (ix2 0 j))
      = L0 m c := by
    unfold L0
    rw [e23, v1_arg m ρ c main_arg0 (by decide), v1_arg m ρ c main_arg2 (by decide), v1_arg m ρ c main_arg4 (by decide), v1_v24, v1_v25, v1_v26,
      rowvec, rowvec, rowvec]
  funext idx
  exact congrFun (congrFun hL (idx 0)) (idx 1)

theorem w2_v27 : W2 m ρ c (Proc.devRef .tc main_v27) = arr2 (L0 m c) :=
  (W2_arr m ρ c 7).trans ((Region0.final (V1 m ρ) Pay.out0_7_apply c).trans (g0_eq m ρ c))

/-! ## Carried across region 0 -/

theorem w2_of (r : Ref sig .tc) (hn0 : ∀ w, Pipeline.arrRef spec0 w ≠ r) : W2 m ρ c (Proc.devRef .tc r) = V1 m ρ c r := W2_of_ne m ρ c r hn0
theorem w2_v1 : W2 m ρ c (Proc.devRef .tc main_v1) = HostSide.row0 (m ((c : Thread nD τ).loc main_arg1)) := (w2_of m ρ c main_v1 (by decide)).trans (v1_v1 m ρ c)
theorem w2_v3 : W2 m ρ c (Proc.devRef .tc main_v3) = HostSide.row1 (m ((c : Thread nD τ).loc main_arg1)) := (w2_of m ρ c main_v3 (by decide)).trans (v1_v3 m ρ c)
theorem w2_v11 : W2 m ρ c (Proc.devRef .tc main_v11) = recipDeg (m ((c : Thread nD τ).loc main_arg1)) := (w2_of m ρ c main_v11 (by decide)).trans (v1_v11 m ρ c)
theorem w2_arg (r : Ref sig .tc) (h0 : r ∉ written0) (hn0 : ∀ w, Pipeline.arrRef spec0 w ≠ r) : W2 m ρ c (Proc.devRef .tc r) = m ((c : Thread nD τ).loc r) :=
  (w2_of m ρ c r hn0).trans (v1_arg m ρ c r h0)

/-! ## After the second stretch -/

theorem v3_v39 : V3 m ρ c main_v39 = mulf (seg128 (m ((c : Thread nD τ).loc main_arg1)) (arr2 (L0 m c))) (broadcastInDim S50000x128 ![0, 1] Facts₀.bcast_S50000x1_S50000x128_0_1 (recipDeg (m ((c : Thread nD τ).loc main_arg1)))) := by
  refine (h1_v39 (W2 m ρ c)).trans ?_
  rw [w2_v1, w2_v3, w2_v27, w2_v11, seg128Of_rows]
theorem v3_v27 : V3 m ρ c main_v27 = arr2 (L0 m c) := (keep1 (W2 m ρ c) main_v27 (by decide)).trans (w2_v27 m ρ c)
theorem v3_v1 : V3 m ρ c main_v1 = HostSide.row0 (m ((c : Thread nD τ).loc main_arg1)) := (keep1 (W2 m ρ c) main_v1 (by decide)).trans (w2_v1 m ρ c)
theorem v3_v3 : V3 m ρ c main_v3 = HostSide.row1 (m ((c : Thread nD τ).loc main_arg1)) := (keep1 (W2 m ρ c) main_v3 (by decide)).trans (w2_v3 m ρ c)
theorem v3_v11 : V3 m ρ c main_v11 = recipDeg (m ((c : Thread nD τ).loc main_arg1)) := (keep1 (W2 m ρ c) main_v11 (by decide)).trans (w2_v11 m ρ c)
theorem v3_arg (r : Ref sig .tc) (h0 : r ∉ written0) (hn0 : ∀ w, Pipeline.arrRef spec0 w ≠ r) (h1 : r ∉ written1) : V3 m ρ c r = m ((c : Thread nD τ).loc r) :=
  (keep1 (W2 m ρ c) r h1).trans (w2_arg m ρ c r h0 hn0)
theorem v3_v40 : V3 m ρ c main_v40 = shapeCast S1x128 (m ((c : Thread nD τ).loc main_arg8)) Facts₀.shapeCasts_S128_S1x128 := by
  refine (h1_v40 (W2 m ρ c)).trans ?_; rw [w2_arg m ρ c main_arg8 (by decide) (by decide)]
theorem v3_v41 : V3 m ρ c main_v41 = shapeCast S1x128 (m ((c : Thread nD τ).loc main_arg10)) Facts₀.shapeCasts_S128_S1x128 := by
  refine (h1_v41 (W2 m ρ c)).trans ?_; rw [w2_arg m ρ c main_arg10 (by decide) (by decide)]
theorem v3_v42 : V3 m ρ c main_v42 = shapeCast S1x128 (m ((c : Thread nD τ).loc main_arg11)) Facts₀.shapeCasts_S128_S1x128 := by
  refine (h1_v42 (W2 m ρ c)).trans ?_; rw [w2_arg m ρ c main_arg11 (by decide) (by decide)]

/-! ## Region 1 leaves the second layer -/

theorem g1_eq : Region1.G1 (V3 m ρ) c = arr2 (L1 m c) := by
  have e39 : (fun (i : Fin 50000) (k : Fin 128) => V3 m ρ c main_v39 (ix2 i k)) = A128k (m ((c : Thread nD τ).loc main_arg1)) (L0 m c) := by
    rw [v3_v39]; refine (agg128_rows _ _).trans ?_; unfold A128k; rw [arr2_rows]
  have e27 : (fun (i : Fin 50000) (k : Fin 128) => V3 m ρ c main_v27 (ix2 i k)) = L0 m c := by
    rw [v3_v27]; exact arr2_rows _
  have hL : layerR (fun (i : Fin 50000) (k : Fin 128) => V3 m ρ c main_v39 (ix2 i k)) (fun (i : Fin 50000) (k : Fin 128) => V3 m ρ c main_v27 (ix2 i k))
      (fun (k : Fin 128) (j : Fin 128) => V3 m ρ c main_arg7 (ix2 k j)) (fun (k : Fin 128) (j : Fin 128) => V3 m ρ c main_arg9 (ix2 k j))
      (fun (j : Fin 128) => V3 m ρ c main_v40 (ix2 0 j)) (fun (j : Fin 128) => V3 m ρ c main_v41 (ix2 0 j)) (fun (j : Fin 128) => V3 m ρ c main_v42 (ix2 0 j))
      = L1 m c := by
    unfold L1
    rw [e39, e27, v3_arg m ρ c main_arg7 (by decide) (by decide) (by decide), v3_arg m ρ c main_arg9 (by decide) (by decide) (by decide), v3_v40, v3_v41, v3_v42,
      rowvec, rowvec, rowvec]
  funext idx
  exact congrFun (congrFun hL (idx 0)) (idx 1)

theorem w4_v43 : W4 m ρ c (Proc.devRef .tc main_v43) = arr2 (L1 m c) :=
  (W4_arr m ρ c 7).trans ((Region1.final (V3 m ρ) Pay.out1_7_apply c).trans (g1_eq m ρ c))

/-! ## Carried across region 1, and the third stretch -/

theorem w4_of (r : Ref sig .tc) (hn1 : ∀ w, Pipeline.arrRef spec1 w ≠ r) : W4 m ρ c (Proc.devRef .tc r) = V3 m ρ c r := W4_of_ne m ρ c r hn1
theorem w4_v1 : W4 m ρ c (Proc.devRef .tc main_v1) = HostSide.row0 (m ((c : Thread nD τ).loc main_arg1)) := (w4_of m ρ c main_v1 (by decide)).trans (v3_v1 m ρ c)
theorem w4_v3 : W4 m ρ c (Proc.devRef .tc main_v3) = HostSide.row1 (m ((c : Thread nD τ).loc main_arg1)) := (w4_of m ρ c main_v3 (by decide)).trans (v3_v3 m ρ c)
theorem w4_v11 : W4 m ρ c (Proc.devRef .tc main_v11) = recipDeg (m ((c : Thread nD τ).loc main_arg1)) := (w4_of m ρ c main_v11 (by decide)).trans (v3_v11 m ρ c)
theorem w4_arg (r : Ref sig .tc) (h0 : r ∉ written0) (hn0 : ∀ w, Pipeline.arrRef spec0 w ≠ r) (h1 : r ∉ written1) (hn1 : ∀ w, Pipeline.arrRef spec1 w ≠ r) : W4 m ρ c (Proc.devRef .tc r) = m ((c : Thread nD τ).loc r) :=
  (w4_of m ρ c r hn1).trans (v3_arg m ρ c r h0 hn0 h1)

theorem v5_v55 : V5 m ρ c main_v55 = mulf (seg128 (m ((c : Thread nD τ).loc main_arg1)) (arr2 (L1 m c))) (broadcastInDim S50000x128 ![0, 1] Facts₀.bcast_S50000x1_S50000x128_0_1 (recipDeg (m ((c : Thread nD τ).loc main_arg1)))) := by
  refine (h2_v55 (W4 m ρ c)).trans ?_
  rw [w4_v1, w4_v3, w4_v43, w4_v11, seg128Of_rows]
theorem v5_v43 : V5 m ρ c main_v43 = arr2 (L1 m c) := (keep2 (W4 m ρ c) main_v43 (by decide)).trans (w4_v43 m ρ c)
theorem v5_arg (r : Ref sig .tc) (h0 : r ∉ written0) (hn0 : ∀ w, Pipeline.arrRef spec0 w ≠ r) (h1 : r ∉ written1) (hn1 : ∀ w, Pipeline.arrRef spec1 w ≠ r) (h2 : r ∉ written2) : V5 m ρ c r = m ((c : Thread nD τ).loc r) :=
  (keep2 (W4 m ρ c) r h2).trans (w4_arg m ρ c r h0 hn0 h1 hn1)
theorem v5_v56 : V5 m ρ c main_v56 = shapeCast S1x128 (m ((c : Thread nD τ).loc main_arg13)) Facts₀.shapeCasts_S128_S1x128 := by
  refine (h2_v56 (W4 m ρ c)).trans ?_; rw [w4_arg m ρ c main_arg13 (by decide) (by decide) (by decide) (by decide)]
theorem v5_v57 : V5 m ρ c main_v57 = shapeCast S1x128 (m ((c : Thread nD τ).loc main_arg15)) Facts₀.shapeCasts_S128_S1x128 := by
  refine (h2_v57 (W4 m ρ c)).trans ?_; rw [w4_arg m ρ c main_arg15 (by decide) (by decide) (by decide) (by decide)]
theorem v5_v58 : V5 m ρ c main_v58 = shapeCast S1x128 (m ((c : Thread nD τ).loc main_arg16)) Facts₀.shapeCasts_S128_S1x128 := by
  refine (h2_v58 (W4 m ρ c)).trans ?_; rw [w4_arg m ρ c main_arg16 (by decide) (by decide) (by decide) (by decide)]
theorem v5_v59 : V5 m ρ c main_v59 = shapeCast S1x64 (m ((c : Thread nD τ).loc main_arg18)) Facts₀.shapeCasts_S64_S1x64 := by
  refine (h2_v59 (W4 m ρ c)).trans ?_; rw [w4_arg m ρ c main_arg18 (by decide) (by decide) (by decide) (by decide)]
theorem v5_v60 : V5 m ρ c main_v60 = shapeCast S1x1 (m ((c : Thread nD τ).loc main_arg20)) Facts₀.shapeCasts_S1_S1x1 := by
  refine (h2_v60 (W4 m ρ c)).trans ?_; rw [w4_arg m ρ c main_arg20 (by decide) (by decide) (by decide) (by decide)]

/-! ## Region 2 leaves the head's output -/

theorem g2_eq : Region2.G2 (V5 m ρ) c = fun idx => OUT m c (idx 0) := by
  have e55 : (fun (i : Fin 50000) (k : Fin 128) => V5 m ρ c main_v55 (ix2 i k)) = A128k (m ((c : Thread nD τ).loc main_arg1)) (L1 m c) := by
    rw [v5_v55]; refine (agg128_rows _ _).trans ?_; unfold A128k; rw [arr2_rows]
  have e43 : (fun (i : Fin 50000) (k : Fin 128) => V5 m ρ c main_v43 (ix2 i k)) = L1 m c := by
    rw [v5_v43]; exact arr2_rows _
  have b8 : (fun (q : Fin 64) => shapeCast S1x64 (m ((c : Thread nD τ).loc main_arg18)) Facts₀.shapeCasts_S64_S1x64 (ix2 0 q)) = fun q => m ((c : Thread nD τ).loc main_arg18) (ix1 q) :=
    funext fun q => row64 _ q
  have hO : head (layerR (fun (i : Fin 50000) (k : Fin 128) => V5 m ρ c main_v55 (ix2 i k)) (fun (i : Fin 50000) (k : Fin 128) => V5 m ρ c main_v43 (ix2 i k))
        (fun (k : Fin 128) (j : Fin 128) => V5 m ρ c main_arg12 (ix2 k j)) (fun (k : Fin 128) (j : Fin 128) => V5 m ρ c main_arg14 (ix2 k j))
        (fun (j : Fin 128) => V5 m ρ c main_v56 (ix2 0 j)) (fun (j : Fin 128) => V5 m ρ c main_v57 (ix2 0 j)) (fun (j : Fin 128) => V5 m ρ c main_v58 (ix2 0 j)))
      (fun (j : Fin 128) (q : Fin 64) => V5 m ρ c main_arg17 (ix2 j q)) (fun (q : Fin 64) => V5 m ρ c main_v59 (ix2 0 q)) (fun (q : Fin 64) => V5 m ρ c main_arg19 (ix2 q 0)) (V5 m ρ c main_v60 (ix2 0 0))
      = OUT m c := by
    unfold OUT L2
    rw [e55, e43, v5_arg m ρ c main_arg12 (by decide) (by decide) (by decide) (by decide) (by decide),
      v5_arg m ρ c main_arg14 (by decide) (by decide) (by decide) (by decide) (by decide), v5_v56, v5_v57, v5_v58,
      v5_arg m ρ c main_arg17 (by decide) (by decide) (by decide) (by decide) (by decide), v5_v59,
      v5_arg m ρ c main_arg19 (by decide) (by decide) (by decide) (by decide) (by decide), v5_v60,
      rowvec, rowvec, rowvec, b8, AggK.row1]
  funext idx
  exact congrFun hO (idx 0)

theorem w6_v61 : W6 m ρ c (Proc.devRef .tc main_v61) = fun idx => OUT m c (idx 0) :=
  (W6_arr m ρ c 11).trans ((Region2.final (V5 m ρ) Pay.out2_11_apply c).trans (g2_eq m ρ c))

/-! ## The result -/

/-- The result buffer at the last boundary is the network's output, node by node. -/
theorem kernel_value : W7 m ρ c (Proc.devRef .tc main_v62) = fun idx => OUT m c (idx 0) := by
  refine (h3_v62 (W6 m ρ c)).trans ?_
  rw [w6_v61]
  funext idx
  exact col50000 _ idx

/-- `OUT` is the specified network over the kernel's neighbour means. -/
theorem out_eq_net : OUT m c = net (A11k (m ((c : Thread nD τ).loc main_arg1))) (A128k (m ((c : Thread nD τ).loc main_arg1))) (fun (i : Fin 50000) (k : Fin 11) => m ((c : Thread nD τ).loc main_arg0) (ix2 i k))
    (fun (k : Fin 11) (j : Fin 128) => m ((c : Thread nD τ).loc main_arg2) (ix2 k j)) (fun (k : Fin 11) (j : Fin 128) => m ((c : Thread nD τ).loc main_arg4) (ix2 k j)) (fun (j : Fin 128) => m ((c : Thread nD τ).loc main_arg3) (ix1 j)) (fun (j : Fin 128) => m ((c : Thread nD τ).loc main_arg5) (ix1 j)) (fun (j : Fin 128) => m ((c : Thread nD τ).loc main_arg6) (ix1 j))
    (fun (k : Fin 128) (j : Fin 128) => m ((c : Thread nD τ).loc main_arg7) (ix2 k j)) (fun (k : Fin 128) (j : Fin 128) => m ((c : Thread nD τ).loc main_arg9) (ix2 k j)) (fun (j : Fin 128) => m ((c : Thread nD τ).loc main_arg8) (ix1 j)) (fun (j : Fin 128) => m ((c : Thread nD τ).loc main_arg10) (ix1 j)) (fun (j : Fin 128) => m ((c : Thread nD τ).loc main_arg11) (ix1 j))
    (fun (k : Fin 128) (j : Fin 128) => m ((c : Thread nD τ).loc main_arg12) (ix2 k j)) (fun (k : Fin 128) (j : Fin 128) => m ((c : Thread nD τ).loc main_arg14) (ix2 k j)) (fun (j : Fin 128) => m ((c : Thread nD τ).loc main_arg13) (ix1 j)) (fun (j : Fin 128) => m ((c : Thread nD τ).loc main_arg15) (ix1 j)) (fun (j : Fin 128) => m ((c : Thread nD τ).loc main_arg16) (ix1 j))
    (fun (j : Fin 128) (q : Fin 64) => m ((c : Thread nD τ).loc main_arg17) (ix2 j q)) (fun (q : Fin 64) => m ((c : Thread nD τ).loc main_arg18) (ix1 q))
    (fun (q : Fin 64) => m ((c : Thread nD τ).loc main_arg19) (ix2 q 0)) (m ((c : Thread nD τ).loc main_arg20) (ix1 0)) := rfl

end Cert.KernelIdeal.KVal

end
-- ==== Proof.RefFold0.lean ====
/- Layer 0 of the reference's run, read back: the fold of its first 66 host operations (the split of the edge list,
   the segment mean of the features, the two dot_generals and the bias, LayerNorm, the rectifier) over any valuation
   is the stages of layer 0 at the valuation's argument buffers. -/
import proofs.«113527_j11390253269041_2_alg».proof.Proof.RefRead
import Idealize.ShloMosaic.Lib.Pipeline.Frame

noncomputable section

namespace Cert.ReferenceIdeal.RefFold

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- Layer 0's operations: the operations of @main up to the one writing layer 0's output, in order. -/
def seg0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x11_S800000x1_S800000x11_1_0_n_n_0_1_111 x i) : (⟨S50000x11, .f32⟩ : BufTy).Contents (Elt F) → (⟨S800000x1, .i32⟩ : BufTy).Contents (Elt F) → (⟨S800000x11, .f32⟩ : BufTy).Contents (Elt F)),
    nullary main_cst (constant S_ .f32 0x00000000#32),
    unary main_cst main_v11 (broadcastInDim S50000x11 ![] bcast_S_S50000x11 : (⟨S_, .f32⟩ : BufTy).Contents (Elt F) → (⟨S50000x11, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x11_S800000x1_S800000x11_1_0_0_1 x i u) : (⟨S50000x11, .f32⟩ : BufTy).Contents (Elt F) → (⟨S800000x1, .i32⟩ : BufTy).Contents (Elt F) → (⟨S800000x11, .f32⟩ : BufTy).Contents (Elt F) → (⟨S50000x11, .f32⟩ : BufTy).Contents (Elt F)),
    nullary main_cst_1 (constant S_ .f32 0x3F800000#32),
    unary main_cst_1 main_v14 (broadcastInDim S800000x1 ![] bcast_S_S800000x1 : (⟨S_, .f32⟩ : BufTy).Contents (Elt F) → (⟨S800000x1, .f32⟩ : BufTy).Contents (Elt F)),
    nullary main_cst_2 (constant S_ .f32 0x00000000#32),
    unary main_cst_2 main_v15 (broadcastInDim S50000x1 ![] bcast_S_S50000x1 : (⟨S_, .f32⟩ : BufTy).Contents (Elt F) → (⟨S50000x1, .f32⟩ : BufTy).Contents (Elt F)),
    unary main_v3 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    nullary main_cst_3 (constant S_ .f32 0x3F800000#32),
    unary main_cst_3 main_v18 (broadcastInDim S50000x1 ![] bcast_S_S50000x1 : (⟨S_, .f32⟩ : BufTy).Contents (Elt F) → (⟨S50000x1, .f32⟩ : BufTy).Contents (Elt F)),
    binary main_v17 main_v18 main_v19 (maximumf : (⟨S50000x1, .f32⟩ : BufTy).Contents (Elt F) → (⟨S50000x1, .f32⟩ : BufTy).Contents (Elt F) → (⟨S50000x1, .f32⟩ : BufTy).Contents (Elt F)),
    unary main_v19 main_v20 (broadcastInDim S50000x11 ![0, 1] bcast_S50000x1_S50000x11_0_1 : (⟨S50000x1, .f32⟩ : BufTy).Contents (Elt F) → (⟨S50000x11, .f32⟩ : BufTy).Contents (Elt F)),
    binary main_v13 main_v20 main_v21 (Host.divf : (⟨S50000x11, .f32⟩ : BufTy).Contents (Elt F) → (⟨S50000x11, .f32⟩ : BufTy).Contents (Elt F) → (⟨S50000x11, .f32⟩ : BufTy).Contents (Elt F)),
    binary main_v21 main_arg2 main_v22 ((fun l r => Host.dotGeneral dot_S50000x11_S11x128_S50000x128_1_0_0_1_n_n none l r) : (⟨S50000x11, .f32⟩ : BufTy).Contents (Elt F) → (⟨S11x128, .f32⟩ : BufTy).Contents (Elt F) → (⟨S50000x128, .f32⟩ : BufTy).Contents (Elt F)),
    unary main_arg3 main_v23 (broadcastInDim S1x128 ![1] bcast_S128_S1x128_1 : (⟨S128, .f32⟩ : BufTy).Contents (Elt F) → (⟨S1x128, .f32⟩ : BufTy).Contents (Elt F)),
    unary main_v23 main_v24 (broadcastInDim S50000x128 ![0, 1] bcast_S1x128_S50000x128_0_1 : (⟨S1x128, .f32⟩ : BufTy).Contents (Elt F) → (⟨S50000x128, .f32⟩ : BufTy).Contents (Elt F)),
    binary main_v22 main_v24 main_v25 (addf : (⟨S50000x128, .f32⟩ : BufTy).Contents (Elt F) → (⟨S50000x128, .f32⟩ : BufTy).Contents (Elt F) → (⟨S50000x128, .f32⟩ : BufTy).Contents (Elt F)),
    binary main_arg0 main_arg4 main_v26 ((fun l r => Host.dotGeneral dot_S50000x11_S11x128_S50000x128_1_0_0_1_n_n none l r) : (⟨S50000x11, .f32⟩ : BufTy).Contents (Elt F) → (⟨S11x128, .f32⟩ : BufTy).Contents (Elt F) → (⟨S50000x128, .f32⟩ : BufTy).Contents (Elt F)),
    binary main_v25 main_v26 main_v27 (addf : (⟨S50000x128, .f32⟩ : BufTy).Contents (Elt F) → (⟨S50000x128, .f32⟩ : BufTy).Contents (Elt F) → (⟨S50000x128, .f32⟩ : BufTy).Contents (Elt F)),
    nullary main_cst_4 (constant S_ .f32 0x00000000#32),
    binary main_v27 main_cst_4 main_v28 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v28 main_v29 (broadcastInDim S50000x1 ![0] bcast_S50000_S50000x1_0 : (⟨S50000, .f32⟩ : BufTy).Contents (Elt F) → (⟨S50000x1, .f32⟩ : BufTy).Contents (Elt F)),
    nullary main_cst_5 (constant S_ .f32 0x43000000#32),
    unary main_cst_5 main_v30 (broadcastInDim S50000x1 ![] bcast_S_S50000x1 : (⟨S_, .f32⟩ : BufTy).Contents (Elt F) → (⟨S50000x1, .f32⟩ : BufTy).Contents (Elt F)),
    binary main_v29 main_v30 main_v31 (Host.divf : (⟨S50000x1, .f32⟩ : BufTy).Contents (Elt F) → (⟨S50000x1, .f32⟩ : BufTy).Contents (Elt F) → (⟨S50000x1, .f32⟩ : BufTy).Contents (Elt F)),
    unary main_v31 main_v32 (broadcastInDim S50000x128 ![0, 1] bcast_S50000x1_S50000x128_0_1 : (⟨S50000x1, .f32⟩ : BufTy).Contents (Elt F) → (⟨S50000x128, .f32⟩ : BufTy).Contents (Elt F)),
    binary main_v27 main_v32 main_v33 (subf : (⟨S50000x128, .f32⟩ : BufTy).Contents (Elt F) → (⟨S50000x128, .f32⟩ : BufTy).Contents (Elt F) → (⟨S50000x128, .f32⟩ : BufTy).Contents (Elt F)),
    binary main_v33 main_v33 main_v34 (mulf : (⟨S50000x128, .f32⟩ : BufTy).Contents (Elt F) → (⟨S50000x128, .f32⟩ : BufTy).Contents (Elt F) → (⟨S50000x128, .f32⟩ : BufTy).Contents (Elt F)),
    nullary main_cst_6 (constant S_ .f32 0x00000000#32),
    binary main_v34 main_cst_6 main_v35 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v35 main_v36 (broadcastInDim S50000x1 ![0] bcast_S50000_S50000x1_0 : (⟨S50000, .f32⟩ : BufTy).Contents (Elt F) → (⟨S50000x1, .f32⟩ : BufTy).Contents (Elt F)),
    nullary main_cst_7 (constant S_ .f32 0x43000000#32),
    unary main_cst_7 main_v37 (broadcastInDim S50000x1 ![] bcast_S_S50000x1 : (⟨S_, .f32⟩ : BufTy).Contents (Elt F) → (⟨S50000x1, .f32⟩ : BufTy).Contents (Elt F)),
    binary main_v36 main_v37 main_v38 (Host.divf : (⟨S50000x1, .f32⟩ : BufTy).Contents (Elt F) → (⟨S50000x1, .f32⟩ : BufTy).Contents (Elt F) → (⟨S50000x1, .f32⟩ : BufTy).Contents (Elt F)),
    unary main_v31 main_v39 (broadcastInDim S50000x128 ![0, 1] bcast_S50000x1_S50000x128_0_1 : (⟨S50000x1, .f32⟩ : BufTy).Contents (Elt F) → (⟨S50000x128, .f32⟩ : BufTy).Contents (Elt F)),
    binary main_v27 main_v39 main_v40 (subf : (⟨S50000x128, .f32⟩ : BufTy).Contents (Elt F) → (⟨S50000x128, .f32⟩ : BufTy).Contents (Elt F) → (⟨S50000x128, .f32⟩ : BufTy).Contents (Elt F)),
    nullary main_cst_8 (constant S_ .f32 0x3727C5AC#32),
    unary main_cst_8 main_v41 (broadcastInDim S50000x1 ![] bcast_S_S50000x1 : (⟨S_, .f32⟩ : BufTy).Contents (Elt F) → (⟨S50000x1, .f32⟩ : BufTy).Contents (Elt F)),
    binary main_v38 main_v41 main_v42 (addf : (⟨S50000x1, .f32⟩ : BufTy).Contents (Elt F) → (⟨S50000x1, .f32⟩ : BufTy).Contents (Elt F) → (⟨S50000x1, .f32⟩ : BufTy).Contents (Elt F)),
    unary main_v42 main_v43 (Host.rsqrt : (⟨S50000x1, .f32⟩ : BufTy).Contents (Elt F) → (⟨S50000x1, .f32⟩ : BufTy).Contents (Elt F)),
    unary main_v43 main_v44 (broadcastInDim S50000x128 ![0, 1] bcast_S50000x1_S50000x128_0_1 : (⟨S50000x1, .f32⟩ : BufTy).Contents (Elt F) → (⟨S50000x128, .f32⟩ : BufTy).Contents (Elt F)),
    binary main_v40 main_v44 main_v45 (mulf : (⟨S50000x128, .f32⟩ : BufTy).Contents (Elt F) → (⟨S50000x128, .f32⟩ : BufTy).Contents (Elt F) → (⟨S50000x128, .f32⟩ : BufTy).Contents (Elt F)),
    unary main_arg5 main_v46 (broadcastInDim S1x128 ![1] bcast_S128_S1x128_1 : (⟨S128, .f32⟩ : BufTy).Contents (Elt F) → (⟨S1x128, .f32⟩ : BufTy).Contents (Elt F)),
    unary main_v46 main_v47 (broadcastInDim S50000x128 ![0, 1] bcast_S1x128_S50000x128_0_1 : (⟨S1x128, .f32⟩ : BufTy).Contents (Elt F) → (⟨S50000x128, .f32⟩ : BufTy).Contents (Elt F)),
    binary main_v45 main_v47 main_v48 (mulf : (⟨S50000x128, .f32⟩ : BufTy).Contents (Elt F) → (⟨S50000x128, .f32⟩ : BufTy).Contents (Elt F) → (⟨S50000x128, .f32⟩ : BufTy).Contents (Elt F)),
    unary main_arg6 main_v49 (broadcastInDim S1x128 ![1] bcast_S128_S1x128_1 : (⟨S128, .f32⟩ : BufTy).Contents (Elt F) → (⟨S1x128, .f32⟩ : BufTy).Contents (Elt F)),
    unary main_v49 main_v50 (broadcastInDim S50000x128 ![0, 1] bcast_S1x128_S50000x128_0_1 : (⟨S1x128, .f32⟩ : BufTy).Contents (Elt F) → (⟨S50000x128, .f32⟩ : BufTy).Contents (Elt F)),
    binary main_v48 main_v50 main_v51 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v51) (TRef.of (T := ⟨S50000x128, .f32⟩) main_call0_v0) (TRef.of (T := ⟨S50000x128, .f32⟩) main_v52) maximumf ]

/-- The buffers that layer 0's operations write. -/
abbrev seg0_W : List (Ref sig .tc) :=
  [main_v0, main_v1, main_v2, main_v3, main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21, main_v22, main_v23, main_v24, main_v25, main_v26, main_v27, main_cst_4, main_v28, main_v29, main_cst_5, main_v30, main_v31, main_v32, main_v33, main_v34, main_cst_6, main_v35, main_v36, main_cst_7, main_v37, main_v38, main_v39, main_v40, main_cst_8, main_v41, main_v42, main_v43, main_v44, main_v45, main_v46, main_v47, main_v48, main_v49, main_v50, main_v51, main_call0_cst, main_call0_v0, main_v52]

set_option maxRecDepth 8192 in
theorem seg0_writes : (seg0 : List (HloOp τ sig (Elt F))).Forall fun op =>
    op.writes ⊆ (seg0_W.map (Proc.devRef (τ := τ) .tc)).toFinset := by
  simp only [seg0, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)

/-- A buffer that layer 0 does not write keeps its contents through it. -/
theorem seg0_keep (W : Valuation τ sig (Elt F)) (r : Ref sig .tc) (h : r ∉ seg0_W) :
    after (seg0 (F := F)) W (Proc.devRef .tc r) = W (Proc.devRef .tc r) :=
  after_of_writes_sub seg0 W seg0_writes h

/-- The source column of the edge list after layer 0's operations. -/
theorem seg0_v1 (W : Valuation τ sig (Elt F)) :
    after (seg0 (F := F)) W (Proc.devRef .tc main_v1) = val_main_v1 (F := F) (W (Proc.devRef .tc main_arg1)) := by
  unfold seg0
  after_results_simp
  rfl

/-- The destination column of the edge list after layer 0's operations. -/
theorem seg0_v3 (W : Valuation τ sig (Elt F)) :
    after (seg0 (F := F)) W (Proc.devRef .tc main_v3) = val_main_v3 (F := F) (W (Proc.devRef .tc main_arg1)) := by
  unfold seg0
  after_results_simp
  rfl

set_option maxRecDepth 8192 in
set_option maxHeartbeats 4000000 in
/-- Layer 0's output after layer 0's operations. -/
theorem seg0_v52 (W : Valuation τ sig (Elt F)) :
    after (seg0 (F := F)) W (Proc.devRef .tc main_v52)
      = val_main_v52 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  unfold seg0
  after_results_simp
  rfl

end Cert.ReferenceIdeal.RefFold

end
-- ==== Proof.RefFold1.lean ====
/- Layer 1 of the reference's run, read back: the fold of its 63 host operations (the segment mean of layer 0's output,
   the two dot_generals and the bias, LayerNorm, the rectifier, the residual sum) over any valuation that holds the two
   columns of the edge list and layer 0's output is the stages of layer 1. -/
import proofs.«113527_j11390253269041_2_alg».proof.Proof.RefRead
import Idealize.ShloMosaic.Lib.Pipeline.Frame

noncomputable section

namespace Cert.ReferenceIdeal.RefFold

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- Layer 1's operations: the operations of @main after the one writing the previous layer's output, up to the one
    writing layer 1's output, in order. -/
def seg1 : List (HloOp τ sig (Elt F)) :=
  [ nullary main_c_9 (constantI S_ 32 0#32),
    unary main_c_9 main_v53 (broadcastInDim S800000 ![] bcast_S_S800000 : (⟨S_, .i32⟩ : BufTy).Contents (Elt F) → (⟨S800000, .i32⟩ : BufTy).Contents (Elt F)),
    binary main_v1 main_v53 main_v54 (cmpi .slt : (⟨S800000, .i32⟩ : BufTy).Contents (Elt F) → (⟨S800000, .i32⟩ : BufTy).Contents (Elt F) → (⟨S800000, .i1⟩ : BufTy).Contents (Elt F)),
    nullary main_c_10 (constantI S_ 32 50000#32),
    unary main_c_10 main_v55 (broadcastInDim S800000 ![] bcast_S_S800000 : (⟨S_, .i32⟩ : BufTy).Contents (Elt F) → (⟨S800000, .i32⟩ : BufTy).Contents (Elt F)),
    binary main_v1 main_v55 main_v56 (addi : (⟨S800000, .i32⟩ : BufTy).Contents (Elt F) → (⟨S800000, .i32⟩ : BufTy).Contents (Elt F) → (⟨S800000, .i32⟩ : BufTy).Contents (Elt F)),
    ternary main_v54 main_v56 main_v1 main_v57 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v57 main_v58 (broadcastInDim S800000x1 ![0] bcast_S800000_S800000x1_0 : (⟨S800000, .i32⟩ : BufTy).Contents (Elt F) → (⟨S800000x1, .i32⟩ : BufTy).Contents (Elt F)),
    binary main_v52 main_v58 main_v59 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_11 (constant S_ .f32 0x00000000#32),
    unary main_cst_11 main_v60 (broadcastInDim S50000x128 ![] bcast_S_S50000x128 : (⟨S_, .f32⟩ : BufTy).Contents (Elt F) → (⟨S50000x128, .f32⟩ : BufTy).Contents (Elt F)),
    unary main_v3 main_v61 (broadcastInDim S800000x1 ![0] bcast_S800000_S800000x1_0 : (⟨S800000, .i32⟩ : BufTy).Contents (Elt F) → (⟨S800000x1, .i32⟩ : BufTy).Contents (Elt F)),
    ternary main_v60 main_v61 main_v59 main_v62 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_12 (constant S_ .f32 0x3F800000#32),
    unary main_cst_12 main_v63 (broadcastInDim S800000x1 ![] bcast_S_S800000x1 : (⟨S_, .f32⟩ : BufTy).Contents (Elt F) → (⟨S800000x1, .f32⟩ : BufTy).Contents (Elt F)),
    nullary main_cst_13 (constant S_ .f32 0x00000000#32),
    unary main_cst_13 main_v64 (broadcastInDim S50000x1 ![] bcast_S_S50000x1 : (⟨S_, .f32⟩ : BufTy).Contents (Elt F) → (⟨S50000x1, .f32⟩ : BufTy).Contents (Elt F)),
    unary main_v3 main_v65 (broadcastInDim S800000x1 ![0] bcast_S800000_S800000x1_0 : (⟨S800000, .i32⟩ : BufTy).Contents (Elt F) → (⟨S800000x1, .i32⟩ : BufTy).Contents (Elt F)),
    ternary main_v64 main_v65 main_v63 main_v66 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    nullary main_cst_14 (constant S_ .f32 0x3F800000#32),
    unary main_cst_14 main_v67 (broadcastInDim S50000x1 ![] bcast_S_S50000x1 : (⟨S_, .f32⟩ : BufTy).Contents (Elt F) → (⟨S50000x1, .f32⟩ : BufTy).Contents (Elt F)),
    binary main_v66 main_v67 main_v68 (maximumf : (⟨S50000x1, .f32⟩ : BufTy).Contents (Elt F) → (⟨S50000x1, .f32⟩ : BufTy).Contents (Elt F) → (⟨S50000x1, .f32⟩ : BufTy).Contents (Elt F)),
    unary main_v68 main_v69 (broadcastInDim S50000x128 ![0, 1] bcast_S50000x1_S50000x128_0_1 : (⟨S50000x1, .f32⟩ : BufTy).Contents (Elt F) → (⟨S50000x128, .f32⟩ : BufTy).Contents (Elt F)),
    binary main_v62 main_v69 main_v70 (Host.divf : (⟨S50000x128, .f32⟩ : BufTy).Contents (Elt F) → (⟨S50000x128, .f32⟩ : BufTy).Contents (Elt F) → (⟨S50000x128, .f32⟩ : BufTy).Contents (Elt F)),
    binary main_v70 main_arg7 main_v71 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg8 main_v72 (broadcastInDim S1x128 ![1] bcast_S128_S1x128_1 : (⟨S128, .f32⟩ : BufTy).Contents (Elt F) → (⟨S1x128, .f32⟩ : BufTy).Contents (Elt F)),
    unary main_v72 main_v73 (broadcastInDim S50000x128 ![0, 1] bcast_S1x128_S50000x128_0_1 : (⟨S1x128, .f32⟩ : BufTy).Contents (Elt F) → (⟨S50000x128, .f32⟩ : BufTy).Contents (Elt F)),
    binary main_v71 main_v73 main_v74 (addf : (⟨S50000x128, .f32⟩ : BufTy).Contents (Elt F) → (⟨S50000x128, .f32⟩ : BufTy).Contents (Elt F) → (⟨S50000x128, .f32⟩ : BufTy).Contents (Elt F)),
    binary main_v52 main_arg9 main_v75 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v74 main_v75 main_v76 (addf : (⟨S50000x128, .f32⟩ : BufTy).Contents (Elt F) → (⟨S50000x128, .f32⟩ : BufTy).Contents (Elt F) → (⟨S50000x128, .f32⟩ : BufTy).Contents (Elt F)),
    nullary main_cst_15 (constant S_ .f32 0x00000000#32),
    binary main_v76 main_cst_15 main_v77 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v77 main_v78 (broadcastInDim S50000x1 ![0] bcast_S50000_S50000x1_0 : (⟨S50000, .f32⟩ : BufTy).Contents (Elt F) → (⟨S50000x1, .f32⟩ : BufTy).Contents (Elt F)),
    nullary main_cst_16 (constant S_ .f32 0x43000000#32),
    unary main_cst_16 main_v79 (broadcastInDim S50000x1 ![] bcast_S_S50000x1 : (⟨S_, .f32⟩ : BufTy).Contents (Elt F) → (⟨S50000x1, .f32⟩ : BufTy).Contents (Elt F)),
    binary main_v78 main_v79 main_v80 (Host.divf : (⟨S50000x1, .f32⟩ : BufTy).Contents (Elt F) → (⟨S50000x1, .f32⟩ : BufTy).Contents (Elt F) → (⟨S50000x1, .f32⟩ : BufTy).Contents (Elt F)),
    unary main_v80 main_v81 (broadcastInDim S50000x128 ![0, 1] bcast_S50000x1_S50000x128_0_1 : (⟨S50000x1, .f32⟩ : BufTy).Contents (Elt F) → (⟨S50000x128, .f32⟩ : BufTy).Contents (Elt F)),
    binary main_v76 main_v81 main_v82 (subf : (⟨S50000x128, .f32⟩ : BufTy).Contents (Elt F) → (⟨S50000x128, .f32⟩ : BufTy).Contents (Elt F) → (⟨S50000x128, .f32⟩ : BufTy).Contents (Elt F)),
    binary main_v82 main_v82 main_v83 (mulf : (⟨S50000x128, .f32⟩ : BufTy).Contents (Elt F) → (⟨S50000x128, .f32⟩ : BufTy).Contents (Elt F) → (⟨S50000x128, .f32⟩ : BufTy).Contents (Elt F)),
    nullary main_cst_17 (constant S_ .f32 0x00000000#32),
    binary main_v83 main_cst_17 main_v84 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v84 main_v85 (broadcastInDim S50000x1 ![0] bcast_S50000_S50000x1_0 : (⟨S50000, .f32⟩ : BufTy).Contents (Elt F) → (⟨S50000x1, .f32⟩ : BufTy).Contents (Elt F)),
    nullary main_cst_18 (constant S_ .f32 0x43000000#32),
    unary main_cst_18 main_v86 (broadcastInDim S50000x1 ![] bcast_S_S50000x1 : (⟨S_, .f32⟩ : BufTy).Contents (Elt F) → (⟨S50000x1, .f32⟩ : BufTy).Contents (Elt F)),
    binary main_v85 main_v86 main_v87 (Host.divf : (⟨S50000x1, .f32⟩ : BufTy).Contents (Elt F) → (⟨S50000x1, .f32⟩ : BufTy).Contents (Elt F) → (⟨S50000x1, .f32⟩ : BufTy).Contents (Elt F)),
    unary main_v80 main_v88 (broadcastInDim S50000x128 ![0, 1] bcast_S50000x1_S50000x128_0_1 : (⟨S50000x1, .f32⟩ : BufTy).Contents (Elt F) → (⟨S50000x128, .f32⟩ : BufTy).Contents (Elt F)),
    binary main_v76 main_v88 main_v89 (subf : (⟨S50000x128, .f32⟩ : BufTy).Contents (Elt F) → (⟨S50000x128, .f32⟩ : BufTy).Contents (Elt F) → (⟨S50000x128, .f32⟩ : BufTy).Contents (Elt F)),
    nullary main_cst_19 (constant S_ .f32 0x3727C5AC#32),
    unary main_cst_19 main_v90 (broadcastInDim S50000x1 ![] bcast_S_S50000x1 : (⟨S_, .f32⟩ : BufTy).Contents (Elt F) → (⟨S50000x1, .f32⟩ : BufTy).Contents (Elt F)),
    binary main_v87 main_v90 main_v91 (addf : (⟨S50000x1, .f32⟩ : BufTy).Contents (Elt F) → (⟨S50000x1, .f32⟩ : BufTy).Contents (Elt F) → (⟨S50000x1, .f32⟩ : BufTy).Contents (Elt F)),
    unary main_v91 main_v92 (Host.rsqrt : (⟨S50000x1, .f32⟩ : BufTy).Contents (Elt F) → (⟨S50000x1, .f32⟩ : BufTy).Contents (Elt F)),
    unary main_v92 main_v93 (broadcastInDim S50000x128 ![0, 1] bcast_S50000x1_S50000x128_0_1 : (⟨S50000x1, .f32⟩ : BufTy).Contents (Elt F) → (⟨S50000x128, .f32⟩ : BufTy).Contents (Elt F)),
    binary main_v89 main_v93 main_v94 (mulf : (⟨S50000x128, .f32⟩ : BufTy).Contents (Elt F) → (⟨S50000x128, .f32⟩ : BufTy).Contents (Elt F) → (⟨S50000x128, .f32⟩ : BufTy).Contents (Elt F)),
    unary main_arg10 main_v95 (broadcastInDim S1x128 ![1] bcast_S128_S1x128_1 : (⟨S128, .f32⟩ : BufTy).Contents (Elt F) → (⟨S1x128, .f32⟩ : BufTy).Contents (Elt F)),
    unary main_v95 main_v96 (broadcastInDim S50000x128 ![0, 1] bcast_S1x128_S50000x128_0_1 : (⟨S1x128, .f32⟩ : BufTy).Contents (Elt F) → (⟨S50000x128, .f32⟩ : BufTy).Contents (Elt F)),
    binary main_v94 main_v96 main_v97 (mulf : (⟨S50000x128, .f32⟩ : BufTy).Contents (Elt F) → (⟨S50000x128, .f32⟩ : BufTy).Contents (Elt F) → (⟨S50000x128, .f32⟩ : BufTy).Contents (Elt F)),
    unary main_arg11 main_v98 (broadcastInDim S1x128 ![1] bcast_S128_S1x128_1 : (⟨S128, .f32⟩ : BufTy).Contents (Elt F) → (⟨S1x128, .f32⟩ : BufTy).Contents (Elt F)),
    unary main_v98 main_v99 (broadcastInDim S50000x128 ![0, 1] bcast_S1x128_S50000x128_0_1 : (⟨S1x128, .f32⟩ : BufTy).Contents (Elt F) → (⟨S50000x128, .f32⟩ : BufTy).Contents (Elt F)),
    binary main_v97 main_v99 main_v100 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v100) (TRef.of (T := ⟨S50000x128, .f32⟩) main_call1_v0) (TRef.of (T := ⟨S50000x128, .f32⟩) main_v101) maximumf,
    binary main_v101 main_v52 main_v102 (addf : (⟨S50000x128, .f32⟩ : BufTy).Contents (Elt F) → (⟨S50000x128, .f32⟩ : BufTy).Contents (Elt F) → (⟨S50000x128, .f32⟩ : BufTy).Contents (Elt F)) ]

/-- The buffers that layer 1's operations write. -/
abbrev seg1_W : List (Ref sig .tc) :=
  [main_c_9, main_v53, main_v54, main_c_10, main_v55, main_v56, main_v57, main_v58, main_v59, main_cst_11, main_v60, main_v61, main_v62, main_cst_12, main_v63, main_cst_13, main_v64, main_v65, main_v66, main_cst_14, main_v67, main_v68, main_v69, main_v70, main_v71, main_v72, main_v73, main_v74, main_v75, main_v76, main_cst_15, main_v77, main_v78, main_cst_16, main_v79, main_v80, main_v81, main_v82, main_v83, main_cst_17, main_v84, main_v85, main_cst_18, main_v86, main_v87, main_v88, main_v89, main_cst_19, main_v90, main_v91, main_v92, main_v93, main_v94, main_v95, main_v96, main_v97, main_v98, main_v99, main_v100, main_call1_cst, main_call1_v0, main_v101, main_v102]

set_option maxRecDepth 8192 in
theorem seg1_writes : (seg1 : List (HloOp τ sig (Elt F))).Forall fun op =>
    op.writes ⊆ (seg1_W.map (Proc.devRef (τ := τ) .tc)).toFinset := by
  simp only [seg1, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)

/-- A buffer that layer 1 does not write keeps its contents through it. -/
theorem seg1_keep (W : Valuation τ sig (Elt F)) (r : Ref sig .tc) (h : r ∉ seg1_W) :
    after (seg1 (F := F)) W (Proc.devRef .tc r) = W (Proc.devRef .tc r) :=
  after_of_writes_sub seg1 W seg1_writes h

set_option maxRecDepth 8192 in
set_option maxHeartbeats 4000000 in
/-- Layer 1's output after its operations, over a valuation that holds the two columns of the edge list and the
    previous layer's output. -/
theorem seg1_v102 (W : Valuation τ sig (Elt F)) (x0 : (⟨S50000x11, .f32⟩ : BufTy).Contents (Elt F)) (x1 : (⟨S2x800000, .i32⟩ : BufTy).Contents (Elt F)) (x2 : (⟨S11x128, .f32⟩ : BufTy).Contents (Elt F)) (x3 : (⟨S128, .f32⟩ : BufTy).Contents (Elt F)) (x4 : (⟨S11x128, .f32⟩ : BufTy).Contents (Elt F)) (x5 : (⟨S128, .f32⟩ : BufTy).Contents (Elt F)) (x6 : (⟨S128, .f32⟩ : BufTy).Contents (Elt F))
    (h1 : W (Proc.devRef .tc main_v1) = val_main_v1 (F := F) x1)
    (h3 : W (Proc.devRef .tc main_v3) = val_main_v3 (F := F) x1)
    (hin : W (Proc.devRef .tc main_v52) = val_main_v52 (F := F) x0 x1 x2 x3 x4 x5 x6) :
    after (seg1 (F := F)) W (Proc.devRef .tc main_v102)
      = val_main_v102 (F := F) x0 x1 x2 x3 x4 x5 x6 (W (Proc.devRef .tc main_arg7)) (W (Proc.devRef .tc main_arg8)) (W (Proc.devRef .tc main_arg9)) (W (Proc.devRef .tc main_arg10)) (W (Proc.devRef .tc main_arg11)) := by
  unfold seg1
  after_results_simp
  rw [h1, h3, hin]
  rfl

end Cert.ReferenceIdeal.RefFold

end
-- ==== Proof.RefFold2.lean ====
/- Layer 2 of the reference's run, read back: the fold of its 63 host operations (the segment mean of layer 1's output,
   the two dot_generals and the bias, LayerNorm, the rectifier, the residual sum) over any valuation that holds the two
   columns of the edge list and layer 1's output is the stages of layer 2. -/
import proofs.«113527_j11390253269041_2_alg».proof.Proof.RefRead
import Idealize.ShloMosaic.Lib.Pipeline.Frame

noncomputable section

namespace Cert.ReferenceIdeal.RefFold

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- Layer 2's operations: the operations of @main after the one writing the previous layer's output, up to the one
    writing layer 2's output, in order. -/
def seg2 : List (HloOp τ sig (Elt F)) :=
  [ nullary main_c_20 (constantI S_ 32 0#32),
    unary main_c_20 main_v103 (broadcastInDim S800000 ![] bcast_S_S800000 : (⟨S_, .i32⟩ : BufTy).Contents (Elt F) → (⟨S800000, .i32⟩ : BufTy).Contents (Elt F)),
    binary main_v1 main_v103 main_v104 (cmpi .slt : (⟨S800000, .i32⟩ : BufTy).Contents (Elt F) → (⟨S800000, .i32⟩ : BufTy).Contents (Elt F) → (⟨S800000, .i1⟩ : BufTy).Contents (Elt F)),
    nullary main_c_21 (constantI S_ 32 50000#32),
    unary main_c_21 main_v105 (broadcastInDim S800000 ![] bcast_S_S800000 : (⟨S_, .i32⟩ : BufTy).Contents (Elt F) → (⟨S800000, .i32⟩ : BufTy).Contents (Elt F)),
    binary main_v1 main_v105 main_v106 (addi : (⟨S800000, .i32⟩ : BufTy).Contents (Elt F) → (⟨S800000, .i32⟩ : BufTy).Contents (Elt F) → (⟨S800000, .i32⟩ : BufTy).Contents (Elt F)),
    ternary main_v104 main_v106 main_v1 main_v107 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v107 main_v108 (broadcastInDim S800000x1 ![0] bcast_S800000_S800000x1_0 : (⟨S800000, .i32⟩ : BufTy).Contents (Elt F) → (⟨S800000x1, .i32⟩ : BufTy).Contents (Elt F)),
    binary main_v102 main_v108 main_v109 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_22 (constant S_ .f32 0x00000000#32),
    unary main_cst_22 main_v110 (broadcastInDim S50000x128 ![] bcast_S_S50000x128 : (⟨S_, .f32⟩ : BufTy).Contents (Elt F) → (⟨S50000x128, .f32⟩ : BufTy).Contents (Elt F)),
    unary main_v3 main_v111 (broadcastInDim S800000x1 ![0] bcast_S800000_S800000x1_0 : (⟨S800000, .i32⟩ : BufTy).Contents (Elt F) → (⟨S800000x1, .i32⟩ : BufTy).Contents (Elt F)),
    ternary main_v110 main_v111 main_v109 main_v112 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_23 (constant S_ .f32 0x3F800000#32),
    unary main_cst_23 main_v113 (broadcastInDim S800000x1 ![] bcast_S_S800000x1 : (⟨S_, .f32⟩ : BufTy).Contents (Elt F) → (⟨S800000x1, .f32⟩ : BufTy).Contents (Elt F)),
    nullary main_cst_24 (constant S_ .f32 0x00000000#32),
    unary main_cst_24 main_v114 (broadcastInDim S50000x1 ![] bcast_S_S50000x1 : (⟨S_, .f32⟩ : BufTy).Contents (Elt F) → (⟨S50000x1, .f32⟩ : BufTy).Contents (Elt F)),
    unary main_v3 main_v115 (broadcastInDim S800000x1 ![0] bcast_S800000_S800000x1_0 : (⟨S800000, .i32⟩ : BufTy).Contents (Elt F) → (⟨S800000x1, .i32⟩ : BufTy).Contents (Elt F)),
    ternary main_v114 main_v115 main_v113 main_v116 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    nullary main_cst_25 (constant S_ .f32 0x3F800000#32),
    unary main_cst_25 main_v117 (broadcastInDim S50000x1 ![] bcast_S_S50000x1 : (⟨S_, .f32⟩ : BufTy).Contents (Elt F) → (⟨S50000x1, .f32⟩ : BufTy).Contents (Elt F)),
    binary main_v116 main_v117 main_v118 (maximumf : (⟨S50000x1, .f32⟩ : BufTy).Contents (Elt F) → (⟨S50000x1, .f32⟩ : BufTy).Contents (Elt F) → (⟨S50000x1, .f32⟩ : BufTy).Contents (Elt F)),
    unary main_v118 main_v119 (broadcastInDim S50000x128 ![0, 1] bcast_S50000x1_S50000x128_0_1 : (⟨S50000x1, .f32⟩ : BufTy).Contents (Elt F) → (⟨S50000x128, .f32⟩ : BufTy).Contents (Elt F)),
    binary main_v112 main_v119 main_v120 (Host.divf : (⟨S50000x128, .f32⟩ : BufTy).Contents (Elt F) → (⟨S50000x128, .f32⟩ : BufTy).Contents (Elt F) → (⟨S50000x128, .f32⟩ : BufTy).Contents (Elt F)),
    binary main_v120 main_arg12 main_v121 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg13 main_v122 (broadcastInDim S1x128 ![1] bcast_S128_S1x128_1 : (⟨S128, .f32⟩ : BufTy).Contents (Elt F) → (⟨S1x128, .f32⟩ : BufTy).Contents (Elt F)),
    unary main_v122 main_v123 (broadcastInDim S50000x128 ![0, 1] bcast_S1x128_S50000x128_0_1 : (⟨S1x128, .f32⟩ : BufTy).Contents (Elt F) → (⟨S50000x128, .f32⟩ : BufTy).Contents (Elt F)),
    binary main_v121 main_v123 main_v124 (addf : (⟨S50000x128, .f32⟩ : BufTy).Contents (Elt F) → (⟨S50000x128, .f32⟩ : BufTy).Contents (Elt F) → (⟨S50000x128, .f32⟩ : BufTy).Contents (Elt F)),
    binary main_v102 main_arg14 main_v125 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v124 main_v125 main_v126 (addf : (⟨S50000x128, .f32⟩ : BufTy).Contents (Elt F) → (⟨S50000x128, .f32⟩ : BufTy).Contents (Elt F) → (⟨S50000x128, .f32⟩ : BufTy).Contents (Elt F)),
    nullary main_cst_26 (constant S_ .f32 0x00000000#32),
    binary main_v126 main_cst_26 main_v127 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v127 main_v128 (broadcastInDim S50000x1 ![0] bcast_S50000_S50000x1_0 : (⟨S50000, .f32⟩ : BufTy).Contents (Elt F) → (⟨S50000x1, .f32⟩ : BufTy).Contents (Elt F)),
    nullary main_cst_27 (constant S_ .f32 0x43000000#32),
    unary main_cst_27 main_v129 (broadcastInDim S50000x1 ![] bcast_S_S50000x1 : (⟨S_, .f32⟩ : BufTy).Contents (Elt F) → (⟨S50000x1, .f32⟩ : BufTy).Contents (Elt F)),
    binary main_v128 main_v129 main_v130 (Host.divf : (⟨S50000x1, .f32⟩ : BufTy).Contents (Elt F) → (⟨S50000x1, .f32⟩ : BufTy).Contents (Elt F) → (⟨S50000x1, .f32⟩ : BufTy).Contents (Elt F)),
    unary main_v130 main_v131 (broadcastInDim S50000x128 ![0, 1] bcast_S50000x1_S50000x128_0_1 : (⟨S50000x1, .f32⟩ : BufTy).Contents (Elt F) → (⟨S50000x128, .f32⟩ : BufTy).Contents (Elt F)),
    binary main_v126 main_v131 main_v132 (subf : (⟨S50000x128, .f32⟩ : BufTy).Contents (Elt F) → (⟨S50000x128, .f32⟩ : BufTy).Contents (Elt F) → (⟨S50000x128, .f32⟩ : BufTy).Contents (Elt F)),
    binary main_v132 main_v132 main_v133 (mulf : (⟨S50000x128, .f32⟩ : BufTy).Contents (Elt F) → (⟨S50000x128, .f32⟩ : BufTy).Contents (Elt F) → (⟨S50000x128, .f32⟩ : BufTy).Contents (Elt F)),
    nullary main_cst_28 (constant S_ .f32 0x00000000#32),
    binary main_v133 main_cst_28 main_v134 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v134 main_v135 (broadcastInDim S50000x1 ![0] bcast_S50000_S50000x1_0 : (⟨S50000, .f32⟩ : BufTy).Contents (Elt F) → (⟨S50000x1, .f32⟩ : BufTy).Contents (Elt F)),
    nullary main_cst_29 (constant S_ .f32 0x43000000#32),
    unary main_cst_29 main_v136 (broadcastInDim S50000x1 ![] bcast_S_S50000x1 : (⟨S_, .f32⟩ : BufTy).Contents (Elt F) → (⟨S50000x1, .f32⟩ : BufTy).Contents (Elt F)),
    binary main_v135 main_v136 main_v137 (Host.divf : (⟨S50000x1, .f32⟩ : BufTy).Contents (Elt F) → (⟨S50000x1, .f32⟩ : BufTy).Contents (Elt F) → (⟨S50000x1, .f32⟩ : BufTy).Contents (Elt F)),
    unary main_v130 main_v138 (broadcastInDim S50000x128 ![0, 1] bcast_S50000x1_S50000x128_0_1 : (⟨S50000x1, .f32⟩ : BufTy).Contents (Elt F) → (⟨S50000x128, .f32⟩ : BufTy).Contents (Elt F)),
    binary main_v126 main_v138 main_v139 (subf : (⟨S50000x128, .f32⟩ : BufTy).Contents (Elt F) → (⟨S50000x128, .f32⟩ : BufTy).Contents (Elt F) → (⟨S50000x128, .f32⟩ : BufTy).Contents (Elt F)),
    nullary main_cst_30 (constant S_ .f32 0x3727C5AC#32),
    unary main_cst_30 main_v140 (broadcastInDim S50000x1 ![] bcast_S_S50000x1 : (⟨S_, .f32⟩ : BufTy).Contents (Elt F) → (⟨S50000x1, .f32⟩ : BufTy).Contents (Elt F)),
    binary main_v137 main_v140 main_v141 (addf : (⟨S50000x1, .f32⟩ : BufTy).Contents (Elt F) → (⟨S50000x1, .f32⟩ : BufTy).Contents (Elt F) → (⟨S50000x1, .f32⟩ : BufTy).Contents (Elt F)),
    unary main_v141 main_v142 (Host.rsqrt : (⟨S50000x1, .f32⟩ : BufTy).Contents (Elt F) → (⟨S50000x1, .f32⟩ : BufTy).Contents (Elt F)),
    unary main_v142 main_v143 (broadcastInDim S50000x128 ![0, 1] bcast_S50000x1_S50000x128_0_1 : (⟨S50000x1, .f32⟩ : BufTy).Contents (Elt F) → (⟨S50000x128, .f32⟩ : BufTy).Contents (Elt F)),
    binary main_v139 main_v143 main_v144 (mulf : (⟨S50000x128, .f32⟩ : BufTy).Contents (Elt F) → (⟨S50000x128, .f32⟩ : BufTy).Contents (Elt F) → (⟨S50000x128, .f32⟩ : BufTy).Contents (Elt F)),
    unary main_arg15 main_v145 (broadcastInDim S1x128 ![1] bcast_S128_S1x128_1 : (⟨S128, .f32⟩ : BufTy).Contents (Elt F) → (⟨S1x128, .f32⟩ : BufTy).Contents (Elt F)),
    unary main_v145 main_v146 (broadcastInDim S50000x128 ![0, 1] bcast_S1x128_S50000x128_0_1 : (⟨S1x128, .f32⟩ : BufTy).Contents (Elt F) → (⟨S50000x128, .f32⟩ : BufTy).Contents (Elt F)),
    binary main_v144 main_v146 main_v147 (mulf : (⟨S50000x128, .f32⟩ : BufTy).Contents (Elt F) → (⟨S50000x128, .f32⟩ : BufTy).Contents (Elt F) → (⟨S50000x128, .f32⟩ : BufTy).Contents (Elt F)),
    unary main_arg16 main_v148 (broadcastInDim S1x128 ![1] bcast_S128_S1x128_1 : (⟨S128, .f32⟩ : BufTy).Contents (Elt F) → (⟨S1x128, .f32⟩ : BufTy).Contents (Elt F)),
    unary main_v148 main_v149 (broadcastInDim S50000x128 ![0, 1] bcast_S1x128_S50000x128_0_1 : (⟨S1x128, .f32⟩ : BufTy).Contents (Elt F) → (⟨S50000x128, .f32⟩ : BufTy).Contents (Elt F)),
    binary main_v147 main_v149 main_v150 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v150) (TRef.of (T := ⟨S50000x128, .f32⟩) main_call2_v0) (TRef.of (T := ⟨S50000x128, .f32⟩) main_v151) maximumf,
    binary main_v151 main_v102 main_v152 (addf : (⟨S50000x128, .f32⟩ : BufTy).Contents (Elt F) → (⟨S50000x128, .f32⟩ : BufTy).Contents (Elt F) → (⟨S50000x128, .f32⟩ : BufTy).Contents (Elt F)) ]

/-- The buffers that layer 2's operations write. -/
abbrev seg2_W : List (Ref sig .tc) :=
  [main_c_20, main_v103, main_v104, main_c_21, main_v105, main_v106, main_v107, main_v108, main_v109, main_cst_22, main_v110, main_v111, main_v112, main_cst_23, main_v113, main_cst_24, main_v114, main_v115, main_v116, main_cst_25, main_v117, main_v118, main_v119, main_v120, main_v121, main_v122, main_v123, main_v124, main_v125, main_v126, main_cst_26, main_v127, main_v128, main_cst_27, main_v129, main_v130, main_v131, main_v132, main_v133, main_cst_28, main_v134, main_v135, main_cst_29, main_v136, main_v137, main_v138, main_v139, main_cst_30, main_v140, main_v141, main_v142, main_v143, main_v144, main_v145, main_v146, main_v147, main_v148, main_v149, main_v150, main_call2_cst, main_call2_v0, main_v151, main_v152]

set_option maxRecDepth 8192 in
theorem seg2_writes : (seg2 : List (HloOp τ sig (Elt F))).Forall fun op =>
    op.writes ⊆ (seg2_W.map (Proc.devRef (τ := τ) .tc)).toFinset := by
  simp only [seg2, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)

/-- A buffer that layer 2 does not write keeps its contents through it. -/
theorem seg2_keep (W : Valuation τ sig (Elt F)) (r : Ref sig .tc) (h : r ∉ seg2_W) :
    after (seg2 (F := F)) W (Proc.devRef .tc r) = W (Proc.devRef .tc r) :=
  after_of_writes_sub seg2 W seg2_writes h

set_option maxRecDepth 8192 in
set_option maxHeartbeats 4000000 in
/-- Layer 2's output after its operations, over a valuation that holds the two columns of the edge list and the
    previous layer's output. -/
theorem seg2_v152 (W : Valuation τ sig (Elt F)) (x0 : (⟨S50000x11, .f32⟩ : BufTy).Contents (Elt F)) (x1 : (⟨S2x800000, .i32⟩ : BufTy).Contents (Elt F)) (x2 : (⟨S11x128, .f32⟩ : BufTy).Contents (Elt F)) (x3 : (⟨S128, .f32⟩ : BufTy).Contents (Elt F)) (x4 : (⟨S11x128, .f32⟩ : BufTy).Contents (Elt F)) (x5 : (⟨S128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S128, .f32⟩ : BufTy).Contents (Elt F))
    (h1 : W (Proc.devRef .tc main_v1) = val_main_v1 (F := F) x1)
    (h3 : W (Proc.devRef .tc main_v3) = val_main_v3 (F := F) x1)
    (hin : W (Proc.devRef .tc main_v102) = val_main_v102 (F := F) x0 x1 x2 x3 x4 x5 x6 x7 x8 x9 x10 x11) :
    after (seg2 (F := F)) W (Proc.devRef .tc main_v152)
      = val_main_v152 (F := F) x0 x1 x2 x3 x4 x5 x6 x7 x8 x9 x10 x11 (W (Proc.devRef .tc main_arg12)) (W (Proc.devRef .tc main_arg13)) (W (Proc.devRef .tc main_arg14)) (W (Proc.devRef .tc main_arg15)) (W (Proc.devRef .tc main_arg16)) := by
  unfold seg2
  after_results_simp
  rw [h1, h3, hin]
  rfl

end Cert.ReferenceIdeal.RefFold

end
-- ==== Proof.RefFold3.lean ====
/- The head of the reference's run, read back: the fold of its last twelve host operations (two dot_generals, two
   biases, a rectifier and the final reshape) over any valuation that holds layer 2's output is the head's stages. -/
import proofs.«113527_j11390253269041_2_alg».proof.Proof.RefRead
import Idealize.ShloMosaic.Lib.Pipeline.Frame

noncomputable section

namespace Cert.ReferenceIdeal.RefFold

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- The head's operations: the operations of @main after the one writing layer 2's output, in order. -/
def seg3 : List (HloOp τ sig (Elt F)) :=
  [ binary main_v152 main_arg17 main_v153 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg18 main_v154 (broadcastInDim S1x64 ![1] bcast_S64_S1x64_1 : (⟨S64, .f32⟩ : BufTy).Contents (Elt F) → (⟨S1x64, .f32⟩ : BufTy).Contents (Elt F)),
    unary main_v154 main_v155 (broadcastInDim S50000x64 ![0, 1] bcast_S1x64_S50000x64_0_1 : (⟨S1x64, .f32⟩ : BufTy).Contents (Elt F) → (⟨S50000x64, .f32⟩ : BufTy).Contents (Elt F)),
    binary main_v153 main_v155 main_v156 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x64, .f32⟩) main_call3_v0) (broadcastInDim S50000x64 ![] bcast_S_S50000x64),
    TRef.binary (TRef.of (T := ⟨S50000x64, .f32⟩) main_v156) (TRef.of (T := ⟨S50000x64, .f32⟩) main_call3_v0) (TRef.of (T := ⟨S50000x64, .f32⟩) main_v157) maximumf,
    binary main_v157 main_arg19 main_v158 ((fun l r => Host.dotGeneral dot_S50000x64_S64x1_S50000x1_1_0_0_1_n_n none l r) : (⟨S50000x64, .f32⟩ : BufTy).Contents (Elt F) → (⟨S64x1, .f32⟩ : BufTy).Contents (Elt F) → (⟨S50000x1, .f32⟩ : BufTy).Contents (Elt F)),
    unary main_arg20 main_v159 (broadcastInDim S1x1 ![1] bcast_S1_S1x1_1 : (⟨S1, .f32⟩ : BufTy).Contents (Elt F) → (⟨S1x1, .f32⟩ : BufTy).Contents (Elt F)),
    unary main_v159 main_v160 (broadcastInDim S50000x1 ![0, 1] bcast_S1x1_S50000x1_0_1 : (⟨S1x1, .f32⟩ : BufTy).Contents (Elt F) → (⟨S50000x1, .f32⟩ : BufTy).Contents (Elt F)),
    binary main_v158 main_v160 main_v161 (addf : (⟨S50000x1, .f32⟩ : BufTy).Contents (Elt F) → (⟨S50000x1, .f32⟩ : BufTy).Contents (Elt F) → (⟨S50000x1, .f32⟩ : BufTy).Contents (Elt F)),
    reshape main_v161 main_v162 rfl shapeCasts_S50000x1_S50000 ]

/-- The buffers that the head's operations write. -/
abbrev seg3_W : List (Ref sig .tc) :=
  [main_v153, main_v154, main_v155, main_v156, main_call3_cst, main_call3_v0, main_v157, main_v158, main_v159, main_v160, main_v161, main_v162]

set_option maxRecDepth 8192 in
theorem seg3_writes : (seg3 : List (HloOp τ sig (Elt F))).Forall fun op =>
    op.writes ⊆ (seg3_W.map (Proc.devRef (τ := τ) .tc)).toFinset := by
  simp only [seg3, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)

/-- A buffer that the head does not write keeps its contents through it. -/
theorem seg3_keep (W : Valuation τ sig (Elt F)) (r : Ref sig .tc) (h : r ∉ seg3_W) :
    after (seg3 (F := F)) W (Proc.devRef .tc r) = W (Proc.devRef .tc r) :=
  after_of_writes_sub seg3 W seg3_writes h

/-- The fold of the head over a valuation holding layer 2's output: the result buffer holds the last stage. -/
theorem seg3_result (W : Valuation τ sig (Elt F)) (x0 : (⟨S50000x11, .f32⟩ : BufTy).Contents (Elt F)) (x1 : (⟨S2x800000, .i32⟩ : BufTy).Contents (Elt F)) (x2 : (⟨S11x128, .f32⟩ : BufTy).Contents (Elt F)) (x3 : (⟨S128, .f32⟩ : BufTy).Contents (Elt F)) (x4 : (⟨S11x128, .f32⟩ : BufTy).Contents (Elt F)) (x5 : (⟨S128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) (x14 : (⟨S128x128, .f32⟩ : BufTy).Contents (Elt F)) (x15 : (⟨S128, .f32⟩ : BufTy).Contents (Elt F)) (x16 : (⟨S128, .f32⟩ : BufTy).Contents (Elt F))
    (h152 : W (Proc.devRef .tc main_v152) = val_main_v152 (F := F) x0 x1 x2 x3 x4 x5 x6 x7 x8 x9 x10 x11 x12 x13 x14 x15 x16) :
    after (seg3 (F := F)) W (Proc.devRef .tc main_v162)
      = val_main_v162 (F := F) x0 x1 x2 x3 x4 x5 x6 x7 x8 x9 x10 x11 x12 x13 x14 x15 x16 (W (Proc.devRef .tc main_arg17)) (W (Proc.devRef .tc main_arg18)) (W (Proc.devRef .tc main_arg19)) (W (Proc.devRef .tc main_arg20)) := by
  unfold seg3
  after_results_simp
  rw [h152]
  rfl

end Cert.ReferenceIdeal.RefFold

end
-- ==== Proof.RefFold.lean ====
/- The reference's run, read back: the fold of its 204 host operations over any valuation is the last stage of the
   reference at the valuation's argument buffers, and leaves every argument buffer as it was.  The operation list is
   the four segments (layer 0, layer 1, layer 2, the head) in a row; each segment's fold is read in its own module
   over an arbitrary valuation, and here the four are chained: each segment leaves alone the buffers the later ones
   read. -/
import proofs.«113527_j11390253269041_2_alg».proof.Proof.RefFold0
import proofs.«113527_j11390253269041_2_alg».proof.Proof.RefFold1
import proofs.«113527_j11390253269041_2_alg».proof.Proof.RefFold2
import proofs.«113527_j11390253269041_2_alg».proof.Proof.RefFold3

noncomputable section

namespace Cert.ReferenceIdeal.RefFold

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

set_option maxRecDepth 8192 in
/-- The operation list is the four segments in a row. -/
theorem ops_eq : (ops : List (HloOp τ sig (Elt F))) = seg0 ++ (seg1 ++ (seg2 ++ seg3)) := by
  unfold seg0 seg1 seg2 seg3
  rfl

/-- The fold of the whole list is the four segments' folds, one after the other. -/
theorem after_ops (W : Valuation τ sig (Elt F)) :
    after (ops (F := F)) W = after seg3 (after seg2 (after seg1 (after seg0 W))) := by
  rw [ops_eq, after_append, after_append, after_append]

/-- A buffer that no segment writes keeps its contents through the whole list. -/
theorem ops_keep (W : Valuation τ sig (Elt F)) (r : Ref sig .tc)
    (h0 : r ∉ seg0_W) (h1 : r ∉ seg1_W) (h2 : r ∉ seg2_W) (h3 : r ∉ seg3_W) :
    after (ops (F := F)) W (Proc.devRef .tc r) = W (Proc.devRef .tc r) := by
  rw [after_ops, seg3_keep _ r h3, seg2_keep _ r h2, seg1_keep _ r h1, seg0_keep _ r h0]

/-- The four folds chained, the intermediate valuations named: the result buffer holds the last stage at the first
    valuation's argument buffers. -/
theorem fold_chain (W W0 W1 W2 : Valuation τ sig (Elt F))
    (e0 : W0 = after seg0 W) (e1 : W1 = after seg1 W0) (e2 : W2 = after seg2 W1) :
    after (seg3 (F := F)) W2 (Proc.devRef .tc main_v162)
      = val_main_v162 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) := by
  have k0 : ∀ r : Ref sig .tc, r ∉ seg0_W → W0 (Proc.devRef .tc r) = W (Proc.devRef .tc r) :=
    fun r h => by rw [e0]; exact seg0_keep W r h
  have k1 : ∀ r : Ref sig .tc, r ∉ seg1_W → W1 (Proc.devRef .tc r) = W0 (Proc.devRef .tc r) :=
    fun r h => by rw [e1]; exact seg1_keep W0 r h
  have k2 : ∀ r : Ref sig .tc, r ∉ seg2_W → W2 (Proc.devRef .tc r) = W1 (Proc.devRef .tc r) :=
    fun r h => by rw [e2]; exact seg2_keep W1 r h
  -- after layer 0
  have h1 : W0 (Proc.devRef .tc main_v1) = val_main_v1 (F := F) (W (Proc.devRef .tc main_arg1)) := by rw [e0]; exact seg0_v1 W
  have h3 : W0 (Proc.devRef .tc main_v3) = val_main_v3 (F := F) (W (Proc.devRef .tc main_arg1)) := by rw [e0]; exact seg0_v3 W
  have h52 : W0 (Proc.devRef .tc main_v52) = val_main_v52 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
    rw [e0]; exact seg0_v52 W
  -- after layer 1
  have h1' : W1 (Proc.devRef .tc main_v1) = val_main_v1 (F := F) (W (Proc.devRef .tc main_arg1)) := (k1 main_v1 (by decide)).trans h1
  have h3' : W1 (Proc.devRef .tc main_v3) = val_main_v3 (F := F) (W (Proc.devRef .tc main_arg1)) := (k1 main_v3 (by decide)).trans h3
  have h102 : W1 (Proc.devRef .tc main_v102) = val_main_v102 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
    rw [e1, seg1_v102 W0 _ _ _ _ _ _ _ h1 h3 h52,
      k0 main_arg7 (by decide), k0 main_arg8 (by decide), k0 main_arg9 (by decide), k0 main_arg10 (by decide), k0 main_arg11 (by decide)]
  -- after layer 2
  have h152 : W2 (Proc.devRef .tc main_v152) = val_main_v152 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) := by
    rw [e2, seg2_v152 W1 _ _ _ _ _ _ _ _ _ _ _ _ h1' h3' h102,
      k1 main_arg12 (by decide), k0 main_arg12 (by decide),
      k1 main_arg13 (by decide), k0 main_arg13 (by decide),
      k1 main_arg14 (by decide), k0 main_arg14 (by decide),
      k1 main_arg15 (by decide), k0 main_arg15 (by decide),
      k1 main_arg16 (by decide), k0 main_arg16 (by decide)]
  -- the head
  rw [seg3_result W2 _ _ _ _ _ _ _ _ _ _ _ _ _ _ _ _ _ h152,
    k2 main_arg17 (by decide), k1 main_arg17 (by decide), k0 main_arg17 (by decide),
    k2 main_arg18 (by decide), k1 main_arg18 (by decide), k0 main_arg18 (by decide),
    k2 main_arg19 (by decide), k1 main_arg19 (by decide), k0 main_arg19 (by decide),
    k2 main_arg20 (by decide), k1 main_arg20 (by decide), k0 main_arg20 (by decide)]

/-- The fold of the reference's operations over any valuation: the result buffer holds the reference's last stage at
    the valuation's argument buffers. -/
theorem fold_result (W : Valuation τ sig (Elt Ideal)) :
    StableHlo.after (ops (F := Ideal)) W (Proc.devRef .tc main_v162)
      = val_main_v162 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) := by
  rw [after_ops]
  exact fold_chain W _ _ _ rfl rfl rfl

/-! No operation writes an argument: every argument buffer is as it was. -/
theorem fold_arg0 (W : Valuation τ sig (Elt Ideal)) :
    StableHlo.after (ops (F := Ideal)) W (Proc.devRef .tc main_arg0) = W (Proc.devRef .tc main_arg0) :=
  ops_keep W main_arg0 (by decide) (by decide) (by decide) (by decide)
theorem fold_arg1 (W : Valuation τ sig (Elt Ideal)) :
    StableHlo.after (ops (F := Ideal)) W (Proc.devRef .tc main_arg1) = W (Proc.devRef .tc main_arg1) :=
  ops_keep W main_arg1 (by decide) (by decide) (by decide) (by decide)
theorem fold_arg2 (W : Valuation τ sig (Elt Ideal)) :
    StableHlo.after (ops (F := Ideal)) W (Proc.devRef .tc main_arg2) = W (Proc.devRef .tc main_arg2) :=
  ops_keep W main_arg2 (by decide) (by decide) (by decide) (by decide)
theorem fold_arg3 (W : Valuation τ sig (Elt Ideal)) :
    StableHlo.after (ops (F := Ideal)) W (Proc.devRef .tc main_arg3) = W (Proc.devRef .tc main_arg3) :=
  ops_keep W main_arg3 (by decide) (by decide) (by decide) (by decide)
theorem fold_arg4 (W : Valuation τ sig (Elt Ideal)) :
    StableHlo.after (ops (F := Ideal)) W (Proc.devRef .tc main_arg4) = W (Proc.devRef .tc main_arg4) :=
  ops_keep W main_arg4 (by decide) (by decide) (by decide) (by decide)
theorem fold_arg5 (W : Valuation τ sig (Elt Ideal)) :
    StableHlo.after (ops (F := Ideal)) W (Proc.devRef .tc main_arg5) = W (Proc.devRef .tc main_arg5) :=
  ops_keep W main_arg5 (by decide) (by decide) (by decide) (by decide)
theorem fold_arg6 (W : Valuation τ sig (Elt Ideal)) :
    StableHlo.after (ops (F := Ideal)) W (Proc.devRef .tc main_arg6) = W (Proc.devRef .tc main_arg6) :=
  ops_keep W main_arg6 (by decide) (by decide) (by decide) (by decide)
theorem fold_arg7 (W : Valuation τ sig (Elt Ideal)) :
    StableHlo.after (ops (F := Ideal)) W (Proc.devRef .tc main_arg7) = W (Proc.devRef .tc main_arg7) :=
  ops_keep W main_arg7 (by decide) (by decide) (by decide) (by decide)
theorem fold_arg8 (W : Valuation τ sig (Elt Ideal)) :
    StableHlo.after (ops (F := Ideal)) W (Proc.devRef .tc main_arg8) = W (Proc.devRef .tc main_arg8) :=
  ops_keep W main_arg8 (by decide) (by decide) (by decide) (by decide)
theorem fold_arg9 (W : Valuation τ sig (Elt Ideal)) :
    StableHlo.after (ops (F := Ideal)) W (Proc.devRef .tc main_arg9) = W (Proc.devRef .tc main_arg9) :=
  ops_keep W main_arg9 (by decide) (by decide) (by decide) (by decide)
theorem fold_arg10 (W : Valuation τ sig (Elt Ideal)) :
    StableHlo.after (ops (F := Ideal)) W (Proc.devRef .tc main_arg10) = W (Proc.devRef .tc main_arg10) :=
  ops_keep W main_arg10 (by decide) (by decide) (by decide) (by decide)
theorem fold_arg11 (W : Valuation τ sig (Elt Ideal)) :
    StableHlo.after (ops (F := Ideal)) W (Proc.devRef .tc main_arg11) = W (Proc.devRef .tc main_arg11) :=
  ops_keep W main_arg11 (by decide) (by decide) (by decide) (by decide)
theorem fold_arg12 (W : Valuation τ sig (Elt Ideal)) :
    StableHlo.after (ops (F := Ideal)) W (Proc.devRef .tc main_arg12) = W (Proc.devRef .tc main_arg12) :=
  ops_keep W main_arg12 (by decide) (by decide) (by decide) (by decide)
theorem fold_arg13 (W : Valuation τ sig (Elt Ideal)) :
    StableHlo.after (ops (F := Ideal)) W (Proc.devRef .tc main_arg13) = W (Proc.devRef .tc main_arg13) :=
  ops_keep W main_arg13 (by decide) (by decide) (by decide) (by decide)
theorem fold_arg14 (W : Valuation τ sig (Elt Ideal)) :
    StableHlo.after (ops (F := Ideal)) W (Proc.devRef .tc main_arg14) = W (Proc.devRef .tc main_arg14) :=
  ops_keep W main_arg14 (by decide) (by decide) (by decide) (by decide)
theorem fold_arg15 (W : Valuation τ sig (Elt Ideal)) :
    StableHlo.after (ops (F := Ideal)) W (Proc.devRef .tc main_arg15) = W (Proc.devRef .tc main_arg15) :=
  ops_keep W main_arg15 (by decide) (by decide) (by decide) (by decide)
theorem fold_arg16 (W : Valuation τ sig (Elt Ideal)) :
    StableHlo.after (ops (F := Ideal)) W (Proc.devRef .tc main_arg16) = W (Proc.devRef .tc main_arg16) :=
  ops_keep W main_arg16 (by decide) (by decide) (by decide) (by decide)
theorem fold_arg17 (W : Valuation τ sig (Elt Ideal)) :
    StableHlo.after (ops (F := Ideal)) W (Proc.devRef .tc main_arg17) = W (Proc.devRef .tc main_arg17) :=
  ops_keep W main_arg17 (by decide) (by decide) (by decide) (by decide)
theorem fold_arg18 (W : Valuation τ sig (Elt Ideal)) :
    StableHlo.after (ops (F := Ideal)) W (Proc.devRef .tc main_arg18) = W (Proc.devRef .tc main_arg18) :=
  ops_keep W main_arg18 (by decide) (by decide) (by decide) (by decide)
theorem fold_arg19 (W : Valuation τ sig (Elt Ideal)) :
    StableHlo.after (ops (F := Ideal)) W (Proc.devRef .tc main_arg19) = W (Proc.devRef .tc main_arg19) :=
  ops_keep W main_arg19 (by decide) (by decide) (by decide) (by decide)
theorem fold_arg20 (W : Valuation τ sig (Elt Ideal)) :
    StableHlo.after (ops (F := Ideal)) W (Proc.devRef .tc main_arg20) = W (Proc.devRef .tc main_arg20) :=
  ops_keep W main_arg20 (by decide) (by decide) (by decide) (by decide)

/-- Every argument buffer is as it was, in one statement. -/
theorem fold_arg (W : Valuation τ sig (Elt Ideal)) :
    StableHlo.after (ops (F := Ideal)) W (Proc.devRef .tc main_arg0) = W (Proc.devRef .tc main_arg0) ∧
    StableHlo.after (ops (F := Ideal)) W (Proc.devRef .tc main_arg1) = W (Proc.devRef .tc main_arg1) ∧
    StableHlo.after (ops (F := Ideal)) W (Proc.devRef .tc main_arg2) = W (Proc.devRef .tc main_arg2) ∧
    StableHlo.after (ops (F := Ideal)) W (Proc.devRef .tc main_arg3) = W (Proc.devRef .tc main_arg3) ∧
    StableHlo.after (ops (F := Ideal)) W (Proc.devRef .tc main_arg4) = W (Proc.devRef .tc main_arg4) ∧
    StableHlo.after (ops (F := Ideal)) W (Proc.devRef .tc main_arg5) = W (Proc.devRef .tc main_arg5) ∧
    StableHlo.after (ops (F := Ideal)) W (Proc.devRef .tc main_arg6) = W (Proc.devRef .tc main_arg6) ∧
    StableHlo.after (ops (F := Ideal)) W (Proc.devRef .tc main_arg7) = W (Proc.devRef .tc main_arg7) ∧
    StableHlo.after (ops (F := Ideal)) W (Proc.devRef .tc main_arg8) = W (Proc.devRef .tc main_arg8) ∧
    StableHlo.after (ops (F := Ideal)) W (Proc.devRef .tc main_arg9) = W (Proc.devRef .tc main_arg9) ∧
    StableHlo.after (ops (F := Ideal)) W (Proc.devRef .tc main_arg10) = W (Proc.devRef .tc main_arg10) ∧
    StableHlo.after (ops (F := Ideal)) W (Proc.devRef .tc main_arg11) = W (Proc.devRef .tc main_arg11) ∧
    StableHlo.after (ops (F := Ideal)) W (Proc.devRef .tc main_arg12) = W (Proc.devRef .tc main_arg12) ∧
    StableHlo.after (ops (F := Ideal)) W (Proc.devRef .tc main_arg13) = W (Proc.devRef .tc main_arg13) ∧
    StableHlo.after (ops (F := Ideal)) W (Proc.devRef .tc main_arg14) = W (Proc.devRef .tc main_arg14) ∧
    StableHlo.after (ops (F := Ideal)) W (Proc.devRef .tc main_arg15) = W (Proc.devRef .tc main_arg15) ∧
    StableHlo.after (ops (F := Ideal)) W (Proc.devRef .tc main_arg16) = W (Proc.devRef .tc main_arg16) ∧
    StableHlo.after (ops (F := Ideal)) W (Proc.devRef .tc main_arg17) = W (Proc.devRef .tc main_arg17) ∧
    StableHlo.after (ops (F := Ideal)) W (Proc.devRef .tc main_arg18) = W (Proc.devRef .tc main_arg18) ∧
    StableHlo.after (ops (F := Ideal)) W (Proc.devRef .tc main_arg19) = W (Proc.devRef .tc main_arg19) ∧
    StableHlo.after (ops (F := Ideal)) W (Proc.devRef .tc main_arg20) = W (Proc.devRef .tc main_arg20) :=
  ⟨fold_arg0 W, fold_arg1 W, fold_arg2 W, fold_arg3 W, fold_arg4 W, fold_arg5 W, fold_arg6 W, fold_arg7 W, fold_arg8 W, fold_arg9 W, fold_arg10 W, fold_arg11 W, fold_arg12 W, fold_arg13 W, fold_arg14 W, fold_arg15 W, fold_arg16 W, fold_arg17 W, fold_arg18 W, fold_arg19 W, fold_arg20 W⟩

end Cert.ReferenceIdeal.RefFold

end
-- ==== Proof.SegR.lean ====
/-
  The neighbour aggregation of `ReferenceIdeal`, carried whole: the source column `src` (a negative index wrapped by
  +50000), the destination column `dst`, the segment sum of the rows gathered at `src` scattered-and-added at `dst`
  (for 11 and for 128 features), and the in-degree (ones scattered-and-added at `dst`).  Both programs apply these
  very operations to their operands; nothing here opens a gather or a scatter: the certificate only needs that the
  two programs' chains are the same functions.
-/
import proofs.«113527_j11390253269041_2_alg».proof.Proof.Gen.ReferenceIdeal
import proofs.«113527_j11390253269041_2_alg».proof.Proof.Spec
import Idealize.ShloMosaic.Lib.ValueIdx

noncomputable section

namespace Cert.ReferenceIdeal.Seg

open Cert.ReferenceIdeal Cert.ReferenceIdeal.Facts₀ Idealize.ShloMosaic Idealize.ShloMosaic.ValueIdx

/-- Row 0 of the edge list, as a column, a negative entry wrapped round by the node count. -/
def srcCol (ei : IVec S2x800000 32) : IVec S800000x1 32 :=
  broadcastInDim S800000x1 ![0] bcast_S800000_S800000x1_0
    (select (cmpi .slt (shapeCast S800000 (extractStridedSlice S1x800000 ![0, 0] ei slices_S2x800000_S1x800000_0_0) shapeCasts_S1x800000_S800000)
        (broadcastInDim S800000 ![] bcast_S_S800000 (constantI S_ 32 0#32)))
      (addi (shapeCast S800000 (extractStridedSlice S1x800000 ![0, 0] ei slices_S2x800000_S1x800000_0_0) shapeCasts_S1x800000_S800000)
        (broadcastInDim S800000 ![] bcast_S_S800000 (constantI S_ 32 50000#32)))
      (shapeCast S800000 (extractStridedSlice S1x800000 ![0, 0] ei slices_S2x800000_S1x800000_0_0) shapeCasts_S1x800000_S800000))

/-- Row 1 of the edge list, as a column. -/
def dstCol (ei : IVec S2x800000 32) : IVec S800000x1 32 :=
  broadcastInDim S800000x1 ![0] bcast_S800000_S800000x1_0
    (shapeCast S800000 (extractStridedSlice S1x800000 ![1, 0] ei slices_S2x800000_S1x800000_1_0) shapeCasts_S1x800000_S800000)

/-- The segment sum of 11-feature rows: gather at `src`, scatter-add at `dst` into zeros. -/
def seg11 (ei : IVec S2x800000 32) (f : FVec Ideal S50000x11 .f32) : FVec Ideal S50000x11 .f32 :=
  Host.scatterAdd scatter_S50000x11_S800000x1_S800000x11_1_0_0_1
    (broadcastInDim S50000x11 ![] bcast_S_S50000x11 (constant (F := Ideal) S_ .f32 0x00000000#32)) (dstCol ei)
    (Host.gather gather_S50000x11_S800000x1_S800000x11_1_0_n_n_0_1_111 f (srcCol ei))

/-- The segment sum of 128-feature rows. -/
def seg128 (ei : IVec S2x800000 32) (f : FVec Ideal S50000x128 .f32) : FVec Ideal S50000x128 .f32 :=
  Host.scatterAdd scatter_S50000x128_S800000x1_S800000x128_1_0_0_1
    (broadcastInDim S50000x128 ![] bcast_S_S50000x128 (constant (F := Ideal) S_ .f32 0x00000000#32)) (dstCol ei)
    (Host.gather gather_S50000x128_S800000x1_S800000x128_1_0_n_n_0_1_1128 f (srcCol ei))

/-- The in-degree: ones scatter-added at `dst` into zeros. -/
def deg (ei : IVec S2x800000 32) : FVec Ideal S50000x1 .f32 :=
  Host.scatterAdd scatter_S50000x1_S800000x1_S800000x1_1_0_0_1
    (broadcastInDim S50000x1 ![] bcast_S_S50000x1 (constant (F := Ideal) S_ .f32 0x00000000#32)) (dstCol ei)
    (broadcastInDim S800000x1 ![] bcast_S_S800000x1 (constant (F := Ideal) S_ .f32 0x3F800000#32))

/-- A two-index function as an array, and back. -/
def arr2 {n0 n1 : Nat} (f : Fin n0 → Fin n1 → EReal) : (⟨2, ![n0, n1]⟩ : Shape).Idx → EReal := fun idx => f (idx 0) (idx 1)

theorem arr2_ix2 {n0 n1 : Nat} (a : (⟨2, ![n0, n1]⟩ : Shape).Idx → EReal) : arr2 (fun i k => a (ix2 i k)) = a :=
  funext fun idx => congrArg a (eq_ix2 idx).symm

/-- The segment sums and the in-degree over plain index functions, as the specification takes them. -/
def S11 (ei : IVec S2x800000 32) (f : Fin 50000 → Fin 11 → EReal) : Fin 50000 → Fin 11 → EReal :=
  fun i k => seg11 ei (arr2 f) (ix2 i k)
def S128 (ei : IVec S2x800000 32) (f : Fin 50000 → Fin 128 → EReal) : Fin 50000 → Fin 128 → EReal :=
  fun i k => seg128 ei (arr2 f) (ix2 i k)
def cnt (ei : IVec S2x800000 32) : Fin 50000 → EReal := fun i => deg ei (ix2 i 0)

end Cert.ReferenceIdeal.Seg

end
-- ==== Proof.RefLib.lean ====
/-
  Shared definitions for reading the reference program as the specified network: the neighbour-mean maps over
  plain index functions, and the first layer's neighbour mean read at an index.
-/
import proofs.«113527_j11390253269041_2_alg».proof.Proof.RefRead
import proofs.«113527_j11390253269041_2_alg».proof.Proof.SegR
import proofs.«113527_j11390253269041_2_alg».proof.Proof.Spec

import Idealize.ShloMosaic.Lib.ValueIdx
import Idealize.ShloMosaic.PureOps.Ideal
import Idealize.ShloMosaic.PureOps.Ideal.Laws

noncomputable section

open scoped BigOperators

namespace Cert.ReferenceIdeal.RefNet

open Cert.ReferenceIdeal Cert.ReferenceIdeal.ReadP Cert.ReferenceIdeal.Seg Cert.Sage Idealize.ShloMosaic Idealize.ShloMosaic.ValueIdx

/-- The neighbour mean of 11-feature rows: the segment sum over the divisor. -/
def A11 (ei : IVec S2x800000 32) (f : Fin 50000 → Fin 11 → EReal) : Fin 50000 → Fin 11 → EReal := aggDiv (Seg.S11 ei f) (Seg.cnt ei)
/-- The neighbour mean of 128-feature rows. -/
def A128 (ei : IVec S2x800000 32) (f : Fin 50000 → Fin 128 → EReal) : Fin 50000 → Fin 128 → EReal := aggDiv (Seg.S128 ei f) (Seg.cnt ei)

/-- The gather / scatter-add chain of the first layer is the segment sum of the input rows. -/
theorem v13_eq (x0 : (⟨S50000x11, .f32⟩ : BufTy).Contents (Elt Ideal)) (x1 : (⟨S2x800000, .i32⟩ : BufTy).Contents (Elt Ideal)) :
    val_main_v13 (F := Ideal) x0 x1 = seg11 x1 x0 := rfl

/-- The scatter-add of ones is the in-degree. -/
theorem v17_eq (x1 : (⟨S2x800000, .i32⟩ : BufTy).Contents (Elt Ideal)) :
    val_main_v17 (F := Ideal) x1 = deg x1 := rfl

/-- The first layer's quotient stage, read at row `i` and feature `k`, is the neighbour mean of the input rows. -/
theorem v21_eq (x0 : (⟨S50000x11, .f32⟩ : BufTy).Contents (Elt Ideal)) (x1 : (⟨S2x800000, .i32⟩ : BufTy).Contents (Elt Ideal))
    (i : Fin 50000) (k : Fin 11) :
    val_main_v21 (F := Ideal) x0 x1 (ix2 i k) = A11 x1 (fun i k => x0 (ix2 i k)) i k := by
  have e20 : idx_main_v20 (ix2 i k) = ix2 i 0 := funext fun a => Fin.ext (by match a with | ⟨0, _⟩ => rfl | ⟨1, _⟩ => rfl)
  rw [val_main_v21_apply, val_main_v20_apply, e20, val_main_v19_apply, val_main_v18_apply, val_main_cst_3_apply, v13_eq, v17_eq]
  unfold A11 aggDiv Seg.S11 Seg.cnt cmax cone
  rw [arr2_ix2]
  rfl

end Cert.ReferenceIdeal.RefNet

end
-- ==== Proof.RefL0.lean ====
/-
  The first layer of the reference program, read index by index, is the specified layer: the two products and the
  bias give `lin`, the two row reductions give the mean and the variance, and the remaining element-wise stages
  give `lnrelu`.
-/
import proofs.«113527_j11390253269041_2_alg».proof.Proof.RefRead
import proofs.«113527_j11390253269041_2_alg».proof.Proof.SegR
import proofs.«113527_j11390253269041_2_alg».proof.Proof.Spec
import proofs.«113527_j11390253269041_2_alg».proof.Proof.RefLib
import Idealize.ShloMosaic.Lib.ValueIdx
import Idealize.ShloMosaic.PureOps.Ideal
import Idealize.ShloMosaic.PureOps.Ideal.Laws

noncomputable section

open scoped BigOperators

namespace Cert.ReferenceIdeal.RefNet

open Cert.ReferenceIdeal Cert.ReferenceIdeal.ReadP Cert.ReferenceIdeal.Seg Cert.Sage Idealize.ShloMosaic Idealize.ShloMosaic.ValueIdx

/-- The two products and the bias, read at row `i` and lane `j`. -/
theorem h0_eq (x0 : (⟨S50000x11, .f32⟩ : BufTy).Contents (Elt Ideal)) (x1 : (⟨S2x800000, .i32⟩ : BufTy).Contents (Elt Ideal)) (x2 : (⟨S11x128, .f32⟩ : BufTy).Contents (Elt Ideal)) (x3 : (⟨S128, .f32⟩ : BufTy).Contents (Elt Ideal)) (x4 : (⟨S11x128, .f32⟩ : BufTy).Contents (Elt Ideal)) (i : Fin 50000) (j : Fin 128) :
    val_main_v27 (F := Ideal) x0 x1 x2 x3 x4 (ix2 i j) = lin (A11 x1 (fun i k => x0 (ix2 i k))) (fun i k => x0 (ix2 i k)) (fun k j => x2 (ix2 k j)) (fun k j => x4 (ix2 k j)) (fun j => x3 (ix1 j)) i j := by
  have el1 : ∀ k : Fin 11, lidx_main_v22 (ix2 i j) k = ix2 i k := fun k => funext fun a => Fin.ext (by match a with | ⟨0, _⟩ => rfl | ⟨1, _⟩ => rfl)
  have er1 : ∀ k : Fin 11, ridx_main_v22 (ix2 i j) k = ix2 k j := fun k => funext fun a => Fin.ext (by match a with | ⟨0, _⟩ => rfl | ⟨1, _⟩ => rfl)
  have el2 : ∀ k : Fin 11, lidx_main_v26 (ix2 i j) k = ix2 i k := fun k => funext fun a => Fin.ext (by match a with | ⟨0, _⟩ => rfl | ⟨1, _⟩ => rfl)
  have er2 : ∀ k : Fin 11, ridx_main_v26 (ix2 i j) k = ix2 k j := fun k => funext fun a => Fin.ext (by match a with | ⟨0, _⟩ => rfl | ⟨1, _⟩ => rfl)
  have eb : idx_main_v23 (idx_main_v24 (ix2 i j)) = ix1 j := funext fun a => Fin.ext (by match a with | ⟨0, _⟩ => rfl)
  unfold lin
  rw [val_main_v27_apply, val_main_v25_apply, val_main_v22_apply, val_main_v26_apply, val_main_v24_apply, val_main_v23_apply, eb]
  simp only [el1, er1, el2, er2, v21_eq, Ideal.addf_def]

/-- The row mean stage is the mean of the row of `h`. -/
theorem mu0_eq (x0 : (⟨S50000x11, .f32⟩ : BufTy).Contents (Elt Ideal)) (x1 : (⟨S2x800000, .i32⟩ : BufTy).Contents (Elt Ideal)) (x2 : (⟨S11x128, .f32⟩ : BufTy).Contents (Elt Ideal)) (x3 : (⟨S128, .f32⟩ : BufTy).Contents (Elt Ideal)) (x4 : (⟨S11x128, .f32⟩ : BufTy).Contents (Elt Ideal)) (i : Fin 50000) :
    val_main_v31 (F := Ideal) x0 x1 x2 x3 x4 (ix2 i 0) = mean (fun j => val_main_v27 (F := Ideal) x0 x1 x2 x3 x4 (ix2 i j)) := by
  have e29 : idx_main_v29 (ix2 i 0) = ix1 i := funext fun a => Fin.ext (by match a with | ⟨0, _⟩ => rfl)
  have e28 : ∀ k : Fin 128, idx_main_v28 (ix1 i) k = ix2 i k := fun k => funext fun a => Fin.ext (by match a with | ⟨0, _⟩ => rfl | ⟨1, _⟩ => rfl)
  unfold mean c128
  rw [val_main_v31_apply, val_main_v29_apply, e29, val_main_v28_apply, val_main_v30_apply, val_main_cst_5_apply, val_main_cst_4_apply]
  simp only [e28, Ideal.hostDivf_def, Ideal.ofBits_def, Ideal.ofBits_zero_f32, zero_add]

/-- The variance stage is the mean of the squared deviations of the row of `h`. -/
theorem var0_eq (x0 : (⟨S50000x11, .f32⟩ : BufTy).Contents (Elt Ideal)) (x1 : (⟨S2x800000, .i32⟩ : BufTy).Contents (Elt Ideal)) (x2 : (⟨S11x128, .f32⟩ : BufTy).Contents (Elt Ideal)) (x3 : (⟨S128, .f32⟩ : BufTy).Contents (Elt Ideal)) (x4 : (⟨S11x128, .f32⟩ : BufTy).Contents (Elt Ideal)) (i : Fin 50000) :
    val_main_v38 (F := Ideal) x0 x1 x2 x3 x4 (ix2 i 0) = mean (fun l => (val_main_v27 (F := Ideal) x0 x1 x2 x3 x4 (ix2 i l) - mean (fun j => val_main_v27 (F := Ideal) x0 x1 x2 x3 x4 (ix2 i j))) * (val_main_v27 (F := Ideal) x0 x1 x2 x3 x4 (ix2 i l) - mean (fun j => val_main_v27 (F := Ideal) x0 x1 x2 x3 x4 (ix2 i j)))) := by
  have e36 : idx_main_v36 (ix2 i 0) = ix1 i := funext fun a => Fin.ext (by match a with | ⟨0, _⟩ => rfl)
  have e35 : ∀ k : Fin 128, idx_main_v35 (ix1 i) k = ix2 i k := fun k => funext fun a => Fin.ext (by match a with | ⟨0, _⟩ => rfl | ⟨1, _⟩ => rfl)
  have e32 : ∀ k : Fin 128, idx_main_v32 (ix2 i k) = ix2 i 0 := fun k => funext fun a => Fin.ext (by match a with | ⟨0, _⟩ => rfl | ⟨1, _⟩ => rfl)
  rw [val_main_v38_apply, val_main_v36_apply, e36, val_main_v35_apply, val_main_v37_apply, val_main_cst_7_apply, val_main_cst_6_apply]
  have hk : ∀ k : Fin 128, val_main_v34 (F := Ideal) x0 x1 x2 x3 x4 (idx_main_v35 (ix1 i) k) = (val_main_v27 (F := Ideal) x0 x1 x2 x3 x4 (ix2 i k) - mean (fun j => val_main_v27 (F := Ideal) x0 x1 x2 x3 x4 (ix2 i j))) * (val_main_v27 (F := Ideal) x0 x1 x2 x3 x4 (ix2 i k) - mean (fun j => val_main_v27 (F := Ideal) x0 x1 x2 x3 x4 (ix2 i j))) := by
    intro k
    rw [e35 k, val_main_v34_apply, val_main_v33_apply, val_main_v32_apply, e32 k, mu0_eq]
    rfl
  rw [Finset.sum_congr rfl (fun k _ => hk k)]
  simp only [Ideal.hostDivf_def, Ideal.ofBits_def, Ideal.ofBits_zero_f32, zero_add]
  rfl

/-- LayerNorm, scale, shift and the positive part, read at row `i` and lane `j`. -/
theorem ln0_eq (x0 : (⟨S50000x11, .f32⟩ : BufTy).Contents (Elt Ideal)) (x1 : (⟨S2x800000, .i32⟩ : BufTy).Contents (Elt Ideal)) (x2 : (⟨S11x128, .f32⟩ : BufTy).Contents (Elt Ideal)) (x3 : (⟨S128, .f32⟩ : BufTy).Contents (Elt Ideal)) (x4 : (⟨S11x128, .f32⟩ : BufTy).Contents (Elt Ideal)) (x5 : (⟨S128, .f32⟩ : BufTy).Contents (Elt Ideal)) (x6 : (⟨S128, .f32⟩ : BufTy).Contents (Elt Ideal)) (i : Fin 50000) (j : Fin 128) :
    val_main_v52 (F := Ideal) x0 x1 x2 x3 x4 x5 x6 (ix2 i j) = lnrelu (fun j => val_main_v27 (F := Ideal) x0 x1 x2 x3 x4 (ix2 i j)) (fun j => x5 (ix1 j)) (fun j => x6 (ix1 j)) j := by
  have e39 : idx_main_v39 (ix2 i j) = ix2 i 0 := funext fun a => Fin.ext (by match a with | ⟨0, _⟩ => rfl | ⟨1, _⟩ => rfl)
  have e44 : idx_main_v44 (ix2 i j) = ix2 i 0 := funext fun a => Fin.ext (by match a with | ⟨0, _⟩ => rfl | ⟨1, _⟩ => rfl)
  have e47 : idx_main_v46 (idx_main_v47 (ix2 i j)) = ix1 j := funext fun a => Fin.ext (by match a with | ⟨0, _⟩ => rfl)
  have e50 : idx_main_v49 (idx_main_v50 (ix2 i j)) = ix1 j := funext fun a => Fin.ext (by match a with | ⟨0, _⟩ => rfl)
  rw [val_main_v52_apply, val_main_v51_apply, val_main_v48_apply, val_main_v45_apply, val_main_v40_apply, val_main_v39_apply, e39, val_main_v44_apply, e44, val_main_v43_apply, val_main_v42_apply, val_main_v41_apply, val_main_cst_8_apply,
    val_main_v47_apply, val_main_v46_apply, e47, val_main_v50_apply, val_main_v49_apply, e50, val_main_call0_v0_apply, val_main_call0_cst_apply, mu0_eq, var0_eq]
  simp only [Ideal.addf_def, Ideal.mulf_def, Ideal.subf_def, Ideal.maximumf_def, Ideal.hostUnary_rsqrt_def, Ideal.ofBits_def, Ideal.ofBits_zero_f32]
  rfl

/-- The first layer of the reference is the specified layer on the input rows and their neighbour means. -/
theorem layer0_eq (x0 : (⟨S50000x11, .f32⟩ : BufTy).Contents (Elt Ideal)) (x1 : (⟨S2x800000, .i32⟩ : BufTy).Contents (Elt Ideal)) (x2 : (⟨S11x128, .f32⟩ : BufTy).Contents (Elt Ideal)) (x3 : (⟨S128, .f32⟩ : BufTy).Contents (Elt Ideal)) (x4 : (⟨S11x128, .f32⟩ : BufTy).Contents (Elt Ideal)) (x5 : (⟨S128, .f32⟩ : BufTy).Contents (Elt Ideal)) (x6 : (⟨S128, .f32⟩ : BufTy).Contents (Elt Ideal)) :
    (fun (i : Fin 50000) (j : Fin 128) => val_main_v52 (F := Ideal) x0 x1 x2 x3 x4 x5 x6 (ix2 i j))
      = layer0 (A11 x1 (fun i k => x0 (ix2 i k))) (fun i k => x0 (ix2 i k)) (fun k j => x2 (ix2 k j)) (fun k j => x4 (ix2 k j))
          (fun j => x3 (ix1 j)) (fun j => x5 (ix1 j)) (fun j => x6 (ix1 j)) := by
  funext i j
  rw [ln0_eq]
  unfold layer0
  exact congrArg (fun h => lnrelu h (fun j => x5 (ix1 j)) (fun j => x6 (ix1 j)) j) (funext fun l => h0_eq x0 x1 x2 x3 x4 i l)

end Cert.ReferenceIdeal.RefNet

end
-- ==== Proof.RefL1.lean ====
/-
  Layer 1 of the reference program, read index by index, is the specified residual layer on the previous layer's
  rows: the gather / scatter-add chain and the in-degree give the neighbour mean, the two products and the bias give
  `lin`, the two row reductions give the mean and the variance, the element-wise stages give `lnrelu`, and the last
  stage adds the previous layer's row.
-/
import proofs.«113527_j11390253269041_2_alg».proof.Proof.RefRead
import proofs.«113527_j11390253269041_2_alg».proof.Proof.SegR
import proofs.«113527_j11390253269041_2_alg».proof.Proof.Spec
import proofs.«113527_j11390253269041_2_alg».proof.Proof.RefLib
import Idealize.ShloMosaic.Lib.ValueIdx
import Idealize.ShloMosaic.PureOps.Ideal
import Idealize.ShloMosaic.PureOps.Ideal.Laws

noncomputable section

open scoped BigOperators

namespace Cert.ReferenceIdeal.RefNet

open Cert.ReferenceIdeal Cert.ReferenceIdeal.ReadP Cert.ReferenceIdeal.Seg Cert.Sage Idealize.ShloMosaic Idealize.ShloMosaic.ValueIdx

/-- The gather / scatter-add chain of this layer is the segment sum of the previous layer's rows. -/
theorem seg1_eq (x0 : (⟨S50000x11, .f32⟩ : BufTy).Contents (Elt Ideal)) (x1 : (⟨S2x800000, .i32⟩ : BufTy).Contents (Elt Ideal)) (x2 : (⟨S11x128, .f32⟩ : BufTy).Contents (Elt Ideal)) (x3 : (⟨S128, .f32⟩ : BufTy).Contents (Elt Ideal)) (x4 : (⟨S11x128, .f32⟩ : BufTy).Contents (Elt Ideal)) (x5 : (⟨S128, .f32⟩ : BufTy).Contents (Elt Ideal)) (x6 : (⟨S128, .f32⟩ : BufTy).Contents (Elt Ideal)) :
    val_main_v62 (F := Ideal) x0 x1 x2 x3 x4 x5 x6 = seg128 x1 (val_main_v52 (F := Ideal) x0 x1 x2 x3 x4 x5 x6) := rfl

/-- The scatter-add of ones is the in-degree. -/
theorem deg1_eq (x1 : (⟨S2x800000, .i32⟩ : BufTy).Contents (Elt Ideal)) :
    val_main_v66 (F := Ideal) x1 = deg x1 := rfl

/-- The quotient stage, read at row `i` and feature `k`, is the neighbour mean of the previous layer's rows. -/
theorem agg1_eq (x0 : (⟨S50000x11, .f32⟩ : BufTy).Contents (Elt Ideal)) (x1 : (⟨S2x800000, .i32⟩ : BufTy).Contents (Elt Ideal)) (x2 : (⟨S11x128, .f32⟩ : BufTy).Contents (Elt Ideal)) (x3 : (⟨S128, .f32⟩ : BufTy).Contents (Elt Ideal)) (x4 : (⟨S11x128, .f32⟩ : BufTy).Contents (Elt Ideal)) (x5 : (⟨S128, .f32⟩ : BufTy).Contents (Elt Ideal)) (x6 : (⟨S128, .f32⟩ : BufTy).Contents (Elt Ideal)) (i : Fin 50000) (k : Fin 128) :
    val_main_v70 (F := Ideal) x0 x1 x2 x3 x4 x5 x6 (ix2 i k) = (A128 x1 (fun i k => val_main_v52 (F := Ideal) x0 x1 x2 x3 x4 x5 x6 (ix2 i k))) i k := by
  have e20 : idx_main_v69 (ix2 i k) = ix2 i 0 := funext fun a => Fin.ext (by match a with | ⟨0, _⟩ => rfl | ⟨1, _⟩ => rfl)
  rw [val_main_v70_apply, val_main_v69_apply, e20, val_main_v68_apply, val_main_v67_apply, val_main_cst_14_apply, seg1_eq, deg1_eq]
  unfold A128 aggDiv Seg.S128 Seg.cnt cmax cone
  rw [arr2_ix2]
  rfl

/-- The two products and the bias, read at row `i` and lane `j`. -/
theorem h1_eq (x0 : (⟨S50000x11, .f32⟩ : BufTy).Contents (Elt Ideal)) (x1 : (⟨S2x800000, .i32⟩ : BufTy).Contents (Elt Ideal)) (x2 : (⟨S11x128, .f32⟩ : BufTy).Contents (Elt Ideal)) (x3 : (⟨S128, .f32⟩ : BufTy).Contents (Elt Ideal)) (x4 : (⟨S11x128, .f32⟩ : BufTy).Contents (Elt Ideal)) (x5 : (⟨S128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (i : Fin 50000) (j : Fin 128) :
    val_main_v76 (F := Ideal) x0 x1 x2 x3 x4 x5 x6 x7 x8 x9 (ix2 i j) = lin (A128 x1 (fun i k => val_main_v52 (F := Ideal) x0 x1 x2 x3 x4 x5 x6 (ix2 i k))) (fun i k => val_main_v52 (F := Ideal) x0 x1 x2 x3 x4 x5 x6 (ix2 i k)) (fun k j => x7 (ix2 k j)) (fun k j => x9 (ix2 k j)) (fun j => x8 (ix1 j)) i j := by
  have el1 : ∀ k : Fin 128, lidx_main_v71 (ix2 i j) k = ix2 i k := fun k => funext fun a => Fin.ext (by match a with | ⟨0, _⟩ => rfl | ⟨1, _⟩ => rfl)
  have er1 : ∀ k : Fin 128, ridx_main_v71 (ix2 i j) k = ix2 k j := fun k => funext fun a => Fin.ext (by match a with | ⟨0, _⟩ => rfl | ⟨1, _⟩ => rfl)
  have el2 : ∀ k : Fin 128, lidx_main_v75 (ix2 i j) k = ix2 i k := fun k => funext fun a => Fin.ext (by match a with | ⟨0, _⟩ => rfl | ⟨1, _⟩ => rfl)
  have er2 : ∀ k : Fin 128, ridx_main_v75 (ix2 i j) k = ix2 k j := fun k => funext fun a => Fin.ext (by match a with | ⟨0, _⟩ => rfl | ⟨1, _⟩ => rfl)
  have eb : idx_main_v72 (idx_main_v73 (ix2 i j)) = ix1 j := funext fun a => Fin.ext (by match a with | ⟨0, _⟩ => rfl)
  unfold lin
  rw [val_main_v76_apply, val_main_v74_apply, val_main_v71_apply, val_main_v75_apply, val_main_v73_apply, val_main_v72_apply, eb]
  simp only [el1, er1, el2, er2, agg1_eq, Ideal.addf_def]

/-- The row mean stage is the mean of the row of `h`. -/
theorem mu1_eq (x0 : (⟨S50000x11, .f32⟩ : BufTy).Contents (Elt Ideal)) (x1 : (⟨S2x800000, .i32⟩ : BufTy).Contents (Elt Ideal)) (x2 : (⟨S11x128, .f32⟩ : BufTy).Contents (Elt Ideal)) (x3 : (⟨S128, .f32⟩ : BufTy).Contents (Elt Ideal)) (x4 : (⟨S11x128, .f32⟩ : BufTy).Contents (Elt Ideal)) (x5 : (⟨S128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (i : Fin 50000) :
    val_main_v80 (F := Ideal) x0 x1 x2 x3 x4 x5 x6 x7 x8 x9 (ix2 i 0) = mean (fun j => val_main_v76 (F := Ideal) x0 x1 x2 x3 x4 x5 x6 x7 x8 x9 (ix2 i j)) := by
  have e29 : idx_main_v78 (ix2 i 0) = ix1 i := funext fun a => Fin.ext (by match a with | ⟨0, _⟩ => rfl)
  have e28 : ∀ k : Fin 128, idx_main_v77 (ix1 i) k = ix2 i k := fun k => funext fun a => Fin.ext (by match a with | ⟨0, _⟩ => rfl | ⟨1, _⟩ => rfl)
  unfold mean c128
  rw [val_main_v80_apply, val_main_v78_apply, e29, val_main_v77_apply, val_main_v79_apply, val_main_cst_16_apply, val_main_cst_15_apply]
  simp only [e28, Ideal.hostDivf_def, Ideal.ofBits_def, Ideal.ofBits_zero_f32, zero_add]

/-- The variance stage is the mean of the squared deviations of the row of `h`. -/
theorem var1_eq (x0 : (⟨S50000x11, .f32⟩ : BufTy).Contents (Elt Ideal)) (x1 : (⟨S2x800000, .i32⟩ : BufTy).Contents (Elt Ideal)) (x2 : (⟨S11x128, .f32⟩ : BufTy).Contents (Elt Ideal)) (x3 : (⟨S128, .f32⟩ : BufTy).Contents (Elt Ideal)) (x4 : (⟨S11x128, .f32⟩ : BufTy).Contents (Elt Ideal)) (x5 : (⟨S128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (i : Fin 50000) :
    val_main_v87 (F := Ideal) x0 x1 x2 x3 x4 x5 x6 x7 x8 x9 (ix2 i 0) = mean (fun l => (val_main_v76 (F := Ideal) x0 x1 x2 x3 x4 x5 x6 x7 x8 x9 (ix2 i l) - mean (fun j => val_main_v76 (F := Ideal) x0 x1 x2 x3 x4 x5 x6 x7 x8 x9 (ix2 i j))) * (val_main_v76 (F := Ideal) x0 x1 x2 x3 x4 x5 x6 x7 x8 x9 (ix2 i l) - mean (fun j => val_main_v76 (F := Ideal) x0 x1 x2 x3 x4 x5 x6 x7 x8 x9 (ix2 i j)))) := by
  have e36 : idx_main_v85 (ix2 i 0) = ix1 i := funext fun a => Fin.ext (by match a with | ⟨0, _⟩ => rfl)
  have e35 : ∀ k : Fin 128, idx_main_v84 (ix1 i) k = ix2 i k := fun k => funext fun a => Fin.ext (by match a with | ⟨0, _⟩ => rfl | ⟨1, _⟩ => rfl)
  have e32 : ∀ k : Fin 128, idx_main_v81 (ix2 i k) = ix2 i 0 := fun k => funext fun a => Fin.ext (by match a with | ⟨0, _⟩ => rfl | ⟨1, _⟩ => rfl)
  rw [val_main_v87_apply, val_main_v85_apply, e36, val_main_v84_apply, val_main_v86_apply, val_main_cst_18_apply, val_main_cst_17_apply]
  have hk : ∀ k : Fin 128, val_main_v83 (F := Ideal) x0 x1 x2 x3 x4 x5 x6 x7 x8 x9 (idx_main_v84 (ix1 i) k) = (val_main_v76 (F := Ideal) x0 x1 x2 x3 x4 x5 x6 x7 x8 x9 (ix2 i k) - mean (fun j => val_main_v76 (F := Ideal) x0 x1 x2 x3 x4 x5 x6 x7 x8 x9 (ix2 i j))) * (val_main_v76 (F := Ideal) x0 x1 x2 x3 x4 x5 x6 x7 x8 x9 (ix2 i k) - mean (fun j => val_main_v76 (F := Ideal) x0 x1 x2 x3 x4 x5 x6 x7 x8 x9 (ix2 i j))) := by
    intro k
    rw [e35 k, val_main_v83_apply, val_main_v82_apply, val_main_v81_apply, e32 k, mu1_eq]
    rfl
  rw [Finset.sum_congr rfl (fun k _ => hk k)]
  simp only [Ideal.hostDivf_def, Ideal.ofBits_def, Ideal.ofBits_zero_f32, zero_add]
  rfl

/-- LayerNorm, scale, shift and the positive part, read at row `i` and lane `j`. -/
theorem ln1_eq (x0 : (⟨S50000x11, .f32⟩ : BufTy).Contents (Elt Ideal)) (x1 : (⟨S2x800000, .i32⟩ : BufTy).Contents (Elt Ideal)) (x2 : (⟨S11x128, .f32⟩ : BufTy).Contents (Elt Ideal)) (x3 : (⟨S128, .f32⟩ : BufTy).Contents (Elt Ideal)) (x4 : (⟨S11x128, .f32⟩ : BufTy).Contents (Elt Ideal)) (x5 : (⟨S128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128, .f32⟩ : BufTy).Contents (Elt Ideal)) (i : Fin 50000) (j : Fin 128) :
    val_main_v101 (F := Ideal) x0 x1 x2 x3 x4 x5 x6 x7 x8 x9 x10 x11 (ix2 i j) = lnrelu (fun j => val_main_v76 (F := Ideal) x0 x1 x2 x3 x4 x5 x6 x7 x8 x9 (ix2 i j)) (fun j => x10 (ix1 j)) (fun j => x11 (ix1 j)) j := by
  have e39 : idx_main_v88 (ix2 i j) = ix2 i 0 := funext fun a => Fin.ext (by match a with | ⟨0, _⟩ => rfl | ⟨1, _⟩ => rfl)
  have e44 : idx_main_v93 (ix2 i j) = ix2 i 0 := funext fun a => Fin.ext (by match a with | ⟨0, _⟩ => rfl | ⟨1, _⟩ => rfl)
  have e47 : idx_main_v95 (idx_main_v96 (ix2 i j)) = ix1 j := funext fun a => Fin.ext (by match a with | ⟨0, _⟩ => rfl)
  have e50 : idx_main_v98 (idx_main_v99 (ix2 i j)) = ix1 j := funext fun a => Fin.ext (by match a with | ⟨0, _⟩ => rfl)
  rw [val_main_v101_apply, val_main_v100_apply, val_main_v97_apply, val_main_v94_apply, val_main_v89_apply, val_main_v88_apply, e39, val_main_v93_apply, e44, val_main_v92_apply, val_main_v91_apply, val_main_v90_apply, val_main_cst_19_apply,
    val_main_v96_apply, val_main_v95_apply, e47, val_main_v99_apply, val_main_v98_apply, e50, val_main_call1_v0_apply, val_main_call1_cst_apply, mu1_eq, var1_eq]
  simp only [Ideal.addf_def, Ideal.mulf_def, Ideal.subf_def, Ideal.maximumf_def, Ideal.hostUnary_rsqrt_def, Ideal.ofBits_def, Ideal.ofBits_zero_f32]
  rfl

/-- This layer of the reference is the specified residual layer on the previous layer's rows and their neighbour means. -/
theorem layer1_eq (x0 : (⟨S50000x11, .f32⟩ : BufTy).Contents (Elt Ideal)) (x1 : (⟨S2x800000, .i32⟩ : BufTy).Contents (Elt Ideal)) (x2 : (⟨S11x128, .f32⟩ : BufTy).Contents (Elt Ideal)) (x3 : (⟨S128, .f32⟩ : BufTy).Contents (Elt Ideal)) (x4 : (⟨S11x128, .f32⟩ : BufTy).Contents (Elt Ideal)) (x5 : (⟨S128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128, .f32⟩ : BufTy).Contents (Elt Ideal)) :
    (fun (i : Fin 50000) (j : Fin 128) => val_main_v102 (F := Ideal) x0 x1 x2 x3 x4 x5 x6 x7 x8 x9 x10 x11 (ix2 i j))
      = layerR (A128 x1 (fun i k => val_main_v52 (F := Ideal) x0 x1 x2 x3 x4 x5 x6 (ix2 i k))) (fun i k => val_main_v52 (F := Ideal) x0 x1 x2 x3 x4 x5 x6 (ix2 i k))
          (fun k j => x7 (ix2 k j)) (fun k j => x9 (ix2 k j)) (fun j => x8 (ix1 j)) (fun j => x10 (ix1 j)) (fun j => x11 (ix1 j)) := by
  funext i j
  rw [val_main_v102_apply, ln1_eq, Ideal.addf_def]
  unfold layerR
  exact congrArg (fun h => lnrelu h (fun j => x10 (ix1 j)) (fun j => x11 (ix1 j)) j + val_main_v52 (F := Ideal) x0 x1 x2 x3 x4 x5 x6 (ix2 i j)) (funext fun l => h1_eq x0 x1 x2 x3 x4 x5 x6 x7 x8 x9 i l)

end Cert.ReferenceIdeal.RefNet

end
-- ==== Proof.RefL2.lean ====
/-
  Layer 2 of the reference program, read index by index, is the specified residual layer on the previous layer's
  rows: the gather / scatter-add chain and the in-degree give the neighbour mean, the two products and the bias give
  `lin`, the two row reductions give the mean and the variance, the element-wise stages give `lnrelu`, and the last
  stage adds the previous layer's row.
-/
import proofs.«113527_j11390253269041_2_alg».proof.Proof.RefRead
import proofs.«113527_j11390253269041_2_alg».proof.Proof.SegR
import proofs.«113527_j11390253269041_2_alg».proof.Proof.Spec
import proofs.«113527_j11390253269041_2_alg».proof.Proof.RefLib
import Idealize.ShloMosaic.Lib.ValueIdx
import Idealize.ShloMosaic.PureOps.Ideal
import Idealize.ShloMosaic.PureOps.Ideal.Laws

noncomputable section

open scoped BigOperators

namespace Cert.ReferenceIdeal.RefNet

open Cert.ReferenceIdeal Cert.ReferenceIdeal.ReadP Cert.ReferenceIdeal.Seg Cert.Sage Idealize.ShloMosaic Idealize.ShloMosaic.ValueIdx

/-- The gather / scatter-add chain of this layer is the segment sum of the previous layer's rows. -/
theorem seg2_eq (x0 : (⟨S50000x11, .f32⟩ : BufTy).Contents (Elt Ideal)) (x1 : (⟨S2x800000, .i32⟩ : BufTy).Contents (Elt Ideal)) (x2 : (⟨S11x128, .f32⟩ : BufTy).Contents (Elt Ideal)) (x3 : (⟨S128, .f32⟩ : BufTy).Contents (Elt Ideal)) (x4 : (⟨S11x128, .f32⟩ : BufTy).Contents (Elt Ideal)) (x5 : (⟨S128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128, .f32⟩ : BufTy).Contents (Elt Ideal)) :
    val_main_v112 (F := Ideal) x0 x1 x2 x3 x4 x5 x6 x7 x8 x9 x10 x11 = seg128 x1 (val_main_v102 (F := Ideal) x0 x1 x2 x3 x4 x5 x6 x7 x8 x9 x10 x11) := rfl

/-- The scatter-add of ones is the in-degree. -/
theorem deg2_eq (x1 : (⟨S2x800000, .i32⟩ : BufTy).Contents (Elt Ideal)) :
    val_main_v116 (F := Ideal) x1 = deg x1 := rfl

/-- The quotient stage, read at row `i` and feature `k`, is the neighbour mean of the previous layer's rows. -/
theorem agg2_eq (x0 : (⟨S50000x11, .f32⟩ : BufTy).Contents (Elt Ideal)) (x1 : (⟨S2x800000, .i32⟩ : BufTy).Contents (Elt Ideal)) (x2 : (⟨S11x128, .f32⟩ : BufTy).Contents (Elt Ideal)) (x3 : (⟨S128, .f32⟩ : BufTy).Contents (Elt Ideal)) (x4 : (⟨S11x128, .f32⟩ : BufTy).Contents (Elt Ideal)) (x5 : (⟨S128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128, .f32⟩ : BufTy).Contents (Elt Ideal)) (i : Fin 50000) (k : Fin 128) :
    val_main_v120 (F := Ideal) x0 x1 x2 x3 x4 x5 x6 x7 x8 x9 x10 x11 (ix2 i k) = (A128 x1 (fun i k => val_main_v102 (F := Ideal) x0 x1 x2 x3 x4 x5 x6 x7 x8 x9 x10 x11 (ix2 i k))) i k := by
  have e20 : idx_main_v119 (ix2 i k) = ix2 i 0 := funext fun a => Fin.ext (by match a with | ⟨0, _⟩ => rfl | ⟨1, _⟩ => rfl)
  rw [val_main_v120_apply, val_main_v119_apply, e20, val_main_v118_apply, val_main_v117_apply, val_main_cst_25_apply, seg2_eq, deg2_eq]
  unfold A128 aggDiv Seg.S128 Seg.cnt cmax cone
  rw [arr2_ix2]
  rfl

/-- The two products and the bias, read at row `i` and lane `j`. -/
theorem h2_eq (x0 : (⟨S50000x11, .f32⟩ : BufTy).Contents (Elt Ideal)) (x1 : (⟨S2x800000, .i32⟩ : BufTy).Contents (Elt Ideal)) (x2 : (⟨S11x128, .f32⟩ : BufTy).Contents (Elt Ideal)) (x3 : (⟨S128, .f32⟩ : BufTy).Contents (Elt Ideal)) (x4 : (⟨S11x128, .f32⟩ : BufTy).Contents (Elt Ideal)) (x5 : (⟨S128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 : (⟨S128x128, .f32⟩ : BufTy).Contents (Elt Ideal)) (i : Fin 50000) (j : Fin 128) :
    val_main_v126 (F := Ideal) x0 x1 x2 x3 x4 x5 x6 x7 x8 x9 x10 x11 x12 x13 x14 (ix2 i j) = lin (A128 x1 (fun i k => val_main_v102 (F := Ideal) x0 x1 x2 x3 x4 x5 x6 x7 x8 x9 x10 x11 (ix2 i k))) (fun i k => val_main_v102 (F := Ideal) x0 x1 x2 x3 x4 x5 x6 x7 x8 x9 x10 x11 (ix2 i k)) (fun k j => x12 (ix2 k j)) (fun k j => x14 (ix2 k j)) (fun j => x13 (ix1 j)) i j := by
  have el1 : ∀ k : Fin 128, lidx_main_v121 (ix2 i j) k = ix2 i k := fun k => funext fun a => Fin.ext (by match a with | ⟨0, _⟩ => rfl | ⟨1, _⟩ => rfl)
  have er1 : ∀ k : Fin 128, ridx_main_v121 (ix2 i j) k = ix2 k j := fun k => funext fun a => Fin.ext (by match a with | ⟨0, _⟩ => rfl | ⟨1, _⟩ => rfl)
  have el2 : ∀ k : Fin 128, lidx_main_v125 (ix2 i j) k = ix2 i k := fun k => funext fun a => Fin.ext (by match a with | ⟨0, _⟩ => rfl | ⟨1, _⟩ => rfl)
  have er2 : ∀ k : Fin 128, ridx_main_v125 (ix2 i j) k = ix2 k j := fun k => funext fun a => Fin.ext (by match a with | ⟨0, _⟩ => rfl | ⟨1, _⟩ => rfl)
  have eb : idx_main_v122 (idx_main_v123 (ix2 i j)) = ix1 j := funext fun a => Fin.ext (by match a with | ⟨0, _⟩ => rfl)
  unfold lin
  rw [val_main_v126_apply, val_main_v124_apply, val_main_v121_apply, val_main_v125_apply, val_main_v123_apply, val_main_v122_apply, eb]
  simp only [el1, er1, el2, er2, agg2_eq, Ideal.addf_def]

/-- The row mean stage is the mean of the row of `h`. -/
theorem mu2_eq (x0 : (⟨S50000x11, .f32⟩ : BufTy).Contents (Elt Ideal)) (x1 : (⟨S2x800000, .i32⟩ : BufTy).Contents (Elt Ideal)) (x2 : (⟨S11x128, .f32⟩ : BufTy).Contents (Elt Ideal)) (x3 : (⟨S128, .f32⟩ : BufTy).Contents (Elt Ideal)) (x4 : (⟨S11x128, .f32⟩ : BufTy).Contents (Elt Ideal)) (x5 : (⟨S128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 : (⟨S128x128, .f32⟩ : BufTy).Contents (Elt Ideal)) (i : Fin 50000) :
    val_main_v130 (F := Ideal) x0 x1 x2 x3 x4 x5 x6 x7 x8 x9 x10 x11 x12 x13 x14 (ix2 i 0) = mean (fun j => val_main_v126 (F := Ideal) x0 x1 x2 x3 x4 x5 x6 x7 x8 x9 x10 x11 x12 x13 x14 (ix2 i j)) := by
  have e29 : idx_main_v128 (ix2 i 0) = ix1 i := funext fun a => Fin.ext (by match a with | ⟨0, _⟩ => rfl)
  have e28 : ∀ k : Fin 128, idx_main_v127 (ix1 i) k = ix2 i k := fun k => funext fun a => Fin.ext (by match a with | ⟨0, _⟩ => rfl | ⟨1, _⟩ => rfl)
  unfold mean c128
  rw [val_main_v130_apply, val_main_v128_apply, e29, val_main_v127_apply, val_main_v129_apply, val_main_cst_27_apply, val_main_cst_26_apply]
  simp only [e28, Ideal.hostDivf_def, Ideal.ofBits_def, Ideal.ofBits_zero_f32, zero_add]

/-- The variance stage is the mean of the squared deviations of the row of `h`. -/
theorem var2_eq (x0 : (⟨S50000x11, .f32⟩ : BufTy).Contents (Elt Ideal)) (x1 : (⟨S2x800000, .i32⟩ : BufTy).Contents (Elt Ideal)) (x2 : (⟨S11x128, .f32⟩ : BufTy).Contents (Elt Ideal)) (x3 : (⟨S128, .f32⟩ : BufTy).Contents (Elt Ideal)) (x4 : (⟨S11x128, .f32⟩ : BufTy).Contents (Elt Ideal)) (x5 : (⟨S128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 : (⟨S128x128, .f32⟩ : BufTy).Contents (Elt Ideal)) (i : Fin 50000) :
    val_main_v137 (F := Ideal) x0 x1 x2 x3 x4 x5 x6 x7 x8 x9 x10 x11 x12 x13 x14 (ix2 i 0) = mean (fun l => (val_main_v126 (F := Ideal) x0 x1 x2 x3 x4 x5 x6 x7 x8 x9 x10 x11 x12 x13 x14 (ix2 i l) - mean (fun j => val_main_v126 (F := Ideal) x0 x1 x2 x3 x4 x5 x6 x7 x8 x9 x10 x11 x12 x13 x14 (ix2 i j))) * (val_main_v126 (F := Ideal) x0 x1 x2 x3 x4 x5 x6 x7 x8 x9 x10 x11 x12 x13 x14 (ix2 i l) - mean (fun j => val_main_v126 (F := Ideal) x0 x1 x2 x3 x4 x5 x6 x7 x8 x9 x10 x11 x12 x13 x14 (ix2 i j)))) := by
  have e36 : idx_main_v135 (ix2 i 0) = ix1 i := funext fun a => Fin.ext (by match a with | ⟨0, _⟩ => rfl)
  have e35 : ∀ k : Fin 128, idx_main_v134 (ix1 i) k = ix2 i k := fun k => funext fun a => Fin.ext (by match a with | ⟨0, _⟩ => rfl | ⟨1, _⟩ => rfl)
  have e32 : ∀ k : Fin 128, idx_main_v131 (ix2 i k) = ix2 i 0 := fun k => funext fun a => Fin.ext (by match a with | ⟨0, _⟩ => rfl | ⟨1, _⟩ => rfl)
  rw [val_main_v137_apply, val_main_v135_apply, e36, val_main_v134_apply, val_main_v136_apply, val_main_cst_29_apply, val_main_cst_28_apply]
  have hk : ∀ k : Fin 128, val_main_v133 (F := Ideal) x0 x1 x2 x3 x4 x5 x6 x7 x8 x9 x10 x11 x12 x13 x14 (idx_main_v134 (ix1 i) k) = (val_main_v126 (F := Ideal) x0 x1 x2 x3 x4 x5 x6 x7 x8 x9 x10 x11 x12 x13 x14 (ix2 i k) - mean (fun j => val_main_v126 (F := Ideal) x0 x1 x2 x3 x4 x5 x6 x7 x8 x9 x10 x11 x12 x13 x14 (ix2 i j))) * (val_main_v126 (F := Ideal) x0 x1 x2 x3 x4 x5 x6 x7 x8 x9 x10 x11 x12 x13 x14 (ix2 i k) - mean (fun j => val_main_v126 (F := Ideal) x0 x1 x2 x3 x4 x5 x6 x7 x8 x9 x10 x11 x12 x13 x14 (ix2 i j))) := by
    intro k
    rw [e35 k, val_main_v133_apply, val_main_v132_apply, val_main_v131_apply, e32 k, mu2_eq]
    rfl
  rw [Finset.sum_congr rfl (fun k _ => hk k)]
  simp only [Ideal.hostDivf_def, Ideal.ofBits_def, Ideal.ofBits_zero_f32, zero_add]
  rfl

/-- LayerNorm, scale, shift and the positive part, read at row `i` and lane `j`. -/
theorem ln2_eq (x0 : (⟨S50000x11, .f32⟩ : BufTy).Contents (Elt Ideal)) (x1 : (⟨S2x800000, .i32⟩ : BufTy).Contents (Elt Ideal)) (x2 : (⟨S11x128, .f32⟩ : BufTy).Contents (Elt Ideal)) (x3 : (⟨S128, .f32⟩ : BufTy).Contents (Elt Ideal)) (x4 : (⟨S11x128, .f32⟩ : BufTy).Contents (Elt Ideal)) (x5 : (⟨S128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128, .f32⟩ : BufTy).Contents (Elt Ideal)) (i : Fin 50000) (j : Fin 128) :
    val_main_v151 (F := Ideal) x0 x1 x2 x3 x4 x5 x6 x7 x8 x9 x10 x11 x12 x13 x14 x15 x16 (ix2 i j) = lnrelu (fun j => val_main_v126 (F := Ideal) x0 x1 x2 x3 x4 x5 x6 x7 x8 x9 x10 x11 x12 x13 x14 (ix2 i j)) (fun j => x15 (ix1 j)) (fun j => x16 (ix1 j)) j := by
  have e39 : idx_main_v138 (ix2 i j) = ix2 i 0 := funext fun a => Fin.ext (by match a with | ⟨0, _⟩ => rfl | ⟨1, _⟩ => rfl)
  have e44 : idx_main_v143 (ix2 i j) = ix2 i 0 := funext fun a => Fin.ext (by match a with | ⟨0, _⟩ => rfl | ⟨1, _⟩ => rfl)
  have e47 : idx_main_v145 (idx_main_v146 (ix2 i j)) = ix1 j := funext fun a => Fin.ext (by match a with | ⟨0, _⟩ => rfl)
  have e50 : idx_main_v148 (idx_main_v149 (ix2 i j)) = ix1 j := funext fun a => Fin.ext (by match a with | ⟨0, _⟩ => rfl)
  rw [val_main_v151_apply, val_main_v150_apply, val_main_v147_apply, val_main_v144_apply, val_main_v139_apply, val_main_v138_apply, e39, val_main_v143_apply, e44, val_main_v142_apply, val_main_v141_apply, val_main_v140_apply, val_main_cst_30_apply,
    val_main_v146_apply, val_main_v145_apply, e47, val_main_v149_apply, val_main_v148_apply, e50, val_main_call2_v0_apply, val_main_call2_cst_apply, mu2_eq, var2_eq]
  simp only [Ideal.addf_def, Ideal.mulf_def, Ideal.subf_def, Ideal.maximumf_def, Ideal.hostUnary_rsqrt_def, Ideal.ofBits_def, Ideal.ofBits_zero_f32]
  rfl

/-- This layer of the reference is the specified residual layer on the previous layer's rows and their neighbour means. -/
theorem layer2_eq (x0 : (⟨S50000x11, .f32⟩ : BufTy).Contents (Elt Ideal)) (x1 : (⟨S2x800000, .i32⟩ : BufTy).Contents (Elt Ideal)) (x2 : (⟨S11x128, .f32⟩ : BufTy).Contents (Elt Ideal)) (x3 : (⟨S128, .f32⟩ : BufTy).Contents (Elt Ideal)) (x4 : (⟨S11x128, .f32⟩ : BufTy).Contents (Elt Ideal)) (x5 : (⟨S128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128, .f32⟩ : BufTy).Contents (Elt Ideal)) :
    (fun (i : Fin 50000) (j : Fin 128) => val_main_v152 (F := Ideal) x0 x1 x2 x3 x4 x5 x6 x7 x8 x9 x10 x11 x12 x13 x14 x15 x16 (ix2 i j))
      = layerR (A128 x1 (fun i k => val_main_v102 (F := Ideal) x0 x1 x2 x3 x4 x5 x6 x7 x8 x9 x10 x11 (ix2 i k))) (fun i k => val_main_v102 (F := Ideal) x0 x1 x2 x3 x4 x5 x6 x7 x8 x9 x10 x11 (ix2 i k))
          (fun k j => x12 (ix2 k j)) (fun k j => x14 (ix2 k j)) (fun j => x13 (ix1 j)) (fun j => x15 (ix1 j)) (fun j => x16 (ix1 j)) := by
  funext i j
  rw [val_main_v152_apply, ln2_eq, Ideal.addf_def]
  unfold layerR
  exact congrArg (fun h => lnrelu h (fun j => x15 (ix1 j)) (fun j => x16 (ix1 j)) j + val_main_v102 (F := Ideal) x0 x1 x2 x3 x4 x5 x6 x7 x8 x9 x10 x11 (ix2 i j)) (funext fun l => h2_eq x0 x1 x2 x3 x4 x5 x6 x7 x8 x9 x10 x11 x12 x13 x14 i l)

end Cert.ReferenceIdeal.RefNet

end
-- ==== Proof.RefHead.lean ====
/-
  The classifier head of the reference program, read index by index, is the specified head: a product with the
  first weight, the bias, the positive part, a product with the second weight's single column, and the last bias.
-/
import proofs.«113527_j11390253269041_2_alg».proof.Proof.RefRead
import proofs.«113527_j11390253269041_2_alg».proof.Proof.SegR
import proofs.«113527_j11390253269041_2_alg».proof.Proof.Spec

import Idealize.ShloMosaic.Lib.ValueIdx
import Idealize.ShloMosaic.PureOps.Ideal
import Idealize.ShloMosaic.PureOps.Ideal.Laws

noncomputable section

open scoped BigOperators

namespace Cert.ReferenceIdeal.RefNet

open Cert.ReferenceIdeal Cert.ReferenceIdeal.ReadP Cert.ReferenceIdeal.Seg Cert.Sage Idealize.ShloMosaic Idealize.ShloMosaic.ValueIdx

/-- The classifier head of the reference, read at node `i`, is the specified head on the last layer's rows. -/
theorem head_eq (x0 : (⟨S50000x11, .f32⟩ : BufTy).Contents (Elt Ideal)) (x1 : (⟨S2x800000, .i32⟩ : BufTy).Contents (Elt Ideal)) (x2 : (⟨S11x128, .f32⟩ : BufTy).Contents (Elt Ideal)) (x3 : (⟨S128, .f32⟩ : BufTy).Contents (Elt Ideal)) (x4 : (⟨S11x128, .f32⟩ : BufTy).Contents (Elt Ideal)) (x5 : (⟨S128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128, .f32⟩ : BufTy).Contents (Elt Ideal)) (x17 : (⟨S128x64, .f32⟩ : BufTy).Contents (Elt Ideal)) (x18 : (⟨S64, .f32⟩ : BufTy).Contents (Elt Ideal)) (x19 : (⟨S64x1, .f32⟩ : BufTy).Contents (Elt Ideal)) (x20 : (⟨S1, .f32⟩ : BufTy).Contents (Elt Ideal)) :
    (fun (i : Fin 50000) => val_main_v162 (F := Ideal) x0 x1 x2 x3 x4 x5 x6 x7 x8 x9 x10 x11 x12 x13 x14 x15 x16 x17 x18 x19 x20 (ix1 i))
      = head (fun i j => val_main_v152 (F := Ideal) x0 x1 x2 x3 x4 x5 x6 x7 x8 x9 x10 x11 x12 x13 x14 x15 x16 (ix2 i j)) (fun j q => x17 (ix2 j q)) (fun q => x18 (ix1 q)) (fun q => x19 (ix2 q 0)) (x20 (ix1 0)) := by
  funext i
  have e162 : idx_main_v162 (ix1 i) = ix2 i 0 :=
    funext fun a => Fin.ext (by match a with | ⟨0, _⟩ => exact Nat.div_one _ | ⟨1, _⟩ => rfl)
  have e160 : idx_main_v159 (idx_main_v160 (ix2 i 0)) = ix1 0 := funext fun a => Fin.ext (by match a with | ⟨0, _⟩ => rfl)
  have el : ∀ q : Fin 64, lidx_main_v158 (ix2 i 0) q = ix2 i q := fun q => funext fun a => Fin.ext (by match a with | ⟨0, _⟩ => rfl | ⟨1, _⟩ => rfl)
  have er : ∀ q : Fin 64, ridx_main_v158 (ix2 i 0) q = ix2 q 0 := fun q => funext fun a => Fin.ext (by match a with | ⟨0, _⟩ => rfl | ⟨1, _⟩ => rfl)
  have hq : ∀ q : Fin 64, val_main_v157 (F := Ideal) x0 x1 x2 x3 x4 x5 x6 x7 x8 x9 x10 x11 x12 x13 x14 x15 x16 x17 x18 (lidx_main_v158 (ix2 i 0) q) * x19 (ridx_main_v158 (ix2 i 0) q)
      = max (∑ j : Fin 128, val_main_v152 (F := Ideal) x0 x1 x2 x3 x4 x5 x6 x7 x8 x9 x10 x11 x12 x13 x14 x15 x16 (ix2 i j) * x17 (ix2 j q) + x18 (ix1 q)) 0 * x19 (ix2 q 0) := by
    intro q
    have el3 : ∀ k : Fin 128, lidx_main_v153 (ix2 i q) k = ix2 i k := fun k => funext fun a => Fin.ext (by match a with | ⟨0, _⟩ => rfl | ⟨1, _⟩ => rfl)
    have er3 : ∀ k : Fin 128, ridx_main_v153 (ix2 i q) k = ix2 k q := fun k => funext fun a => Fin.ext (by match a with | ⟨0, _⟩ => rfl | ⟨1, _⟩ => rfl)
    have eb : idx_main_v154 (idx_main_v155 (ix2 i q)) = ix1 q := funext fun a => Fin.ext (by match a with | ⟨0, _⟩ => rfl)
    have hk : ∀ k : Fin 128, val_main_v152 (F := Ideal) x0 x1 x2 x3 x4 x5 x6 x7 x8 x9 x10 x11 x12 x13 x14 x15 x16 (lidx_main_v153 (ix2 i q) k) * x17 (ridx_main_v153 (ix2 i q) k)
        = val_main_v152 (F := Ideal) x0 x1 x2 x3 x4 x5 x6 x7 x8 x9 x10 x11 x12 x13 x14 x15 x16 (ix2 i k) * x17 (ix2 k q) := fun k => by rw [el3 k, er3 k]
    rw [el q, er q, val_main_v157_apply, val_main_v156_apply, val_main_v153_apply, val_main_v155_apply, val_main_v154_apply, eb,
      val_main_call3_v0_apply, val_main_call3_cst_apply, Finset.sum_congr rfl (fun k _ => hk k)]
    simp only [Ideal.addf_def, Ideal.maximumf_def, Ideal.ofBits_def, Ideal.ofBits_zero_f32]
  unfold head
  rw [val_main_v162_apply, e162, val_main_v161_apply, val_main_v158_apply, val_main_v160_apply, val_main_v159_apply, e160,
    Finset.sum_congr rfl (fun q _ => hq q), Ideal.addf_def]

end Cert.ReferenceIdeal.RefNet

end
-- ==== Proof.RefNet.lean ====
/-
  The reference program is the specified network: the three layer equations and the head equation, composed.
-/
import proofs.«113527_j11390253269041_2_alg».proof.Proof.RefRead
import proofs.«113527_j11390253269041_2_alg».proof.Proof.SegR
import proofs.«113527_j11390253269041_2_alg».proof.Proof.Spec
import proofs.«113527_j11390253269041_2_alg».proof.Proof.RefLib
import proofs.«113527_j11390253269041_2_alg».proof.Proof.RefL0
import proofs.«113527_j11390253269041_2_alg».proof.Proof.RefL1
import proofs.«113527_j11390253269041_2_alg».proof.Proof.RefL2
import proofs.«113527_j11390253269041_2_alg».proof.Proof.RefHead
import Idealize.ShloMosaic.Lib.ValueIdx
import Idealize.ShloMosaic.PureOps.Ideal
import Idealize.ShloMosaic.PureOps.Ideal.Laws

noncomputable section

open scoped BigOperators

namespace Cert.ReferenceIdeal.RefNet

open Cert.ReferenceIdeal Cert.ReferenceIdeal.ReadP Cert.ReferenceIdeal.Seg Cert.Sage Idealize.ShloMosaic Idealize.ShloMosaic.ValueIdx

/-- The reference program computes the specified network: three layers over the neighbour means and the head. -/
theorem ref_net (x0 : (⟨S50000x11, .f32⟩ : BufTy).Contents (Elt Ideal)) (x1 : (⟨S2x800000, .i32⟩ : BufTy).Contents (Elt Ideal)) (x2 : (⟨S11x128, .f32⟩ : BufTy).Contents (Elt Ideal)) (x3 : (⟨S128, .f32⟩ : BufTy).Contents (Elt Ideal)) (x4 : (⟨S11x128, .f32⟩ : BufTy).Contents (Elt Ideal)) (x5 : (⟨S128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128, .f32⟩ : BufTy).Contents (Elt Ideal)) (x17 : (⟨S128x64, .f32⟩ : BufTy).Contents (Elt Ideal)) (x18 : (⟨S64, .f32⟩ : BufTy).Contents (Elt Ideal)) (x19 : (⟨S64x1, .f32⟩ : BufTy).Contents (Elt Ideal)) (x20 : (⟨S1, .f32⟩ : BufTy).Contents (Elt Ideal)) :
    val_main_v162 (F := Ideal) x0 x1 x2 x3 x4 x5 x6 x7 x8 x9 x10 x11 x12 x13 x14 x15 x16 x17 x18 x19 x20 = fun idx => net (A11 x1) (A128 x1) (fun i k => x0 (ix2 i k))
        (fun k j => x2 (ix2 k j)) (fun k j => x4 (ix2 k j)) (fun j => x3 (ix1 j)) (fun j => x5 (ix1 j)) (fun j => x6 (ix1 j))
        (fun k j => x7 (ix2 k j)) (fun k j => x9 (ix2 k j)) (fun j => x8 (ix1 j)) (fun j => x10 (ix1 j)) (fun j => x11 (ix1 j))
        (fun k j => x12 (ix2 k j)) (fun k j => x14 (ix2 k j)) (fun j => x13 (ix1 j)) (fun j => x15 (ix1 j)) (fun j => x16 (ix1 j))
        (fun j q => x17 (ix2 j q)) (fun q => x18 (ix1 q)) (fun q => x19 (ix2 q 0)) (x20 (ix1 0)) (idx 0) := by
  funext idx
  obtain ⟨i, rfl⟩ : ∃ i : Fin 50000, idx = ix1 i := ⟨idx 0, eq_ix1 idx⟩
  have e0 := layer0_eq x0 x1 x2 x3 x4 x5 x6
  have e1 := layer1_eq x0 x1 x2 x3 x4 x5 x6 x7 x8 x9 x10 x11
  have e2 := layer2_eq x0 x1 x2 x3 x4 x5 x6 x7 x8 x9 x10 x11 x12 x13 x14 x15 x16
  have eh := congrFun (head_eq x0 x1 x2 x3 x4 x5 x6 x7 x8 x9 x10 x11 x12 x13 x14 x15 x16 x17 x18 x19 x20) i
  show _ = net (A11 x1) (A128 x1) (fun i k => x0 (ix2 i k))
        (fun k j => x2 (ix2 k j)) (fun k j => x4 (ix2 k j)) (fun j => x3 (ix1 j)) (fun j => x5 (ix1 j)) (fun j => x6 (ix1 j))
        (fun k j => x7 (ix2 k j)) (fun k j => x9 (ix2 k j)) (fun j => x8 (ix1 j)) (fun j => x10 (ix1 j)) (fun j => x11 (ix1 j))
        (fun k j => x12 (ix2 k j)) (fun k j => x14 (ix2 k j)) (fun j => x13 (ix1 j)) (fun j => x15 (ix1 j)) (fun j => x16 (ix1 j))
        (fun j q => x17 (ix2 j q)) (fun q => x18 (ix1 q)) (fun q => x19 (ix2 q 0)) (x20 (ix1 0)) i
  unfold net
  rw [← e0, ← e1, ← e2]
  exact eh

end Cert.ReferenceIdeal.RefNet

end
-- ==== Proof.Bridge.lean ====
/-
  The two programs meet.

  Both apply the same gather / scatter-add chain to their operands — the printed records are the same data — so the
  segment sums and the in-degree are the same functions; the kernel multiplies the segment sum by the reciprocal of
  `max (in-degree) 1` where the reference divides by it, which agree on every extended real because the divisor is
  never zero.  Hence the kernel's neighbour means are the reference's, and with them the whole network.
-/
import proofs.«113527_j11390253269041_2_alg».proof.Proof.KernelValue
import proofs.«113527_j11390253269041_2_alg».proof.Proof.RefFold
import proofs.«113527_j11390253269041_2_alg».proof.Proof.RefNet

set_option maxRecDepth 16384

noncomputable section

namespace Cert.Proof.Bridge

open Cert.Sage Idealize.ShloMosaic Idealize.ShloMosaic.TcCoe Idealize.ShloMosaic.ValueIdx Idealize.SL.Sem

/-- The aggregation chains of the two programs are the same functions. -/
theorem S11_eq : Cert.KernelIdeal.Seg.S11 = Cert.ReferenceIdeal.Seg.S11 := rfl
theorem S128_eq : Cert.KernelIdeal.Seg.S128 = Cert.ReferenceIdeal.Seg.S128 := rfl
theorem cnt_eq : Cert.KernelIdeal.Seg.cnt = Cert.ReferenceIdeal.Seg.cnt := rfl

/-- So the kernel's neighbour means (times the reciprocal) are the reference's (over the divisor). -/
theorem A11_eq (ei : IVec Cert.KernelIdeal.S2x800000 32) : Cert.KernelIdeal.KVal.A11k ei = Cert.ReferenceIdeal.RefNet.A11 ei := by
  funext f
  unfold Cert.KernelIdeal.KVal.A11k Cert.ReferenceIdeal.RefNet.A11
  rw [aggMul_eq_aggDiv, S11_eq, cnt_eq]
theorem A128_eq (ei : IVec Cert.KernelIdeal.S2x800000 32) : Cert.KernelIdeal.KVal.A128k ei = Cert.ReferenceIdeal.RefNet.A128 ei := by
  funext f
  unfold Cert.KernelIdeal.KVal.A128k Cert.ReferenceIdeal.RefNet.A128
  rw [aggMul_eq_aggDiv, S128_eq, cnt_eq]

/-- From memories that agree on the arguments, the reference's last stage is the kernel's output. -/
theorem values_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) :
    Cert.ReferenceIdeal.ReadP.val_main_v162 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20))
      = fun idx => Cert.KernelIdeal.KVal.OUT m c (idx 0) := by
  obtain ⟨h0, h1, h2, h3, h4, h5, h6, h7, h8, h9, h10, h11, h12, h13, h14, h15, h16, h17, h18, h19, h20⟩ := hagree
  rw [Cert.ReferenceIdeal.RefNet.ref_net, h0, h1, h2, h3, h4, h5, h6, h7, h8, h9, h10, h11, h12, h13, h14, h15, h16, h17, h18, h19, h20, Cert.KernelIdeal.KVal.out_eq_net, A11_eq, A128_eq]

end Cert.Proof.Bridge

end
-- ==== Proof.lean ====
/-
  The certificate: a three-layer graph network (neighbour mean, two linear maps, LayerNorm, ReLU, residual) with a
  two-layer classifier head, as a tiled kernel program of three regions against its plain reference.

  Frames.  The two kernel programs' frames are generated whole.  The reference is a straight line of host operations:
  every buffer ends at the fold of the operations over the launch contents, and no operation writes an argument.

  Preserves.  The ideal pass rewrote nothing: the conjunct is `True`.

  Algebraic.  At the extended reals the kernel's result buffer, followed through its three regions and four
  stretches of host operations, is the specified network `Cert.Sage.net` of the argument arrays over the neighbour
  means "segment sum times 1 / max(in-degree, 1)"; the reference's last stage, read one operation at a time, is the
  same network over "segment sum / max(in-degree, 1)".  The divisor is at least one, hence not zero, and off zero a
  quotient on the extended reals is the product with the inverse: the two neighbour means are one function, with no
  finiteness needed, and the precondition is never opened.
-/
import proofs.«113527_j11390253269041_2_alg».proof.Defs
import proofs.«113527_j11390253269041_2_alg».proof.Proof.Gen.Kernel
import proofs.«113527_j11390253269041_2_alg».proof.Proof.Gen.Kernel.Skeleton
import proofs.«113527_j11390253269041_2_alg».proof.Proof.Gen.Kernel.Launch
import proofs.«113527_j11390253269041_2_alg».proof.Proof.Gen.Kernel.Points
import proofs.«113527_j11390253269041_2_alg».proof.Proof.Gen.Kernel.Frame
import proofs.«113527_j11390253269041_2_alg».proof.Proof.Gen.KernelIdeal
import proofs.«113527_j11390253269041_2_alg».proof.Proof.Gen.KernelIdeal.Skeleton
import proofs.«113527_j11390253269041_2_alg».proof.Proof.Gen.KernelIdeal.Launch
import proofs.«113527_j11390253269041_2_alg».proof.Proof.Gen.KernelIdeal.Points
import proofs.«113527_j11390253269041_2_alg».proof.Proof.Gen.KernelIdeal.Frame
import proofs.«113527_j11390253269041_2_alg».proof.Proof.Gen.ReferenceIdeal
import proofs.«113527_j11390253269041_2_alg».proof.Proof.Gen.Pre_finite_inputs
import proofs.«113527_j11390253269041_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ

/-- The reference's arguments end as launched: no operation of its line writes one. -/
theorem frame_ri : Cert.frame_ReferenceIdeal := fun m ρ _ =>
  (θ_run (Cert.ReferenceIdeal.defs (F := Ideal)) _ _).mono (fun r h c =>
    ⟨(h c Cert.ReferenceIdeal.main_arg0).trans (Cert.ReferenceIdeal.RefFold.fold_arg0 _),
     (h c Cert.ReferenceIdeal.main_arg1).trans (Cert.ReferenceIdeal.RefFold.fold_arg1 _),
     (h c Cert.ReferenceIdeal.main_arg2).trans (Cert.ReferenceIdeal.RefFold.fold_arg2 _),
     (h c Cert.ReferenceIdeal.main_arg3).trans (Cert.ReferenceIdeal.RefFold.fold_arg3 _),
     (h c Cert.ReferenceIdeal.main_arg4).trans (Cert.ReferenceIdeal.RefFold.fold_arg4 _),
     (h c Cert.ReferenceIdeal.main_arg5).trans (Cert.ReferenceIdeal.RefFold.fold_arg5 _),
     (h c Cert.ReferenceIdeal.main_arg6).trans (Cert.ReferenceIdeal.RefFold.fold_arg6 _),
     (h c Cert.ReferenceIdeal.main_arg7).trans (Cert.ReferenceIdeal.RefFold.fold_arg7 _),
     (h c Cert.ReferenceIdeal.main_arg8).trans (Cert.ReferenceIdeal.RefFold.fold_arg8 _),
     (h c Cert.ReferenceIdeal.main_arg9).trans (Cert.ReferenceIdeal.RefFold.fold_arg9 _),
     (h c Cert.ReferenceIdeal.main_arg10).trans (Cert.ReferenceIdeal.RefFold.fold_arg10 _),
     (h c Cert.ReferenceIdeal.main_arg11).trans (Cert.ReferenceIdeal.RefFold.fold_arg11 _),
     (h c Cert.ReferenceIdeal.main_arg12).trans (Cert.ReferenceIdeal.RefFold.fold_arg12 _),
     (h c Cert.ReferenceIdeal.main_arg13).trans (Cert.ReferenceIdeal.RefFold.fold_arg13 _),
     (h c Cert.ReferenceIdeal.main_arg14).trans (Cert.ReferenceIdeal.RefFold.fold_arg14 _),
     (h c Cert.ReferenceIdeal.main_arg15).trans (Cert.ReferenceIdeal.RefFold.fold_arg15 _),
     (h c Cert.ReferenceIdeal.main_arg16).trans (Cert.ReferenceIdeal.RefFold.fold_arg16 _),
     (h c Cert.ReferenceIdeal.main_arg17).trans (Cert.ReferenceIdeal.RefFold.fold_arg17 _),
     (h c Cert.ReferenceIdeal.main_arg18).trans (Cert.ReferenceIdeal.RefFold.fold_arg18 _),
     (h c Cert.ReferenceIdeal.main_arg19).trans (Cert.ReferenceIdeal.RefFold.fold_arg19 _),
     (h c Cert.ReferenceIdeal.main_arg20).trans (Cert.ReferenceIdeal.RefFold.fold_arg20 _)⟩)
    (Cert.ReferenceIdeal.ValueP.run_after (F := Ideal) m ρ)

theorem preserves : Cert.preserves_Kernel_KernelIdeal := trivial

/-- Both runs end with the network's output of the (agreeing) arguments in their result buffers. -/
theorem algebraic : Cert.algebraic_KernelIdeal_ReferenceIdeal := by
  intro m g m' g' _ hagree
  refine ⟨fun c idx => Cert.KernelIdeal.KVal.OUT m c (idx 0), ?_, ?_⟩
  · exact (θ_run (Cert.KernelIdeal.defs (F := Ideal)) _ _).mono
      (fun r h c => ⟨(h c).1.trans (Cert.KernelIdeal.KVal.kernel_value m g c), (h c).2⟩)
      (Cert.KernelIdeal.GenP.frame_val (F := Ideal) m g)
  · exact (θ_run (Cert.ReferenceIdeal.defs (F := Ideal)) _ _).mono (fun r h c =>
      ⟨((h c Cert.ReferenceIdeal.main_v162).trans (Cert.ReferenceIdeal.RefFold.fold_result _)).trans (Bridge.values_agree m m' c (hagree c)),
       (h c Cert.ReferenceIdeal.main_arg0).trans (Cert.ReferenceIdeal.RefFold.fold_arg0 _),
       (h c Cert.ReferenceIdeal.main_arg1).trans (Cert.ReferenceIdeal.RefFold.fold_arg1 _),
       (h c Cert.ReferenceIdeal.main_arg2).trans (Cert.ReferenceIdeal.RefFold.fold_arg2 _),
       (h c Cert.ReferenceIdeal.main_arg3).trans (Cert.ReferenceIdeal.RefFold.fold_arg3 _),
       (h c Cert.ReferenceIdeal.main_arg4).trans (Cert.ReferenceIdeal.RefFold.fold_arg4 _),
       (h c Cert.ReferenceIdeal.main_arg5).trans (Cert.ReferenceIdeal.RefFold.fold_arg5 _),
       (h c Cert.ReferenceIdeal.main_arg6).trans (Cert.ReferenceIdeal.RefFold.fold_arg6 _),
       (h c Cert.ReferenceIdeal.main_arg7).trans (Cert.ReferenceIdeal.RefFold.fold_arg7 _),
       (h c Cert.ReferenceIdeal.main_arg8).trans (Cert.ReferenceIdeal.RefFold.fold_arg8 _),
       (h c Cert.ReferenceIdeal.main_arg9).trans (Cert.ReferenceIdeal.RefFold.fold_arg9 _),
       (h c Cert.ReferenceIdeal.main_arg10).trans (Cert.ReferenceIdeal.RefFold.fold_arg10 _),
       (h c Cert.ReferenceIdeal.main_arg11).trans (Cert.ReferenceIdeal.RefFold.fold_arg11 _),
       (h c Cert.ReferenceIdeal.main_arg12).trans (Cert.ReferenceIdeal.RefFold.fold_arg12 _),
       (h c Cert.ReferenceIdeal.main_arg13).trans (Cert.ReferenceIdeal.RefFold.fold_arg13 _),
       (h c Cert.ReferenceIdeal.main_arg14).trans (Cert.ReferenceIdeal.RefFold.fold_arg14 _),
       (h c Cert.ReferenceIdeal.main_arg15).trans (Cert.ReferenceIdeal.RefFold.fold_arg15 _),
       (h c Cert.ReferenceIdeal.main_arg16).trans (Cert.ReferenceIdeal.RefFold.fold_arg16 _),
       (h c Cert.ReferenceIdeal.main_arg17).trans (Cert.ReferenceIdeal.RefFold.fold_arg17 _),
       (h c Cert.ReferenceIdeal.main_arg18).trans (Cert.ReferenceIdeal.RefFold.fold_arg18 _),
       (h c Cert.ReferenceIdeal.main_arg19).trans (Cert.ReferenceIdeal.RefFold.fold_arg19 _),
       (h c Cert.ReferenceIdeal.main_arg20).trans (Cert.ReferenceIdeal.RefFold.fold_arg20 _)⟩)
      (Cert.ReferenceIdeal.ValueP.run_after (F := Ideal) m' g')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
